-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 19
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1, .i32⟩
  | .hbm, ⟨11, _⟩ => ⟨S1x4096, .i32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1, .i32⟩
  | .local _ .vmem, ⟨19, _⟩ => ⟨S512x1, .i32⟩
  | .local _ .vmem, ⟨20, _⟩ => ⟨S1x512, .i32⟩
  | .local _ .vmem, ⟨21, _⟩ => ⟨S1x512, .i32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v79 : BitVec 1 := Scalar.cmpi .eq arg1 c7_i32
  let v80 : BitVec 32 := Scalar.extui v79
  let c0_i32_42 : BitVec 32 := 0#32
  let v81 : BitVec 1 := Scalar.cmpi .ne v80 c0_i32_42
  v81

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S4096x1_S_d0_1 : S4096x1.ReducesTo [0, 1] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .i32 = 32 ∨ (Rect.block (s := S1x4096) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x1024, .f32⟩
  | .hbm, ⟨8, _⟩ => ⟨S4096x1024, .f32⟩
  | .hbm, ⟨9, _⟩ => ⟨S1024x4096, .f32⟩
  | .hbm, ⟨10, _⟩ => ⟨S4096x4096, .f32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S4096x4096, .i1⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S4096x4096, .f32⟩
  | .hbm, ⟨38, _⟩ => ⟨S4096x4096, .i1⟩
  | .hbm, ⟨39, _⟩ => ⟨S4096x4096, .i1⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x1, .f32⟩
  | .hbm, ⟨44, _⟩ => ⟨S4096x4096, .f32⟩
  | .hbm, ⟨45, _⟩ => ⟨S4096x4096, .i1⟩
  | .hbm, ⟨46, _⟩ => ⟨S4096x4096, .i1⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S_, .i1⟩
  | .hbm, ⟨82, _⟩ => ⟨S4096, .i1⟩
  | .hbm, ⟨83, _⟩ => ⟨S_, .i1⟩
  | .hbm, ⟨84, _⟩ => ⟨S4096, .i1⟩
  | .hbm, ⟨85, _⟩ => ⟨S4096, .i1⟩
  | .hbm, ⟨86, _⟩ => ⟨S4096, .f32⟩
  | .hbm, ⟨87, _⟩ => ⟨S_, .f32⟩
  | .hbm, ⟨88, _⟩ => ⟨S_, .f32⟩
  | .hbm, ⟨89, _⟩ => ⟨S4096, .f32⟩
  | .hbm, ⟨90, _⟩ => ⟨S4096, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_call3_v0 : Ref sig .tc := ⟨.hbm, 55, rfl⟩
abbrev main_call3_v1 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_call4_v0 : Ref sig .tc := ⟨.hbm, 68, rfl⟩
abbrev main_call4_v1 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_15 : Ref sig .tc := ⟨.hbm, 78, rfl⟩
abbrev main_v48 : Ref sig .tc := ⟨.hbm, 79, rfl⟩
abbrev main_v49 : Ref sig .tc := ⟨.hbm, 80, rfl⟩
abbrev main_c : Ref sig .tc := ⟨.hbm, 81, rfl⟩
abbrev main_v50 : Ref sig .tc := ⟨.hbm, 82, rfl⟩
abbrev main_c_16 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_17 : Ref sig .tc := ⟨.hbm, 87, rfl⟩
abbrev main_call5_v0 : Ref sig .tc := ⟨.hbm, 88, rfl⟩
abbrev main_call5_v1 : Ref sig .tc := ⟨.hbm, 89, rfl⟩
abbrev main_v54 : Ref sig .tc := ⟨.hbm, 90, rfl⟩
abbrev main_cst_18 : Ref sig .tc := ⟨.hbm, 91, rfl⟩
abbrev main_v55 : Ref sig .tc := ⟨.hbm, 92, rfl⟩
abbrev main_cst_19 : Ref sig .tc := ⟨.hbm, 93, rfl⟩
abbrev main_v56 : Ref sig .tc := ⟨.hbm, 94, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KB.R0Runs.lean ====
/-
  The first pass of the kernel (per-row minimum over the positives and maximum over the negatives of the
  similarity matrix, taken tile by tile along a row of 8 column tiles) as a pipelined region: what its three
  control cases share. A grid point t = 8·i + j handles row tile i against column tile j. The two running
  extrema live in two scratch columns that are reset at j = 0, updated at every j, and copied into the two output
  blocks at j = 7; the output blocks are idle at the other points.
-/
import proofs.«136741_j45509473469192_1_alg».proof.Proof.Gen.Kernel.Launch
import proofs.«136741_j45509473469192_1_alg».proof.Proof.Gen.Kernel.Skeleton
import proofs.«136741_j45509473469192_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the unscoped buffers when a region is entered, per core. -/
abbrev Entry (F : FTy → Type) : Type := (c : Dev nD) → (b : Ref sig .tc) → Buf (Elt F) ((c : Thread nD τ).loc b)

variable (V : Entry F)

/-! ## The blocks the first pass reads -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions, in closed form over the 64 grid points -/

/-- "This is the first column tile of the row" (j = 0), as the body computes it. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)

/-- "This is the last column tile of the row" (j = 7). -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

/-! ## Where the windows are live -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last column tile the two output blocks are idle and are not written back. -/
theorem idle0_4 : ∀ t : Fin cfg0.N, ¬last0 (grid0.coords t) → cfg0.idle 4 (grid0.coords t) = true := by decide +kernel
theorem idle0_5 : ∀ t : Fin cfg0.N, ¬last0 (grid0.coords t) → cfg0.idle 5 (grid0.coords t) = true := by decide +kernel
theorem noFlush0_4 : ∀ t : Fin cfg0.N, ¬last0 (grid0.coords t) → (cfg0.win 4).flush t = false := by decide +kernel
theorem noFlush0_5 : ∀ t : Fin cfg0.N, ¬last0 (grid0.coords t) → (cfg0.win 5).flush t = false := by decide +kernel
/-- At the last column tile they are live. -/
theorem live0_4 : ∀ t : Fin cfg0.N, last0 (grid0.coords t) → cfg0.idle 4 (grid0.coords t) = false := by decide +kernel
theorem live0_5 : ∀ t : Fin cfg0.N, last0 (grid0.coords t) → cfg0.idle 5 (grid0.coords t) = false := by decide +kernel

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The two scratch columns: the running minimum and the running maximum. -/
abbrev scMin0 : Memref sig .tc .vmem S512x1 .f32 := Memref.whole cc0_scratch0
abbrev scMax0 : Memref sig .tc .vmem S512x1 .f32 := Memref.whole cc0_scratch1
/-- Views through which the scratch columns' and the output blocks' contents are stated. -/
abbrev VMin0 : View sig .tc .vmem S512x1 .f32 := scMin0.view
abbrev VMax0 : View sig .tc .vmem S512x1 .f32 := scMax0.view
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

end Cert.Kernel.Hand

end
-- ==== Proof.KB.R1Runs.lean ====
/-
  The second pass of the kernel (per row: the two weighted sums over the selected positives and negatives and
  whether any was selected, accumulated tile by tile along a row of 8 column tiles, then the row's loss) as a
  pipelined region: what its three control cases share. A grid point t = 8·i + j handles row tile i against column
  tile j. Four scratch columns are reset at j = 0 and updated at every j; at j = 7 the row losses are stored into
  the output block, which is idle at the other points.
-/
import proofs.«136741_j45509473469192_1_alg».proof.Proof.KB.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The blocks the second pass reads -/

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions, in closed form over the 64 grid points -/

abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

/-! ## Where the windows are live -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

/-! ## The memrefs the body is called with -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
/-- The four scratch columns: the positives' sum, the negatives' sum, "some positive selected", "some negative selected". -/
abbrev sc1_0 : Memref sig .tc .vmem S512x1 .f32 := Memref.whole cc1_scratch0
abbrev VS1_0 : View sig .tc .vmem S512x1 .f32 := sc1_0.view
abbrev sc1_1 : Memref sig .tc .vmem S512x1 .f32 := Memref.whole cc1_scratch1
abbrev VS1_1 : View sig .tc .vmem S512x1 .f32 := sc1_1.view
abbrev sc1_2 : Memref sig .tc .vmem S512x1 .f32 := Memref.whole cc1_scratch2
abbrev VS1_2 : View sig .tc .vmem S512x1 .f32 := sc1_2.view
abbrev sc1_3 : Memref sig .tc .vmem S512x1 .f32 := Memref.whole cc1_scratch3
abbrev VS1_3 : View sig .tc .vmem S512x1 .f32 := sc1_3.view
abbrev VO1_6 : View sig .tc .vmem S512x1 .f32 := (Memref.whole cc1_stg6_0 : Memref sig .tc .vmem S512x1 .f32).view

end Cert.Kernel.Hand

end
-- ==== Proof.KB.R1RunA.lean ====
/-
  The second pass at the FIRST column tile of a row: the four scratch columns (the two sums and the two 'some entry was selected' flags) are reset to zero and then updated with this tile's contributions; the output block is not touched.
-/
import proofs.«136741_j45509473469192_1_alg».proof.Proof.KB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first tile, on whole staging memrefs holding the input blocks: it runs to the end, gives the inputs
    and the untouched output buffers back as they were, and leaves in each scratch column the pieces it stored. -/
noncomputable def run1_A (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : first1 i) (hc1 : ¬last1 i)
    (x0 : Vec F S512x1024 .bf16) (x1 : Vec F S512x1024 .bf16) (x2 : Vec F S512x1 .i32) (x3 : Vec F S1x512 .i32) (x4 : Vec F S512x1 .f32) (x5 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi0 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12) K } := by
  refine ⟨?_, ?_, ?_, ?_, fun xi0 E K => ?run⟩
  case run =>
    simp only [cc1__pass2_kernel_eq_skeleton]; unfold cc1__pass2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo0, %hfo0, HO0⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfo0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO0]
    · iexists _; isplitr; · ipureintro; exact harg8.read_unread _
      iexact HO0
    isplitl [HS0]; · iexists _; iexact HS0
    isplitl [HS1]; · iexists _; iexact HS1
    isplitl [HS2]; · iexists _; iexact HS2
    iexists _; iexact HS3

end Cert.Kernel.Hand

end
-- ==== Proof.KB.R1RunB.lean ====
/-
  The second pass at a MIDDLE column tile of a row: the four scratch columns, holding what the tile before left, are updated with this tile's contributions; the output block is not touched.
-/
import proofs.«136741_j45509473469192_1_alg».proof.Proof.KB.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a middle tile, the scratch columns holding `s·`: it runs to the end, gives the inputs and the untouched
    output buffers back as they were, and leaves in each scratch column the pieces it stored. -/
noncomputable def run1_B (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬first1 i) (hc1 : ¬last1 i)
    (x0 : Vec F S512x1024 .bf16) (x1 : Vec F S512x1024 .bf16) (x2 : Vec F S512x1 .i32) (x3 : Vec F S1x512 .i32) (x4 : Vec F S512x1 .f32) (x5 : Vec F S512x1 .f32) (s0 s1 s2 s3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi0 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12) K } := by
  refine ⟨?_, ?_, ?_, ?_, fun xi0 E K => ?run⟩
  case run =>
    simp only [cc1__pass2_kernel_eq_skeleton]; unfold cc1__pass2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo0, %hfo0, HO0⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfo0
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO0]
    · iexists _; isplitr; · ipureintro; exact harg8.read_unread _
      iexact HO0
    isplitl [HS0]; · iexists _; iexact HS0
    isplitl [HS1]; · iexists _; iexact HS1
    isplitl [HS2]; · iexists _; iexact HS2
    iexists _; iexact HS3

end Cert.Kernel.Hand

end
-- ==== Proof.KB.R1RunC.lean ====
/-
  The second pass at the LAST column tile of a row: the four scratch columns are updated and the row losses computed from them are stored into the output block.
-/
import proofs.«136741_j45509473469192_1_alg».proof.Proof.KB.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last tile, the scratch columns holding `s·` and the output buffers anything: it runs to the end,
    gives the inputs back as they were, and leaves in each output buffer and scratch column the pieces it stored. -/
noncomputable def run1_C (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬first1 i) (hc1 : last1 i)
    (x0 : Vec F S512x1024 .bf16) (x1 : Vec F S512x1024 .bf16) (x2 : Vec F S512x1 .i32) (x3 : Vec F S1x512 .i32) (x4 : Vec F S512x1 .f32) (x5 : Vec F S512x1 .f32) (s0 s1 s2 s3 : Vec F S512x1 .f32) :
    Σ' (LO0 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO0)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1__pass2_kernel_eq_skeleton]; unfold cc1__pass2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%do0, %fo0, -, HO0⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO0]; · iexists _; iexact HO0
    isplitl [HS0]; · iexists _; iexact HS0
    isplitl [HS1]; · iexists _; iexact HS1
    isplitl [HS2]; · iexists _; iexact HS2
    iexists _; iexact HS3

end Cert.Kernel.Hand

end
-- ==== Proof.KB.R1Body.lean ====
/-
  The second pass as proof data of its pipeline. A grid point t = 8·i + j. What the four scratch columns hold after point t is defined by recursion on t: reset-and-update at j = 0, update of what point t - 1 left otherwise. The output block is written only at j = 7 (the row losses computed from the scratch columns); elsewhere it is idle. The feature matrix is read through two windows (row tile and column tile), so its share is dealt in halves between them.
-/
import proofs.«136741_j45509473469192_1_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The scoped buffers this pass does not use -/

/-- What the launch hands a region of this pipeline, with the scratch columns named; the other scoped buffers (the
    other pass's) only ride along, each whole at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) sc1_0 fullShare d) ∗ (∃ d, owns (c : Thread nD τ) sc1_1 fullShare d) ∗ (∃ d, owns (c : Thread nD τ) sc1_2 fullShare d) ∗ (∃ d, owns (c : Thread nD τ) sc1_3 fullShare d)) ∗ (∃ r, prngReg c r)) := by
  unfold Pipeline.ΦA; rw [scopedRest1_eq]; simp only [sc1_0, sc1_1, sc1_2, sc1_3, owns_whole]; try rfl

/-! ## The three cases at a grid point -/

abbrev runA1 (c : Dev nD) (t : Fin cfg1.N) (h0 : first1 (grid1.coords t)) (h1 : ¬last1 (grid1.coords t)) :=
  run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) h0 h1 (iblk1 V c 0 t) (iblk1 V c 1 t) (iblk1 V c 2 t) (iblk1 V c 3 t) (iblk1 V c 4 t) (iblk1 V c 5 t)
abbrev runB1 (c : Dev nD) (t : Fin cfg1.N) (h0 : ¬first1 (grid1.coords t)) (h1 : ¬last1 (grid1.coords t)) (s : Vec F S512x1 .f32 × Vec F S512x1 .f32 × Vec F S512x1 .f32 × Vec F S512x1 .f32) :=
  run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) h0 h1 (iblk1 V c 0 t) (iblk1 V c 1 t) (iblk1 V c 2 t) (iblk1 V c 3 t) (iblk1 V c 4 t) (iblk1 V c 5 t) s.1 s.2.1 s.2.2.1 s.2.2.2
abbrev runC1 (c : Dev nD) (t : Fin cfg1.N) (h0 : ¬first1 (grid1.coords t)) (h1 : last1 (grid1.coords t)) (s : Vec F S512x1 .f32 × Vec F S512x1 .f32 × Vec F S512x1 .f32 × Vec F S512x1 .f32) :=
  run1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) h0 h1 (iblk1 V c 0 t) (iblk1 V c 1 t) (iblk1 V c 2 t) (iblk1 V c 3 t) (iblk1 V c 4 t) (iblk1 V c 5 t) s.1 s.2.1 s.2.2.1 s.2.2.2

/-- Pieces that tile a column cover it. -/
theorem coverA1_s0 (c t h0 h1) (y : S512x1.Idx) : ∃ pc ∈ (runA1 V c t h0 h1).1, y ∈ pc.1.set :=
  View.cover_of_tiledL _ S512x1.size (by sl_kernel_rfl) y
theorem coverB1_s0 (c t h0 h1 s) (y : S512x1.Idx) : ∃ pc ∈ (runB1 V c t h0 h1 s).1, y ∈ pc.1.set :=
  View.cover_of_tiledL _ S512x1.size (by sl_kernel_rfl) y
theorem coverC1_s0 (c t h0 h1 s) (y : S512x1.Idx) : ∃ pc ∈ (runC1 V c t h0 h1 s).2.1, y ∈ pc.1.set :=
  View.cover_of_tiledL _ S512x1.size (by sl_kernel_rfl) y
theorem coverA1_s1 (c t h0 h1) (y : S512x1.Idx) : ∃ pc ∈ (runA1 V c t h0 h1).2.1, y ∈ pc.1.set :=
  View.cover_of_tiledL _ S512x1.size (by sl_kernel_rfl) y
theorem coverB1_s1 (c t h0 h1 s) (y : S512x1.Idx) : ∃ pc ∈ (runB1 V c t h0 h1 s).2.1, y ∈ pc.1.set :=
  View.cover_of_tiledL _ S512x1.size (by sl_kernel_rfl) y
theorem coverC1_s1 (c t h0 h1 s) (y : S512x1.Idx) : ∃ pc ∈ (runC1 V c t h0 h1 s).2.2.1, y ∈ pc.1.set :=
  View.cover_of_tiledL _ S512x1.size (by sl_kernel_rfl) y
theorem coverA1_s2 (c t h0 h1) (y : S512x1.Idx) : ∃ pc ∈ (runA1 V c t h0 h1).2.2.1, y ∈ pc.1.set :=
  View.cover_of_tiledL _ S512x1.size (by sl_kernel_rfl) y
theorem coverB1_s2 (c t h0 h1 s) (y : S512x1.Idx) : ∃ pc ∈ (runB1 V c t h0 h1 s).2.2.1, y ∈ pc.1.set :=
  View.cover_of_tiledL _ S512x1.size (by sl_kernel_rfl) y
theorem coverC1_s2 (c t h0 h1 s) (y : S512x1.Idx) : ∃ pc ∈ (runC1 V c t h0 h1 s).2.2.2.1, y ∈ pc.1.set :=
  View.cover_of_tiledL _ S512x1.size (by sl_kernel_rfl) y
theorem coverA1_s3 (c t h0 h1) (y : S512x1.Idx) : ∃ pc ∈ (runA1 V c t h0 h1).2.2.2.1, y ∈ pc.1.set :=
  View.cover_of_tiledL _ S512x1.size (by sl_kernel_rfl) y
theorem coverB1_s3 (c t h0 h1 s) (y : S512x1.Idx) : ∃ pc ∈ (runB1 V c t h0 h1 s).2.2.2.1, y ∈ pc.1.set :=
  View.cover_of_tiledL _ S512x1.size (by sl_kernel_rfl) y
theorem coverC1_s3 (c t h0 h1 s) (y : S512x1.Idx) : ∃ pc ∈ (runC1 V c t h0 h1 s).2.2.2.2.1, y ∈ pc.1.set :=
  View.cover_of_tiledL _ S512x1.size (by sl_kernel_rfl) y
theorem coverC1_o0 (c t h0 h1 s) (y : S512x1.Idx) : ∃ pc ∈ (runC1 V c t h0 h1 s).1, y ∈ pc.1.set :=
  View.cover_of_tiledL _ S512x1.size (by sl_kernel_rfl) y

/-- The scratch columns after a first, middle, last tile: the stored pieces read back. -/
def scrA1 (c : Dev nD) (t : Fin cfg1.N) (h0 : first1 (grid1.coords t)) (h1 : ¬last1 (grid1.coords t)) : Vec F S512x1 .f32 × Vec F S512x1 .f32 × Vec F S512x1 .f32 × Vec F S512x1 .f32 :=
  (VS1_0.read (Elt F) (VS1_0.writes (Elt F) VS1_0.junk (runA1 V c t h0 h1).1), VS1_1.read (Elt F) (VS1_1.writes (Elt F) VS1_1.junk (runA1 V c t h0 h1).2.1), VS1_2.read (Elt F) (VS1_2.writes (Elt F) VS1_2.junk (runA1 V c t h0 h1).2.2.1), VS1_3.read (Elt F) (VS1_3.writes (Elt F) VS1_3.junk (runA1 V c t h0 h1).2.2.2.1))
def scrB1 (c : Dev nD) (t : Fin cfg1.N) (h0 : ¬first1 (grid1.coords t)) (h1 : ¬last1 (grid1.coords t)) (s : Vec F S512x1 .f32 × Vec F S512x1 .f32 × Vec F S512x1 .f32 × Vec F S512x1 .f32) : Vec F S512x1 .f32 × Vec F S512x1 .f32 × Vec F S512x1 .f32 × Vec F S512x1 .f32 :=
  (VS1_0.read (Elt F) (VS1_0.writes (Elt F) VS1_0.junk (runB1 V c t h0 h1 s).1), VS1_1.read (Elt F) (VS1_1.writes (Elt F) VS1_1.junk (runB1 V c t h0 h1 s).2.1), VS1_2.read (Elt F) (VS1_2.writes (Elt F) VS1_2.junk (runB1 V c t h0 h1 s).2.2.1), VS1_3.read (Elt F) (VS1_3.writes (Elt F) VS1_3.junk (runB1 V c t h0 h1 s).2.2.2.1))
def scrC1 (c : Dev nD) (t : Fin cfg1.N) (h0 : ¬first1 (grid1.coords t)) (h1 : last1 (grid1.coords t)) (s : Vec F S512x1 .f32 × Vec F S512x1 .f32 × Vec F S512x1 .f32 × Vec F S512x1 .f32) : Vec F S512x1 .f32 × Vec F S512x1 .f32 × Vec F S512x1 .f32 × Vec F S512x1 .f32 :=
  (VS1_0.read (Elt F) (VS1_0.writes (Elt F) VS1_0.junk (runC1 V c t h0 h1 s).2.1), VS1_1.read (Elt F) (VS1_1.writes (Elt F) VS1_1.junk (runC1 V c t h0 h1 s).2.2.1), VS1_2.read (Elt F) (VS1_2.writes (Elt F) VS1_2.junk (runC1 V c t h0 h1 s).2.2.2.1), VS1_3.read (Elt F) (VS1_3.writes (Elt F) VS1_3.junk (runC1 V c t h0 h1 s).2.2.2.2.1))
/-- The output block(s) after a last tile. -/
def outC1 (c : Dev nD) (t : Fin cfg1.N) (h0 : ¬first1 (grid1.coords t)) (h1 : last1 (grid1.coords t)) (s : Vec F S512x1 .f32 × Vec F S512x1 .f32 × Vec F S512x1 .f32 × Vec F S512x1 .f32) : Vec F S512x1 .f32 :=
  VO1_6.read (Elt F) (VO1_6.writes (Elt F) VO1_6.junk (runC1 V c t h0 h1 s).1)

theorem not_last1_of_first (t : Fin cfg1.N) (h0 : t.val % 8 = 0) : ¬last1 (grid1.coords t) :=
  fun h => by have := (last1_iff t).mp h; omega

/-! ## The scratch columns point by point -/

def scrAt1 (c : Dev nD) : (n : ℕ) → n < cfg1.N → Vec F S512x1 .f32 × Vec F S512x1 .f32 × Vec F S512x1 .f32 × Vec F S512x1 .f32
  | 0, hn => scrA1 V c ⟨0, hn⟩ ((first1_iff ⟨0, hn⟩).mpr (Nat.zero_mod _)) (not_last1_of_first ⟨0, hn⟩ (Nat.zero_mod _))
  | n + 1, hn =>
    if h0 : (n + 1) % 8 = 0 then
      scrA1 V c ⟨n + 1, hn⟩ ((first1_iff ⟨n + 1, hn⟩).mpr h0) (not_last1_of_first ⟨n + 1, hn⟩ h0)
    else if h1 : (n + 1) % 8 = 7 then
      scrC1 V c ⟨n + 1, hn⟩ (fun h => h0 ((first1_iff ⟨n + 1, hn⟩).mp h)) ((last1_iff ⟨n + 1, hn⟩).mpr h1) (scrAt1 c n (Nat.lt_of_succ_lt hn))
    else
      scrB1 V c ⟨n + 1, hn⟩ (fun h => h0 ((first1_iff ⟨n + 1, hn⟩).mp h)) (fun h => h1 ((last1_iff ⟨n + 1, hn⟩).mp h)) (scrAt1 c n (Nat.lt_of_succ_lt hn))

abbrev scrPrev1 (c : Dev nD) (t : Fin cfg1.N) : Vec F S512x1 .f32 × Vec F S512x1 .f32 × Vec F S512x1 .f32 × Vec F S512x1 .f32 :=
  scrAt1 V c (t.val - 1) (Nat.lt_of_le_of_lt (Nat.sub_le _ _) t.isLt)

theorem scrAt1_first (c : Dev nD) (t : Fin cfg1.N) (h0 : t.val % 8 = 0) :
    scrAt1 V c t.val t.isLt = scrA1 V c t ((first1_iff t).mpr h0) (not_last1_of_first t h0) := by
  obtain ⟨n, hn⟩ := t
  cases n with
  | zero => rfl
  | succ n => exact dif_pos h0
theorem scrAt1_mid (c : Dev nD) (t : Fin cfg1.N) (h0 : ¬t.val % 8 = 0) (h1 : ¬t.val % 8 = 7) :
    scrAt1 V c t.val t.isLt = scrB1 V c t (fun h => h0 ((first1_iff t).mp h)) (fun h => h1 ((last1_iff t).mp h)) (scrPrev1 V c t) := by
  obtain ⟨n, hn⟩ := t
  cases n with
  | zero => exact absurd (Nat.zero_mod _) h0
  | succ n => exact (dif_neg h0).trans (dif_neg h1)
theorem scrAt1_last (c : Dev nD) (t : Fin cfg1.N) (h0 : ¬t.val % 8 = 0) (h1 : t.val % 8 = 7) :
    scrAt1 V c t.val t.isLt = scrC1 V c t (fun h => h0 ((first1_iff t).mp h)) ((last1_iff t).mpr h1) (scrPrev1 V c t) := by
  obtain ⟨n, hn⟩ := t
  cases n with
  | zero => exact absurd (Nat.zero_mod _) h0
  | succ n => exact (dif_neg h0).trans (dif_pos h1)

/-- What the output block(s) hold after the body at point `t`: stored at a last tile; at the other points the block is
    idle and this value is never consulted. -/
def outAt1 (c : Dev nD) (t : Fin cfg1.N) : Vec F S512x1 .f32 :=
  if h1 : t.val % 8 = 7 then
    outC1 V c t (fun h => by have := (first1_iff t).mp h; omega) ((last1_iff t).mpr h1) (scrPrev1 V c t)
  else VO1_6.read (Elt F) VO1_6.junk
theorem outAt1_last (c : Dev nD) (t : Fin cfg1.N) (h0 : ¬t.val % 8 = 0) (h1 : t.val % 8 = 7) :
    outAt1 V c t = outC1 V c t (fun h => h0 ((first1_iff t).mp h)) ((last1_iff t).mpr h1) (scrPrev1 V c t) := dif_pos h1

/-! ## The invariant between points -/

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) sc1_0 fullShare (scrAt1 V c n hn).1 ∗ owns (c : Thread nD τ) sc1_1 fullShare (scrAt1 V c n hn).2.1 ∗ owns (c : Thread nD τ) sc1_2 fullShare (scrAt1 V c n hn).2.2.1 ∗ owns (c : Thread nD τ) sc1_3 fullShare (scrAt1 V c n hn).2.2.2) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) sc1_0 fullShare (scrAt1 V c n hn).1 ∗ owns (c : Thread nD τ) sc1_1 fullShare (scrAt1 V c n hn).2.1 ∗ owns (c : Thread nD τ) sc1_2 fullShare (scrAt1 V c n hn).2.2.1 ∗ owns (c : Thread nD τ) sc1_3 fullShare (scrAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) sc1_0 fullShare (scrAt1 V c (n - 1) (by omega)).1 ∗ owns (c : Thread nD τ) sc1_1 fullShare (scrAt1 V c (n - 1) (by omega)).2.1 ∗ owns (c : Thread nD τ) sc1_2 fullShare (scrAt1 V c (n - 1) (by omega)).2.2.1 ∗ owns (c : Thread nD τ) sc1_3 fullShare (scrAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outAt1 V c t)
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outAt1 V c t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

end Cert.Kernel.Hand

end
-- ==== Proof.KB.R1Obl.lean ====
/-
  The body obligation of the second pass: at every grid point the body, handed the six input blocks, the output buffer and the invariant, runs to the end and gives back the next point's invariant and each buffer at what the proof data says. By the column tile's position in its row: first, middle, last.
-/
import proofs.«136741_j45509473469192_1_alg».proof.Proof.KB.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 9600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  by_cases h0 : t.val % 8 = 0
  · have hf : first1 (grid1.coords t) := (first1_iff t).mpr h0
    have hnl : ¬last1 (grid1.coords t) := not_last1_of_first t h0
    rw [Dat.leavesExact_idle (dat1 V c) 6 t (idle1_6 t hnl) (noFlush1_6 t hnl)]
    rw [scrAt1_first V c t h0]
    unfold scrA1; (try dsimp only)
    by_cases hz : t.val = 0
    · rw [Phi1_castSucc V c t, PhiS1_zero V c _ _ hz, PhiA1_eq]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runA1 V c t hf hnl).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverA1_s0 V c t hf hnl)
          isplitl [HS1]
          · unfold owns; iexists _; isplitr
            swap; · iexact HS1
            ipureintro; exact View.read_writes_of_cover _ _ _ _ _ (coverA1_s1 V c t hf hnl)
          isplitl [HS2]
          · unfold owns; iexists _; isplitr
            swap; · iexact HS2
            ipureintro; exact View.read_writes_of_cover _ _ _ _ _ (coverA1_s2 V c t hf hnl)
          unfold owns; iexists _; isplitr
          swap; · iexact HS3
          ipureintro; exact View.read_writes_of_cover _ _ _ _ _ (coverA1_s3 V c t hf hnl)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc V c t, PhiS1_pos V c _ _ hz]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runA1 V c t hf hnl).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverA1_s0 V c t hf hnl)
          isplitl [HS1]
          · unfold owns; iexists _; isplitr
            swap; · iexact HS1
            ipureintro; exact View.read_writes_of_cover _ _ _ _ _ (coverA1_s1 V c t hf hnl)
          isplitl [HS2]
          · unfold owns; iexists _; isplitr
            swap; · iexact HS2
            ipureintro; exact View.read_writes_of_cover _ _ _ _ _ (coverA1_s2 V c t hf hnl)
          unfold owns; iexists _; isplitr
          swap; · iexact HS3
          ipureintro; exact View.read_writes_of_cover _ _ _ _ _ (coverA1_s3 V c t hf hnl)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hnf : ¬first1 (grid1.coords t) := fun h => h0 ((first1_iff t).mp h)
    by_cases h1 : t.val % 8 = 7
    · have hl : last1 (grid1.coords t) := (last1_iff t).mpr h1
      rw [show (dat1 V c).leavesExact 6 t = owns (c : Thread nD τ) (ms1_6 t) fullShare ((dat1 V c).after 6 t) from by
        unfold Dat.leavesExact; rw [live1_6 t hl], after1_6]
      rw [scrAt1_last V c t h0 h1, outAt1_last V c t h0 h1]
      unfold scrC1 outC1; (try dsimp only)
      rw [Phi1_castSucc V c t, PhiS1_pos V c _ _ hz]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runC1 V c t hnf hl (scrPrev1 V c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%eo6, H6⟩, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverC1_s0 V c t hnf hl (scrPrev1 V c t))
          isplitl [HS1]
          · unfold owns; iexists _; isplitr
            swap; · iexact HS1
            ipureintro; exact View.read_writes_of_cover _ _ _ _ _ (coverC1_s1 V c t hnf hl (scrPrev1 V c t))
          isplitl [HS2]
          · unfold owns; iexists _; isplitr
            swap; · iexact HS2
            ipureintro; exact View.read_writes_of_cover _ _ _ _ _ (coverC1_s2 V c t hnf hl (scrPrev1 V c t))
          unfold owns; iexists _; isplitr
          swap; · iexact HS3
          ipureintro; exact View.read_writes_of_cover _ _ _ _ _ (coverC1_s3 V c t hnf hl (scrPrev1 V c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC1_o0 V c t hnf hl (scrPrev1 V c t))
    · have hnl : ¬last1 (grid1.coords t) := fun h => h1 ((last1_iff t).mp h)
      rw [Dat.leavesExact_idle (dat1 V c) 6 t (idle1_6 t hnl) (noFlush1_6 t hnl)]
      rw [scrAt1_mid V c t h0 h1]
      unfold scrB1; (try dsimp only)
      rw [Phi1_castSucc V c t, PhiS1_pos V c _ _ hz]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runB1 V c t hnf hnl (scrPrev1 V c t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverB1_s0 V c t hnf hnl (scrPrev1 V c t))
          isplitl [HS1]
          · unfold owns; iexists _; isplitr
            swap; · iexact HS1
            ipureintro; exact View.read_writes_of_cover _ _ _ _ _ (coverB1_s1 V c t hnf hnl (scrPrev1 V c t))
          isplitl [HS2]
          · unfold owns; iexists _; isplitr
            swap; · iexact HS2
            ipureintro; exact View.read_writes_of_cover _ _ _ _ _ (coverB1_s2 V c t hnf hnl (scrPrev1 V c t))
          unfold owns; iexists _; isplitr
          swap; · iexact HS3
          ipureintro; exact View.read_writes_of_cover _ _ _ _ _ (coverB1_s3 V c t hnf hnl (scrPrev1 V c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨A0, A1, A2, A3, A4, A5, A6, A7, A8, A9, A10, A11, A12, A13, HS0, HS1, HS2, HS3⟩, Hg⟩
  isplitl [HS0 HS1 HS2 HS3 A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexists _; iexact HS0
    isplitl [HS1]; · iexists _; iexact HS1
    isplitl [HS2]; · iexists _; iexact HS2
    iexists _; iexact HS3
  iexact Hg

end Cert.Kernel.Hand

end
-- ==== Proof.KB.R0RunA.lean ====
/-
  The first pass at the FIRST column tile of a row: the two scratch columns are reset (+inf, -inf) and then updated with this tile's row extrema; the output blocks are not touched.
-/
import proofs.«136741_j45509473469192_1_alg».proof.Proof.KB.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs holding the four input blocks: it runs to the end, gives the
    inputs and the two untouched output buffers back as they were, and leaves in each scratch column the pieces it
    stored (found by running it). -/
noncomputable def run0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : first0 i) (hc1 : ¬last0 i)
    (x0 : Vec F S512x1024 .bf16) (x1 : Vec F S512x1024 .bf16) (x2 : Vec F S512x1 .i32) (x3 : Vec F S1x512 .i32) :
    Σ' (LMin : List (View.Piece (Elt F) S512x1 .f32)), { LMax : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LMin) ∗ (∃ f, arg9.view.loc (c : Thread nD τ) ↦[arg9.view.set]{fullShare} arg9.view.writes (Elt F) f LMax)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, fun xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KB.R0RunB.lean ====
/-
  The first pass at a MIDDLE column tile of a row (neither first nor last): the two scratch columns, holding what the tile before left, are updated with this tile's row extrema; the output blocks are not touched.
-/
import proofs.«136741_j45509473469192_1_alg».proof.Proof.KB.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile, on whole staging memrefs holding the four input blocks and scratch columns holding
    `sMin`, `sMax`: it runs to the end, gives the inputs and the two untouched output buffers back as they were, and
    leaves in each scratch column the pieces it stored. -/
noncomputable def run0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬first0 i) (hc1 : ¬last0 i)
    (x0 : Vec F S512x1024 .bf16) (x1 : Vec F S512x1024 .bf16) (x2 : Vec F S512x1 .i32) (x3 : Vec F S1x512 .i32) (sMin sMax : Vec F S512x1 .f32) :
    Σ' (LMin : List (View.Piece (Elt F) S512x1 .f32)), { LMax : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare sMin ∗ owns (c : Thread nD τ) arg9 fullShare sMax
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LMin) ∗ (∃ f, arg9.view.loc (c : Thread nD τ) ↦[arg9.view.set]{fullShare} arg9.view.writes (Elt F) f LMax)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, fun xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KB.R0RunC.lean ====
/-
  The first pass at the LAST column tile of a row: the two scratch columns are updated with this tile's row extrema and then copied into the two output blocks.
-/
import proofs.«136741_j45509473469192_1_alg».proof.Proof.KB.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile, on whole staging memrefs holding the four input blocks, scratch columns holding
    `sMin`, `sMax` and output buffers holding anything: it runs to the end, gives the inputs back as they were, and
    leaves in each output buffer and each scratch column the pieces it stored. -/
noncomputable def run0_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬first0 i) (hc1 : last0 i)
    (x0 : Vec F S512x1024 .bf16) (x1 : Vec F S512x1024 .bf16) (x2 : Vec F S512x1 .i32) (x3 : Vec F S1x512 .i32) (sMin sMax : Vec F S512x1 .f32) :
    Σ' (L4 : List (View.Piece (Elt F) S512x1 .f32)) (L5 : List (View.Piece (Elt F) S512x1 .f32)) (LMin : List (View.Piece (Elt F) S512x1 .f32)), { LMax : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare sMin ∗ owns (c : Thread nD τ) arg9 fullShare sMax
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LMin) ∗ (∃ f, arg9.view.loc (c : Thread nD τ) ↦[arg9.view.set]{fullShare} arg9.view.writes (Elt F) f LMax)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.KB.R0Body.lean ====
/-
  The first pass as proof data of its pipeline. A grid point t = 8·i + j. What the two scratch columns hold after
  point t is defined by recursion on t: reset-and-update at j = 0, update of what point t - 1 left otherwise. The
  two output blocks are written only at j = 7 (from the scratch columns); elsewhere they are idle. The feature
  matrix is read through two windows (row tile and column tile), so its share is dealt in halves between them.
-/
import proofs.«136741_j45509473469192_1_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The scoped buffers the first pass does not use -/

/-- The second pass's staging and scratch buffers, each whole at some contents: they only ride along. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- What the launch hands a region of this pipeline, with the two scratch columns named. -/
theorem PhiA0_eq (c : Dev nD) :
    (Pipeline.ΦA spec0 c : sProp 𝕄)
      = iprop(iprop((∃ d, owns (c : Thread nD τ) scMin0 fullShare d) ∗ (∃ d, owns (c : Thread nD τ) scMax0 fullShare d) ∗ others0 c) ∗ (∃ r, prngReg c r)) := by
  unfold Pipeline.ΦA others0; rw [scopedRest0_eq]; simp only [scMin0, scMax0, owns_whole]; try rfl

/-! ## The three cases at a grid point -/

/-- The run of a first tile at point `t`. -/
abbrev runA (c : Dev nD) (t : Fin cfg0.N) (h0 : first0 (grid0.coords t)) (h1 : ¬last0 (grid0.coords t)) :=
  run0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMin0 (Memref.isWhole_whole _) scMax0 (Memref.isWhole_whole _) h0 h1 (iblk0 V c 0 t) (iblk0 V c 1 t) (iblk0 V c 2 t) (iblk0 V c 3 t)
/-- The run of a middle tile at point `t`, the scratch columns holding `s`. -/
abbrev runB (c : Dev nD) (t : Fin cfg0.N) (h0 : ¬first0 (grid0.coords t)) (h1 : ¬last0 (grid0.coords t)) (s : Vec F S512x1 .f32 × Vec F S512x1 .f32) :=
  run0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMin0 (Memref.isWhole_whole _) scMax0 (Memref.isWhole_whole _) h0 h1 (iblk0 V c 0 t) (iblk0 V c 1 t) (iblk0 V c 2 t) (iblk0 V c 3 t) s.1 s.2
/-- The run of a last tile at point `t`, the scratch columns holding `s`. -/
abbrev runC (c : Dev nD) (t : Fin cfg0.N) (h0 : ¬first0 (grid0.coords t)) (h1 : last0 (grid0.coords t)) (s : Vec F S512x1 .f32 × Vec F S512x1 .f32) :=
  run0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMin0 (Memref.isWhole_whole _) scMax0 (Memref.isWhole_whole _) h0 h1 (iblk0 V c 0 t) (iblk0 V c 1 t) (iblk0 V c 2 t) (iblk0 V c 3 t) s.1 s.2

/-- Pieces that tile a column cover it. -/
theorem coverA_min (c t h0 h1) (y : S512x1.Idx) : ∃ pc ∈ (runA V c t h0 h1).1, y ∈ pc.1.set :=
  View.cover_of_tiledL _ S512x1.size (by sl_kernel_rfl) y
theorem coverA_max (c t h0 h1) (y : S512x1.Idx) : ∃ pc ∈ (runA V c t h0 h1).2.1, y ∈ pc.1.set :=
  View.cover_of_tiledL _ S512x1.size (by sl_kernel_rfl) y
theorem coverB_min (c t h0 h1 s) (y : S512x1.Idx) : ∃ pc ∈ (runB V c t h0 h1 s).1, y ∈ pc.1.set :=
  View.cover_of_tiledL _ S512x1.size (by sl_kernel_rfl) y
theorem coverB_max (c t h0 h1 s) (y : S512x1.Idx) : ∃ pc ∈ (runB V c t h0 h1 s).2.1, y ∈ pc.1.set :=
  View.cover_of_tiledL _ S512x1.size (by sl_kernel_rfl) y
theorem coverC_4 (c t h0 h1 s) (y : S512x1.Idx) : ∃ pc ∈ (runC V c t h0 h1 s).1, y ∈ pc.1.set :=
  View.cover_of_tiledL _ S512x1.size (by sl_kernel_rfl) y
theorem coverC_5 (c t h0 h1 s) (y : S512x1.Idx) : ∃ pc ∈ (runC V c t h0 h1 s).2.1, y ∈ pc.1.set :=
  View.cover_of_tiledL _ S512x1.size (by sl_kernel_rfl) y
theorem coverC_min (c t h0 h1 s) (y : S512x1.Idx) : ∃ pc ∈ (runC V c t h0 h1 s).2.2.1, y ∈ pc.1.set :=
  View.cover_of_tiledL _ S512x1.size (by sl_kernel_rfl) y
theorem coverC_max (c t h0 h1 s) (y : S512x1.Idx) : ∃ pc ∈ (runC V c t h0 h1 s).2.2.2.1, y ∈ pc.1.set :=
  View.cover_of_tiledL _ S512x1.size (by sl_kernel_rfl) y

/-- The scratch columns (minimum, maximum) after a first, middle, last tile: the stored pieces read back. -/
def scrA (c : Dev nD) (t : Fin cfg0.N) (h0 : first0 (grid0.coords t)) (h1 : ¬last0 (grid0.coords t)) : Vec F S512x1 .f32 × Vec F S512x1 .f32 :=
  (VMin0.read (Elt F) (VMin0.writes (Elt F) VMin0.junk (runA V c t h0 h1).1), VMax0.read (Elt F) (VMax0.writes (Elt F) VMax0.junk (runA V c t h0 h1).2.1))
def scrB (c : Dev nD) (t : Fin cfg0.N) (h0 : ¬first0 (grid0.coords t)) (h1 : ¬last0 (grid0.coords t)) (s : Vec F S512x1 .f32 × Vec F S512x1 .f32) : Vec F S512x1 .f32 × Vec F S512x1 .f32 :=
  (VMin0.read (Elt F) (VMin0.writes (Elt F) VMin0.junk (runB V c t h0 h1 s).1), VMax0.read (Elt F) (VMax0.writes (Elt F) VMax0.junk (runB V c t h0 h1 s).2.1))
def scrC (c : Dev nD) (t : Fin cfg0.N) (h0 : ¬first0 (grid0.coords t)) (h1 : last0 (grid0.coords t)) (s : Vec F S512x1 .f32 × Vec F S512x1 .f32) : Vec F S512x1 .f32 × Vec F S512x1 .f32 :=
  (VMin0.read (Elt F) (VMin0.writes (Elt F) VMin0.junk (runC V c t h0 h1 s).2.2.1), VMax0.read (Elt F) (VMax0.writes (Elt F) VMax0.junk (runC V c t h0 h1 s).2.2.2.1))
/-- The two output blocks after a last tile. -/
def outC (c : Dev nD) (t : Fin cfg0.N) (h0 : ¬first0 (grid0.coords t)) (h1 : last0 (grid0.coords t)) (s : Vec F S512x1 .f32 × Vec F S512x1 .f32) : Vec F S512x1 .f32 × Vec F S512x1 .f32 :=
  (VO0_4.read (Elt F) (VO0_4.writes (Elt F) VO0_4.junk (runC V c t h0 h1 s).1), VO0_5.read (Elt F) (VO0_5.writes (Elt F) VO0_5.junk (runC V c t h0 h1 s).2.1))

theorem not_last_of_first (t : Fin cfg0.N) (h0 : t.val % 8 = 0) : ¬last0 (grid0.coords t) :=
  fun h => by have := (last0_iff t).mp h; omega

/-! ## The scratch columns point by point -/

/-- What the scratch columns hold after the body at point `n`. -/
def scrAt0 (c : Dev nD) : (n : ℕ) → n < cfg0.N → Vec F S512x1 .f32 × Vec F S512x1 .f32
  | 0, hn => scrA V c ⟨0, hn⟩ ((first0_iff ⟨0, hn⟩).mpr (Nat.zero_mod _)) (not_last_of_first ⟨0, hn⟩ (Nat.zero_mod _))
  | n + 1, hn =>
    if h0 : (n + 1) % 8 = 0 then
      scrA V c ⟨n + 1, hn⟩ ((first0_iff ⟨n + 1, hn⟩).mpr h0) (not_last_of_first ⟨n + 1, hn⟩ h0)
    else if h1 : (n + 1) % 8 = 7 then
      scrC V c ⟨n + 1, hn⟩ (fun h => h0 ((first0_iff ⟨n + 1, hn⟩).mp h)) ((last0_iff ⟨n + 1, hn⟩).mpr h1) (scrAt0 c n (Nat.lt_of_succ_lt hn))
    else
      scrB V c ⟨n + 1, hn⟩ (fun h => h0 ((first0_iff ⟨n + 1, hn⟩).mp h)) (fun h => h1 ((last0_iff ⟨n + 1, hn⟩).mp h)) (scrAt0 c n (Nat.lt_of_succ_lt hn))

/-- What point `t - 1` left in the scratch columns. -/
abbrev scrPrev0 (c : Dev nD) (t : Fin cfg0.N) : Vec F S512x1 .f32 × Vec F S512x1 .f32 :=
  scrAt0 V c (t.val - 1) (Nat.lt_of_le_of_lt (Nat.sub_le _ _) t.isLt)

theorem scrAt0_first (c : Dev nD) (t : Fin cfg0.N) (h0 : t.val % 8 = 0) :
    scrAt0 V c t.val t.isLt = scrA V c t ((first0_iff t).mpr h0) (not_last_of_first t h0) := by
  obtain ⟨n, hn⟩ := t
  cases n with
  | zero => rfl
  | succ n => exact dif_pos h0

theorem scrAt0_mid (c : Dev nD) (t : Fin cfg0.N) (h0 : ¬t.val % 8 = 0) (h1 : ¬t.val % 8 = 7) :
    scrAt0 V c t.val t.isLt = scrB V c t (fun h => h0 ((first0_iff t).mp h)) (fun h => h1 ((last0_iff t).mp h)) (scrPrev0 V c t) := by
  obtain ⟨n, hn⟩ := t
  cases n with
  | zero => exact absurd (Nat.zero_mod _) h0
  | succ n => exact (dif_neg h0).trans (dif_neg h1)

theorem scrAt0_last (c : Dev nD) (t : Fin cfg0.N) (h0 : ¬t.val % 8 = 0) (h1 : t.val % 8 = 7) :
    scrAt0 V c t.val t.isLt = scrC V c t (fun h => h0 ((first0_iff t).mp h)) ((last0_iff t).mpr h1) (scrPrev0 V c t) := by
  obtain ⟨n, hn⟩ := t
  cases n with
  | zero => exact absurd (Nat.zero_mod _) h0
  | succ n => exact (dif_neg h0).trans (dif_pos h1)

/-- What the two output blocks hold after the body at point `t`: the scratch columns' copies at a last tile; at the
    other points the blocks are idle and this value is never consulted. -/
def outAt0 (c : Dev nD) (t : Fin cfg0.N) : Vec F S512x1 .f32 × Vec F S512x1 .f32 :=
  if h1 : t.val % 8 = 7 then
    outC V c t (fun h => by have := (first0_iff t).mp h; omega) ((last0_iff t).mpr h1) (scrPrev0 V c t)
  else (VO0_4.read (Elt F) VO0_4.junk, VO0_5.read (Elt F) VO0_5.junk)

theorem outAt0_last (c : Dev nD) (t : Fin cfg0.N) (h0 : ¬t.val % 8 = 0) (h1 : t.val % 8 = 7) :
    outAt0 V c t = outC V c t (fun h => h0 ((first0_iff t).mp h)) ((last0_iff t).mpr h1) (scrPrev0 V c t) := dif_pos h1

/-! ## The invariant between points -/

/-- Before point `n`: at the first point what the launch hands over; afterwards the scratch columns at what point
    `n - 1` left, the unused scoped buffers and the generator register at something. -/
def PhiS0 (c : Dev nD) : (n : ℕ) → n ≤ cfg0.N → sProp 𝕄
  | 0, _ => Pipeline.ΦA spec0 c
  | n + 1, hn => iprop(iprop(owns (c : Thread nD τ) scMin0 fullShare (scrAt0 V c n hn).1 ∗ owns (c : Thread nD τ) scMax0 fullShare (scrAt0 V c n hn).2 ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scMin0 fullShare (scrAt0 V c n hn).1 ∗ owns (c : Thread nD τ) scMax0 fullShare (scrAt0 V c n hn).2 ∗ others0 c) ∗ (∃ r, prngReg c r)) := rfl
theorem PhiS0_pos (c : Dev nD) (n : ℕ) (h : n ≤ cfg0.N) (hz : n ≠ 0) :
    PhiS0 V c n h = iprop(iprop(owns (c : Thread nD τ) scMin0 fullShare (scrAt0 V c (n - 1) (by omega)).1 ∗ owns (c : Thread nD τ) scMax0 fullShare (scrAt0 V c (n - 1) (by omega)).2 ∗ others0 c) ∗ (∃ r, prngReg c r)) := by
  cases n with
  | zero => exact absurd rfl hz
  | succ n => rfl

/-! ## The proof data -/

/-- The first pass's proof data on core `c`: the arrays as the region finds them; after the body each input buffer at
    its block and the output buffers at `outAt0`; the invariant `PhiS0`; nothing owed; the feature matrix's share dealt
    in halves between the two windows that read it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt0 V c t).1
    | ⟨5, _⟩ => (outAt0 V c t).2
  Φ t := PhiS0 V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt0 V c t).1 := by dsimp only [dat0]
theorem after0_5 (c : Dev nD) (t : Fin cfg0.N) : (dat0 V c).after 5 t = (outAt0 V c t).2 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Cert.Kernel.Hand

end
-- ==== Proof.KB.R0Obl.lean ====
/-
  The body obligation of the first pass: at every grid point the body, handed the four input blocks, the two output
  buffers and the invariant, runs to the end and gives back the next point's invariant and each buffer at what the
  proof data says. By the column tile's position in its row: first, middle, last.
-/
import proofs.«136741_j45509473469192_1_alg».proof.Proof.KB.R0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases h0 : t.val % 8 = 0
  · -- a first tile: the scratch columns are reset before they are read
    have hf : first0 (grid0.coords t) := (first0_iff t).mpr h0
    have hnl : ¬last0 (grid0.coords t) := not_last_of_first t h0
    rw [Dat.leavesExact_idle (dat0 V c) 4 t (idle0_4 t hnl) (noFlush0_4 t hnl),
      Dat.leavesExact_idle (dat0 V c) 5 t (idle0_5 t hnl) (noFlush0_5 t hnl)]
    rw [scrAt0_first V c t h0]
    unfold scrA; (try dsimp only)
    by_cases hz : t.val = 0
    · rw [Phi0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA V c t hf hnl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_min V c t hf hnl)
          isplitl [HS1]
          · unfold owns; iexists _; isplitr
            swap; · iexact HS1
            ipureintro; exact View.read_writes_of_cover _ _ _ _ _ (coverA_max V c t hf hnl)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA V c t hf hnl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_min V c t hf hnl)
          isplitl [HS1]
          · unfold owns; iexists _; isplitr
            swap; · iexact HS1
            ipureintro; exact View.read_writes_of_cover _ _ _ _ _ (coverA_max V c t hf hnl)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnf : ¬first0 (grid0.coords t) := fun h => h0 ((first0_iff t).mp h)
    by_cases h1 : t.val % 8 = 7
    · -- a last tile: update, then copy the scratch columns out
      have hl : last0 (grid0.coords t) := (last0_iff t).mpr h1
      rw [show (dat0 V c).leavesExact 4 t = owns (c : Thread nD τ) (ms0_4 t) fullShare ((dat0 V c).after 4 t) from by
        unfold Dat.leavesExact; rw [live0_4 t hl], after0_4]
      rw [show (dat0 V c).leavesExact 5 t = owns (c : Thread nD τ) (ms0_5 t) fullShare ((dat0 V c).after 5 t) from by
        unfold Dat.leavesExact; rw [live0_5 t hl], after0_5]
      rw [scrAt0_last V c t h0 h1, outAt0_last V c t h0 h1]
      unfold scrC outC; (try dsimp only)
      rw [Phi0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runC V c t hnf hl (scrPrev0 V c t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverC_min V c t hnf hl (scrPrev0 V c t))
          isplitl [HS1]
          · unfold owns; iexists _; isplitr
            swap; · iexact HS1
            ipureintro; exact View.read_writes_of_cover _ _ _ _ _ (coverC_max V c t hnf hl (scrPrev0 V c t))
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t hnf hl (scrPrev0 V c t))
      unfold owns; iexists _; isplitr
      swap; · iexact H5
      ipureintro; exact View.read_writes_of_cover _ _ _ _ _ (coverC_5 V c t hnf hl (scrPrev0 V c t))
    · -- a middle tile: update only
      have hnl : ¬last0 (grid0.coords t) := fun h => h1 ((last0_iff t).mp h)
      rw [Dat.leavesExact_idle (dat0 V c) 4 t (idle0_4 t hnl) (noFlush0_4 t hnl),
        Dat.leavesExact_idle (dat0 V c) 5 t (idle0_5 t hnl) (noFlush0_5 t hnl)]
      rw [scrAt0_mid V c t h0 h1]
      unfold scrB; (try dsimp only)
      rw [Phi0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runB V c t hnf hnl (scrPrev0 V c t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB_min V c t hnf hnl (scrPrev0 V c t))
          isplitl [HS1]
          · unfold owns; iexists _; isplitr
            swap; · iexact HS1
            ipureintro; exact View.read_writes_of_cover _ _ _ _ _ (coverB_max V c t hnf hnl (scrPrev0 V c t))
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the scratch columns' contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Hand

end
-- ==== Proof.KB.Deal0.lean ====
/-
  Entering and leaving the first pass's region when two of its windows read ONE array (the normalised feature
  matrix, by row tile and by column tile). At entry the buffers behind the windows' arrays, each whole, are dealt to
  the windows: the feature matrix's share in halves to its two windows. At exit the halves are joined again; the
  inputs are as found and the two outputs hold what the write-backs made of them.
-/
import proofs.«136741_j45509473469192_1_alg».proof.Proof.KB.R0Obl
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

theorem arrAt0_in0 (c : Dev nD) (n : ℕ) : (dat0 V c).arrAt 0 n = V c main_v3 := ((dat0 V c).arrAt_in 0 rfl n).trans (A_eq0 V c 0)
theorem arrAt0_in1 (c : Dev nD) (n : ℕ) : (dat0 V c).arrAt 1 n = V c main_v3 := ((dat0 V c).arrAt_in 1 rfl n).trans (A_eq0 V c 1)
theorem arrAt0_in2 (c : Dev nD) (n : ℕ) : (dat0 V c).arrAt 2 n = V c main_v4 := ((dat0 V c).arrAt_in 2 rfl n).trans (A_eq0 V c 2)
theorem arrAt0_in3 (c : Dev nD) (n : ℕ) : (dat0 V c).arrAt 3 n = V c main_v5 := ((dat0 V c).arrAt_in 3 rfl n).trans (A_eq0 V c 3)

/-- The buffers behind the first pass's arrays, listed. -/
theorem arrBufs0_eq (c : Dev nD) (X : (b : Ref sig .tc) → Buf (Elt F) ((c : Thread nD τ).loc b)) :
    (Pipeline.arrBufs spec0 c X : sProp 𝕄)
      = iprop((((c : Thread nD τ).loc main_v3) ↦{fullShare} X main_v3) ∗ (((c : Thread nD τ).loc main_v4) ↦{fullShare} X main_v4)
          ∗ (((c : Thread nD τ).loc main_v5) ↦{fullShare} X main_v5) ∗ (((c : Thread nD τ).loc main_v6_0) ↦{fullShare} X main_v6_0)
          ∗ (((c : Thread nD τ).loc main_v6_1) ↦{fullShare} X main_v6_1)) := by
  unfold Pipeline.arrBufs
  rw [bigSep_eq_bigSepL_of_eq [main_v3, main_v4, main_v5, main_v6_0, main_v6_1] (by decide) (by decide)]
  rfl

/-- The pipeline's arrays at contents `G`, window by window, the feature matrix at its two half shares. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2) ∗ (((c : Thread nD τ).loc main_v5) ↦{fullShare} G 3)
          ∗ (((c : Thread nD τ).loc main_v6_0) ↦{fullShare} G 4) ∗ (((c : Thread nD τ).loc main_v6_1) ↦{fullShare} G 5)) := by
  unfold Dat.arrays; rw [bigSep_W0]
  rw [(arr_whole0 0).set_eq_univ, (arr_whole0 2).set_eq_univ, (arr_whole0 3).set_eq_univ,
    (arr_whole0 4).set_eq_univ, (arr_whole0 5).set_eq_univ]
  rfl

/-- ENTRY: the buffers behind the arrays at the entry contents are the pipeline's arrays before the first point. -/
theorem deal0 (c : Dev nD) : (Pipeline.arrBufs spec0 c (V c) : sProp 𝕄) ⊢ (dat0 V c).arrays ((dat0 V c).arrAt · 0) := by
  rw [arrBufs0_eq, arrays0_eq, arrAt0_in0, arrAt0_in1, arrAt0_in2, arrAt0_in3]
  iintro ⟨H3, H4, H5, H60, H61⟩
  ihave Hs := (pointsTo_share (PosShare.mem_left_op_right fullShare)).1 $$ H3
  icases Hs with ⟨Hl, Hr⟩
  isplitl [Hl]; · iexact Hl
  isplitl [Hr]; · iexact Hr
  isplitl [H4]; · iexact H4
  isplitl [H5]; · iexact H5
  isplitl [H60]; · iexact H60
  iexact H61

end Cert.Kernel.Hand

end
-- ==== Proof.KB.Deal0b.lean ====
/-
  Entering and leaving the first pass's region against a valuation of the core's unscoped buffers: the thread state
  "every unscoped buffer whole at W" splits into the pipeline's arrays (the feature matrix dealt in halves) and the
  other unscoped buffers; at the exit it is put back with the two outputs' arrays at what the write-backs left.
-/
import proofs.«136741_j45509473469192_1_alg».proof.Proof.KB.Deal0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- A valuation read at the TensorCore's references. -/
abbrev entryOf (W : Dev nD → Valuation τ sig (Elt F)) : Entry F := fun c b => W c b

/-- What the first pass leaves in its two output arrays. -/
abbrev minOut (c : Dev nD) := (dat0 (entryOf W) c).arrAt 4 cfg0.N
abbrev maxOut (c : Dev nD) := (dat0 (entryOf W) c).arrAt 5 cfg0.N

/-- The unscoped buffers after the first pass: as before it, the two outputs' arrays at what the write-backs left. -/
def exit0 (c : Dev nD) : Valuation τ sig (Elt F) :=
  Function.update (Function.update (W c) main_v6_0 (minOut W c)) main_v6_1 (maxOut W c)

theorem exit0_v6_1 (c : Dev nD) : exit0 W c main_v6_1 = maxOut W c := by
  unfold exit0; rw [Function.update_self]
theorem exit0_v6_0 (c : Dev nD) : exit0 W c main_v6_0 = minOut W c := by
  unfold exit0
  rw [Function.update_of_ne (StableHlo.devRef_ne_of_ne (by decide) : (Proc.devRef .tc main_v6_0 : DevRef τ sig) ≠ Proc.devRef .tc main_v6_1), Function.update_self]
theorem exit0_of (c : Dev nD) (r : Ref sig .tc) (h : r ∉ ([main_v6_0, main_v6_1] : List (Ref sig .tc))) : exit0 W c r = W c r := by
  unfold exit0
  rw [Function.update_of_ne (StableHlo.devRef_ne_of_ne (List.ne_of_not_mem_cons (List.not_mem_of_not_mem_cons h)) : (Proc.devRef .tc r : DevRef τ sig) ≠ Proc.devRef .tc main_v6_1),
    Function.update_of_ne (StableHlo.devRef_ne_of_ne (List.ne_of_not_mem_cons h) : (Proc.devRef .tc r : DevRef τ sig) ≠ Proc.devRef .tc main_v6_0)]

theorem exit0E_v6_0 (c : Dev nD) : entryOf (exit0 W) c main_v6_0 = minOut W c := exit0_v6_0 W c
theorem exit0E_v6_1 (c : Dev nD) : entryOf (exit0 W) c main_v6_1 = maxOut W c := exit0_v6_1 W c
theorem exit0E_of (c : Dev nD) (r : Ref sig .tc) (h : r ∉ ([main_v6_0, main_v6_1] : List (Ref sig .tc))) : entryOf (exit0 W) c r = entryOf W c r := exit0_of W c r h

/-- ENTRY: every unscoped buffer whole at `W` is the pipeline's arrays before the first point and the other
    unscoped buffers. -/
theorem enter0 (c : Dev nD) :
    (StableHlo.held (c : Thread nD τ) (Pipeline.ucRefs τ sig) (W c) : sProp 𝕄)
      ⊢ iprop((dat0 (entryOf W) c).arrays ((dat0 (entryOf W) c).arrAt · 0)
          ∗ Pipeline.unscopedRest (Ix := Unit) (Name := ℕ) (U := UR sig nD τ) (Lvl := ℕ) spec0 c (entryOf W c)) := by
  rw [← Pipeline.unscopedBufs_held (Ix := Unit) (Name := ℕ) (U := UR sig nD τ) (Lvl := ℕ) c (W c)]
  rw [Pipeline.unscopedBufs_split₀ cfgs 0 (by decide) c]
  iintro ⟨Ha, Hr⟩
  isplitl [Ha]
  · iapply (deal0 (entryOf W) c); iexact Ha
  iexact Hr

/-- EXIT: the pipeline's arrays after the last point and the other unscoped buffers are every unscoped buffer
    whole at `exit0 W`. -/
theorem leave0 (c : Dev nD) :
    (iprop((dat0 (entryOf W) c).arrays ((dat0 (entryOf W) c).arrAt · cfg0.N)
        ∗ Pipeline.unscopedRest (Ix := Unit) (Name := ℕ) (U := UR sig nD τ) (Lvl := ℕ) spec0 c (entryOf W c)) : sProp 𝕄)
      ⊢ StableHlo.held (c : Thread nD τ) (Pipeline.ucRefs τ sig) (exit0 W c) := by
  rw [← Pipeline.unscopedBufs_held (Ix := Unit) (Name := ℕ) (U := UR sig nD τ) (Lvl := ℕ) c (exit0 W c)]
  rw [Pipeline.unscopedBufs_split₀ cfgs 0 (by decide) c]
  change _ ⊢ iprop((Pipeline.arrBufs spec0 c (entryOf (exit0 W) c) : sProp 𝕄)
    ∗ Pipeline.unscopedRest (Ix := Unit) (Name := ℕ) (U := UR sig nD τ) (Lvl := ℕ) spec0 c (entryOf (exit0 W) c))
  rw [arrBufs0_eq, arrays0_eq, arrAt0_in0, arrAt0_in1, arrAt0_in2, arrAt0_in3]
  rw [unscopedRest0_eq, unscopedRest0_eq]
  rw [exit0E_v6_0, exit0E_v6_1]
  rw [exit0E_of W c main_v3 (by decide), exit0E_of W c main_v4 (by decide), exit0E_of W c main_v5 (by decide),
    exit0E_of W c main_arg0 (by decide), exit0E_of W c main_arg1 (by decide), exit0E_of W c main_call0_v0 (by decide),
    exit0E_of W c main_call0_cst (by decide), exit0E_of W c main_call0_v1 (by decide), exit0E_of W c main_call0_v2 (by decide),
    exit0E_of W c main_v0 (by decide), exit0E_of W c main_v1 (by decide), exit0E_of W c main_v2 (by decide),
    exit0E_of W c main_v7 (by decide), exit0E_of W c main_cst (by decide), exit0E_of W c main_v8 (by decide),
    exit0E_of W c main_cst_0 (by decide), exit0E_of W c main_v9 (by decide)]
  iintro ⟨⟨Hl, Hr, H4, H5, H60, H61⟩, Hrest⟩
  isplitr [Hrest]
  · isplitl [Hl Hr]
    · iapply (pointsTo_share (PosShare.mem_left_op_right fullShare)).2
      isplitl [Hl] <;> iassumption
    isplitl [H4]; · iexact H4
    isplitl [H5]; · iexact H5
    isplitl [H60]; · iexact H60
    iexact H61
  iexact Hrest

end Cert.Kernel.Hand

end
-- ==== Proof.KB.Deal1.lean ====
/-
  Entering and leaving the second pass's region, two of whose windows read ONE array (the normalised feature
  matrix, by row tile and by column tile): at entry that array's share is dealt in halves to its two windows, at
  exit the halves are joined; the six inputs are as found and the output holds what the write-backs made of it.
-/
import proofs.«136741_j45509473469192_1_alg».proof.Proof.KB.R1Obl
import proofs.«136741_j45509473469192_1_alg».proof.Proof.KB.Deal0b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

theorem arrAt1_in0 (c : Dev nD) (n : ℕ) : (dat1 V c).arrAt 0 n = V c main_v3 := ((dat1 V c).arrAt_in 0 rfl n).trans (A_eq1 V c 0)
theorem arrAt1_in1 (c : Dev nD) (n : ℕ) : (dat1 V c).arrAt 1 n = V c main_v3 := ((dat1 V c).arrAt_in 1 rfl n).trans (A_eq1 V c 1)
theorem arrAt1_in2 (c : Dev nD) (n : ℕ) : (dat1 V c).arrAt 2 n = V c main_v4 := ((dat1 V c).arrAt_in 2 rfl n).trans (A_eq1 V c 2)
theorem arrAt1_in3 (c : Dev nD) (n : ℕ) : (dat1 V c).arrAt 3 n = V c main_v5 := ((dat1 V c).arrAt_in 3 rfl n).trans (A_eq1 V c 3)
theorem arrAt1_in4 (c : Dev nD) (n : ℕ) : (dat1 V c).arrAt 4 n = V c main_v6_0 := ((dat1 V c).arrAt_in 4 rfl n).trans (A_eq1 V c 4)
theorem arrAt1_in5 (c : Dev nD) (n : ℕ) : (dat1 V c).arrAt 5 n = V c main_v6_1 := ((dat1 V c).arrAt_in 5 rfl n).trans (A_eq1 V c 5)

theorem arrBufs1_eq (c : Dev nD) (X : (b : Ref sig .tc) → Buf (Elt F) ((c : Thread nD τ).loc b)) :
    (Pipeline.arrBufs spec1 c X : sProp 𝕄)
      = iprop((((c : Thread nD τ).loc main_v3) ↦{fullShare} X main_v3) ∗ (((c : Thread nD τ).loc main_v4) ↦{fullShare} X main_v4)
          ∗ (((c : Thread nD τ).loc main_v5) ↦{fullShare} X main_v5) ∗ (((c : Thread nD τ).loc main_v6_0) ↦{fullShare} X main_v6_0)
          ∗ (((c : Thread nD τ).loc main_v6_1) ↦{fullShare} X main_v6_1) ∗ (((c : Thread nD τ).loc main_v7) ↦{fullShare} X main_v7)) := by
  unfold Pipeline.arrBufs
  rw [bigSep_eq_bigSepL_of_eq [main_v3, main_v4, main_v5, main_v6_0, main_v6_1, main_v7] (by decide) (by decide)]
  rfl

theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2) ∗ (((c : Thread nD τ).loc main_v5) ↦{fullShare} G 3)
          ∗ (((c : Thread nD τ).loc main_v6_0) ↦{fullShare} G 4) ∗ (((c : Thread nD τ).loc main_v6_1) ↦{fullShare} G 5)
          ∗ (((c : Thread nD τ).loc main_v7) ↦{fullShare} G 6)) := by
  unfold Dat.arrays; rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

theorem deal1 (c : Dev nD) : (Pipeline.arrBufs spec1 c (V c) : sProp 𝕄) ⊢ (dat1 V c).arrays ((dat1 V c).arrAt · 0) := by
  rw [arrBufs1_eq, arrays1_eq, arrAt1_in0, arrAt1_in1, arrAt1_in2, arrAt1_in3, arrAt1_in4, arrAt1_in5]
  iintro ⟨H3, H4, H5, H60, H61, H7⟩
  ihave Hs := (pointsTo_share (PosShare.mem_left_op_right fullShare)).1 $$ H3
  icases Hs with ⟨Hl, Hr⟩
  isplitl [Hl]; · iexact Hl
  isplitl [Hr]; · iexact Hr
  isplitl [H4]; · iexact H4
  isplitl [H5]; · iexact H5
  isplitl [H60]; · iexact H60
  isplitl [H61]; · iexact H61
  iexact H7

variable (W : Dev nD → Valuation τ sig (Elt F))

/-- What the second pass leaves in its output array: the rows' losses. -/
abbrev lossOut (c : Dev nD) := (dat1 (entryOf W) c).arrAt 6 cfg1.N

def exit1 (c : Dev nD) : Valuation τ sig (Elt F) := Function.update (W c) main_v7 (lossOut W c)

theorem exit1_v7 (c : Dev nD) : exit1 W c main_v7 = lossOut W c := by
  unfold exit1; rw [Function.update_self]
theorem exit1_of (c : Dev nD) (r : Ref sig .tc) (h : r ∉ ([main_v7] : List (Ref sig .tc))) : exit1 W c r = W c r := by
  unfold exit1
  rw [Function.update_of_ne (StableHlo.devRef_ne_of_ne (List.ne_of_not_mem_cons h) : (Proc.devRef .tc r : DevRef τ sig) ≠ Proc.devRef .tc main_v7)]

theorem exit1E_v7 (c : Dev nD) : entryOf (exit1 W) c main_v7 = lossOut W c := exit1_v7 W c
theorem exit1E_of (c : Dev nD) (r : Ref sig .tc) (h : r ∉ ([main_v7] : List (Ref sig .tc))) : entryOf (exit1 W) c r = entryOf W c r := exit1_of W c r h

theorem enter1 (c : Dev nD) :
    (StableHlo.held (c : Thread nD τ) (Pipeline.ucRefs τ sig) (W c) : sProp 𝕄)
      ⊢ iprop((dat1 (entryOf W) c).arrays ((dat1 (entryOf W) c).arrAt · 0)
          ∗ Pipeline.unscopedRest (Ix := Unit) (Name := ℕ) (U := UR sig nD τ) (Lvl := ℕ) spec1 c (entryOf W c)) := by
  rw [← Pipeline.unscopedBufs_held (Ix := Unit) (Name := ℕ) (U := UR sig nD τ) (Lvl := ℕ) c (W c)]
  rw [Pipeline.unscopedBufs_split₀ cfgs 1 (by decide) c]
  iintro ⟨Ha, Hr⟩
  isplitl [Ha]
  · iapply (deal1 (entryOf W) c); iexact Ha
  iexact Hr

theorem leave1 (c : Dev nD) :
    (iprop((dat1 (entryOf W) c).arrays ((dat1 (entryOf W) c).arrAt · cfg1.N)
        ∗ Pipeline.unscopedRest (Ix := Unit) (Name := ℕ) (U := UR sig nD τ) (Lvl := ℕ) spec1 c (entryOf W c)) : sProp 𝕄)
      ⊢ StableHlo.held (c : Thread nD τ) (Pipeline.ucRefs τ sig) (exit1 W c) := by
  rw [← Pipeline.unscopedBufs_held (Ix := Unit) (Name := ℕ) (U := UR sig nD τ) (Lvl := ℕ) c (exit1 W c)]
  rw [Pipeline.unscopedBufs_split₀ cfgs 1 (by decide) c]
  change _ ⊢ iprop((Pipeline.arrBufs spec1 c (entryOf (exit1 W) c) : sProp 𝕄)
    ∗ Pipeline.unscopedRest (Ix := Unit) (Name := ℕ) (U := UR sig nD τ) (Lvl := ℕ) spec1 c (entryOf (exit1 W) c))
  rw [arrBufs1_eq, arrays1_eq, arrAt1_in0, arrAt1_in1, arrAt1_in2, arrAt1_in3, arrAt1_in4, arrAt1_in5]
  rw [unscopedRest1_eq, unscopedRest1_eq]
  rw [exit1E_v7]
  rw [exit1E_of W c main_v3 (by decide), exit1E_of W c main_v4 (by decide), exit1E_of W c main_v5 (by decide),
    exit1E_of W c main_v6_0 (by decide), exit1E_of W c main_v6_1 (by decide),
    exit1E_of W c main_arg0 (by decide), exit1E_of W c main_arg1 (by decide), exit1E_of W c main_call0_v0 (by decide),
    exit1E_of W c main_call0_cst (by decide), exit1E_of W c main_call0_v1 (by decide), exit1E_of W c main_call0_v2 (by decide),
    exit1E_of W c main_v0 (by decide), exit1E_of W c main_v1 (by decide), exit1E_of W c main_v2 (by decide),
    exit1E_of W c main_cst (by decide), exit1E_of W c main_v8 (by decide),
    exit1E_of W c main_cst_0 (by decide), exit1E_of W c main_v9 (by decide)]
  iintro ⟨⟨Hl, Hr, H4, H5, H60, H61, H7⟩, Hrest⟩
  isplitr [Hrest]
  · isplitl [Hl Hr]
    · iapply (pointsTo_share (PosShare.mem_left_op_right fullShare)).2
      isplitl [Hl] <;> iassumption
    isplitl [H4]; · iexact H4
    isplitl [H5]; · iexact H5
    isplitl [H60]; · iexact H60
    isplitl [H61]; · iexact H61
    iexact H7
  iexact Hrest

end Cert.Kernel.Hand

end
-- ==== Proof.KB.Whole.lean ====
/-
  The whole run of the program: normalise the rows (two stretches of host operations), the first pass (per-row
  least positive and greatest negative similarity), the second pass (per-row loss), and the mean (a last stretch of
  host operations). Every unscoped buffer's contents are followed from the launch to the end, W0 … W5; the run
  terminates with every unscoped buffer at W5.
-/
import proofs.«136741_j45509473469192_1_alg».proof.Proof.KB.Deal1
import proofs.«136741_j45509473469192_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents between the items of @main -/

/-- After the two stretches of host operations (the rows normalised, the labels reshaped): the first pass's entry. -/
abbrev W2 : Dev nD → Valuation τ sig (Elt F) := fun c => Gen.V2 m c
/-- After the first pass: the second pass's entry. -/
abbrev W3 : Dev nD → Valuation τ sig (Elt F) := fun c => exit0 (W2 m) c
/-- After the second pass. -/
abbrev W4 : Dev nD → Valuation τ sig (Elt F) := fun c => exit1 (W3 m) c
/-- After the last stretch of host operations (the mean). -/
abbrev W5 : Dev nD → Valuation τ sig (Elt F) := fun c => StableHlo.after hostOps2 (W4 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (entryOf (W2 m)) c
  | ⟨1, _⟩ => fun c => dat1 (entryOf (W3 m)) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The two regions -/

set_option backward.isDefEq.respectTransparency.types false in
/-- The first pass's region over the thread state "every unscoped buffer whole at a valuation, the generator
    register at some state, nothing owed": its arrays are split out of the unscoped buffers at entry (the feature
    matrix dealt in halves) and put back at the exit contents; the generator register goes into the invariant and
    comes back; the kernel has no semaphore of its own and owes nothing. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (entryOf (W2 m)) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (entryOf (W2 m) c)
  hentry c := by
    rw [Pipeline.ownSems0_none]
    iintro ⟨⟨Hub, Hp, HO⟩, -, -⟩
    ihave H := (enter0 (W2 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (entryOf (W2 m)) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 (W2 m) c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second pass's region over the thread state "every unscoped buffer whole at a valuation, the generator
    register at some state, nothing owed": its arrays are split out of the unscoped buffers at entry (the feature
    matrix dealt in halves) and put back at the exit contents; the generator register goes into the invariant and
    comes back; the kernel has no semaphore of its own and owes nothing. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (entryOf (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (entryOf (W3 m) c)
  hentry c := by
    rw [Pipeline.ownSems0_none]
    iintro ⟨⟨Hub, Hp, HO⟩, -, -⟩
    ihave H := (enter1 (W3 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (entryOf (W3 m)) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 (W3 m) c)
      isplitl [Ha]; · iexact Ha
      iexact Hrest
    isplitl [HY]; · iexact HY
    unfold Pipeline.Dat.owesAt Pipeline.owesWithin
    icases HO with ⟨%W, -, HO⟩; iexists W; iexact HO

/-! ## @main as five items, and the launch -/

/-- The last stretch of host operations as a segment from `W4`. -/
def segLast : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) R

/-- The last item leaves the buffers at `W5`, the generator register at some state and nothing owed. -/
theorem lastLink (c : Dev nD) :
    (iprop(StableHlo.held (c : Thread nD τ) (Pipeline.ucRefs τ sig) (W5 m c) ∗ R c) : sProp 𝕄)
      ⊢ iprop((StableHlo.held (c : Thread nD τ) (Pipeline.ucRefs τ sig) (W5 m c) ∗ ∃ r, prngReg c r)
          ∗ ∃ W, owes (c : Thread nD τ) (0 : CellTallies nD τ sig Unit) W) := by
  iintro ⟨Hh, ⟨Hp, HO⟩⟩
  isplitl [Hh Hp]
  · isplitl [Hh]; · iexact Hh
    iexact Hp
  iexact HO

abbrev segsAll (c : Dev nD) : List (Pipeline.Seg (pcfgs (F := F)) adm (pdats m) () defs₀ 𝒱₀ L lv) :=
  [.host (seg0 m 𝒱₀ L lv (fun _ => R)), .host (seg1 m 𝒱₀ L lv (fun _ => R)), .region (reg0 m), .region (reg1 m), .host (segLast m)]

set_option backward.isDefEq.respectTransparency.types false in
/-- THE RUN: from any memory with zero counters every weakly fair execution of @main terminates, nothing faulting,
    with every unscoped buffer at `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) := by
  refine Pipeline.θ_run_regions_kit_dev (pcfgs (F := F)) adm (pdats m) () cellOf_inj emb₁ defs₀ 𝒱₀ L lv m ρ main
    (segsAll m)
    (fun c Q => by
      rewrite [main_chain c, Pipeline.Seg.run_eq_chain,
        show (segsAll m c).map Pipeline.Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (fun c => by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W5 m c) ∗ ∃ r, prngReg c r))
    (hch := fun c => ⟨.rfl, .rfl, .rfl, .rfl, .rfl, lastLink m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun _ h => h)

end Cert.Kernel.Hand

end
-- ==== Proof.KB.Args.lean ====
/-
  The two argument arrays end as launched: no host operation writes them and no region may change them, so the
  final valuation read at an argument walks back to the launch memory. Hence the frame claim from the whole run.
-/
import proofs.«136741_j45509473469192_1_alg».proof.Proof.KB.Whole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W5_of (c : Dev nD) (r : Ref sig .tc) (h : r ∉ hostOps2_W) : W5 m c r = W4 m c r :=
  StableHlo.after_of_writes_sub hostOps2 _ hostOps2_writes h

theorem W5_arg0 (c : Dev nD) : W5 m c main_arg0 = m ((c : Thread nD τ).loc main_arg0) :=
  (W5_of m c main_arg0 (by decide)).trans <| (exit1_of (W3 m) c main_arg0 (by decide)).trans <|
    (exit0_of (W2 m) c main_arg0 (by decide)).trans <| (V2_of m c main_arg0 (by decide)).trans <| (V1_of m c main_arg0 (by decide)).trans rfl
theorem W5_arg1 (c : Dev nD) : W5 m c main_arg1 = m ((c : Thread nD τ).loc main_arg1) :=
  (W5_of m c main_arg1 (by decide)).trans <| (exit1_of (W3 m) c main_arg1 (by decide)).trans <|
    (exit0_of (W2 m) c main_arg1 (by decide)).trans <| (V2_of m c main_arg1 (by decide)).trans <| (V1_of m c main_arg1 (by decide)).trans rfl

/-- THE FRAME: every weakly fair execution terminates, nothing faulting, the two arguments unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_arg0 m c), (h c _ (mem_uc main_arg1 (by decide))).trans (W5_arg1 m c)⟩)
    (run_all m ρ)

end Cert.Kernel.Hand

end
-- ==== Proof.KI.R0Runs.lean ====
/-
  The first pass of the kernel (per-row minimum over the positives and maximum over the negatives of the
  similarity matrix, taken tile by tile along a row of 8 column tiles) as a pipelined region: what its three
  control cases share. A grid point t = 8·i + j handles row tile i against column tile j. The two running
  extrema live in two scratch columns that are reset at j = 0, updated at every j, and copied into the two output
  blocks at j = 7; the output blocks are idle at the other points.
-/
import proofs.«136741_j45509473469192_1_alg».proof.Proof.Gen.KernelIdeal.Launch
import proofs.«136741_j45509473469192_1_alg».proof.Proof.Gen.KernelIdeal.Skeleton
import proofs.«136741_j45509473469192_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the unscoped buffers when a region is entered, per core. -/
abbrev Entry (F : FTy → Type) : Type := (c : Dev nD) → (b : Ref sig .tc) → Buf (Elt F) ((c : Thread nD τ).loc b)

variable (V : Entry F)

/-! ## The blocks the first pass reads -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions, in closed form over the 64 grid points -/

/-- "This is the first column tile of the row" (j = 0), as the body computes it. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)

/-- "This is the last column tile of the row" (j = 7). -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

/-! ## Where the windows are live -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last column tile the two output blocks are idle and are not written back. -/
theorem idle0_4 : ∀ t : Fin cfg0.N, ¬last0 (grid0.coords t) → cfg0.idle 4 (grid0.coords t) = true := by decide +kernel
theorem idle0_5 : ∀ t : Fin cfg0.N, ¬last0 (grid0.coords t) → cfg0.idle 5 (grid0.coords t) = true := by decide +kernel
theorem noFlush0_4 : ∀ t : Fin cfg0.N, ¬last0 (grid0.coords t) → (cfg0.win 4).flush t = false := by decide +kernel
theorem noFlush0_5 : ∀ t : Fin cfg0.N, ¬last0 (grid0.coords t) → (cfg0.win 5).flush t = false := by decide +kernel
/-- At the last column tile they are live. -/
theorem live0_4 : ∀ t : Fin cfg0.N, last0 (grid0.coords t) → cfg0.idle 4 (grid0.coords t) = false := by decide +kernel
theorem live0_5 : ∀ t : Fin cfg0.N, last0 (grid0.coords t) → cfg0.idle 5 (grid0.coords t) = false := by decide +kernel

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The two scratch columns: the running minimum and the running maximum. -/
abbrev scMin0 : Memref sig .tc .vmem S512x1 .f32 := Memref.whole cc0_scratch0
abbrev scMax0 : Memref sig .tc .vmem S512x1 .f32 := Memref.whole cc0_scratch1
/-- Views through which the scratch columns' and the output blocks' contents are stated. -/
abbrev VMin0 : View sig .tc .vmem S512x1 .f32 := scMin0.view
abbrev VMax0 : View sig .tc .vmem S512x1 .f32 := scMax0.view
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

end Cert.KernelIdeal.Hand

end
-- ==== Proof.KI.R1Runs.lean ====
/-
  The second pass of the kernel (per row: the two weighted sums over the selected positives and negatives and
  whether any was selected, accumulated tile by tile along a row of 8 column tiles, then the row's loss) as a
  pipelined region: what its three control cases share. A grid point t = 8·i + j handles row tile i against column
  tile j. Four scratch columns are reset at j = 0 and updated at every j; at j = 7 the row losses are stored into
  the output block, which is idle at the other points.
-/
import proofs.«136741_j45509473469192_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The blocks the second pass reads -/

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions, in closed form over the 64 grid points -/

abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

/-! ## Where the windows are live -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

/-! ## The memrefs the body is called with -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
/-- The four scratch columns: the positives' sum, the negatives' sum, "some positive selected", "some negative selected". -/
abbrev sc1_0 : Memref sig .tc .vmem S512x1 .f32 := Memref.whole cc1_scratch0
abbrev VS1_0 : View sig .tc .vmem S512x1 .f32 := sc1_0.view
abbrev sc1_1 : Memref sig .tc .vmem S512x1 .f32 := Memref.whole cc1_scratch1
abbrev VS1_1 : View sig .tc .vmem S512x1 .f32 := sc1_1.view
abbrev sc1_2 : Memref sig .tc .vmem S512x1 .f32 := Memref.whole cc1_scratch2
abbrev VS1_2 : View sig .tc .vmem S512x1 .f32 := sc1_2.view
abbrev sc1_3 : Memref sig .tc .vmem S512x1 .f32 := Memref.whole cc1_scratch3
abbrev VS1_3 : View sig .tc .vmem S512x1 .f32 := sc1_3.view
abbrev VO1_6 : View sig .tc .vmem S512x1 .f32 := (Memref.whole cc1_stg6_0 : Memref sig .tc .vmem S512x1 .f32).view

end Cert.KernelIdeal.Hand

end
-- ==== Proof.KI.R1RunA.lean ====
/-
  The second pass at the FIRST column tile of a row: the four scratch columns (the two sums and the two 'some entry was selected' flags) are reset to zero and then updated with this tile's contributions; the output block is not touched.
-/
import proofs.«136741_j45509473469192_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first tile, on whole staging memrefs holding the input blocks: it runs to the end, gives the inputs
    and the untouched output buffers back as they were, and leaves in each scratch column the pieces it stored. -/
noncomputable def run1_A (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : first1 i) (hc1 : ¬last1 i)
    (x0 : Vec F S512x1024 .bf16) (x1 : Vec F S512x1024 .bf16) (x2 : Vec F S512x1 .i32) (x3 : Vec F S1x512 .i32) (x4 : Vec F S512x1 .f32) (x5 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi0 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12) K } := by
  refine ⟨?_, ?_, ?_, ?_, fun xi0 E K => ?run⟩
  case run =>
    simp only [cc1__pass2_kernel_eq_skeleton]; unfold cc1__pass2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo0, %hfo0, HO0⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfo0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO0]
    · iexists _; isplitr; · ipureintro; exact harg8.read_unread _
      iexact HO0
    isplitl [HS0]; · iexists _; iexact HS0
    isplitl [HS1]; · iexists _; iexact HS1
    isplitl [HS2]; · iexists _; iexact HS2
    iexists _; iexact HS3

end Cert.KernelIdeal.Hand

end
-- ==== Proof.KI.R1RunB.lean ====
/-
  The second pass at a MIDDLE column tile of a row: the four scratch columns, holding what the tile before left, are updated with this tile's contributions; the output block is not touched.
-/
import proofs.«136741_j45509473469192_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a middle tile, the scratch columns holding `s·`: it runs to the end, gives the inputs and the untouched
    output buffers back as they were, and leaves in each scratch column the pieces it stored. -/
noncomputable def run1_B (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬first1 i) (hc1 : ¬last1 i)
    (x0 : Vec F S512x1024 .bf16) (x1 : Vec F S512x1024 .bf16) (x2 : Vec F S512x1 .i32) (x3 : Vec F S1x512 .i32) (x4 : Vec F S512x1 .f32) (x5 : Vec F S512x1 .f32) (s0 s1 s2 s3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi0 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi0
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12) K } := by
  refine ⟨?_, ?_, ?_, ?_, fun xi0 E K => ?run⟩
  case run =>
    simp only [cc1__pass2_kernel_eq_skeleton]; unfold cc1__pass2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo0, %hfo0, HO0⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfo0
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO0]
    · iexists _; isplitr; · ipureintro; exact harg8.read_unread _
      iexact HO0
    isplitl [HS0]; · iexists _; iexact HS0
    isplitl [HS1]; · iexists _; iexact HS1
    isplitl [HS2]; · iexists _; iexact HS2
    iexists _; iexact HS3

end Cert.KernelIdeal.Hand

end
-- ==== Proof.KI.R1RunC.lean ====
/-
  The second pass at the LAST column tile of a row: the four scratch columns are updated and the row losses computed from them are stored into the output block.
-/
import proofs.«136741_j45509473469192_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last tile, the scratch columns holding `s·` and the output buffers anything: it runs to the end,
    gives the inputs back as they were, and leaves in each output buffer and scratch column the pieces it stored. -/
noncomputable def run1_C (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬first1 i) (hc1 : last1 i)
    (x0 : Vec F S512x1024 .bf16) (x1 : Vec F S512x1024 .bf16) (x2 : Vec F S512x1 .i32) (x3 : Vec F S1x512 .i32) (x4 : Vec F S512x1 .f32) (x5 : Vec F S512x1 .f32) (s0 s1 s2 s3 : Vec F S512x1 .f32) :
    Σ' (LO0 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare s0 ∗ owns (c : Thread nD τ) arg10 fullShare s1 ∗ owns (c : Thread nD τ) arg11 fullShare s2 ∗ owns (c : Thread nD τ) arg12 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO0)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1__pass2_kernel_eq_skeleton]; unfold cc1__pass2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%do0, %fo0, -, HO0⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO0]; · iexists _; iexact HO0
    isplitl [HS0]; · iexists _; iexact HS0
    isplitl [HS1]; · iexists _; iexact HS1
    isplitl [HS2]; · iexists _; iexact HS2
    iexists _; iexact HS3

end Cert.KernelIdeal.Hand

end
-- ==== Proof.KI.R1Body.lean ====
/-
  The second pass as proof data of its pipeline. A grid point t = 8·i + j. What the four scratch columns hold after point t is defined by recursion on t: reset-and-update at j = 0, update of what point t - 1 left otherwise. The output block is written only at j = 7 (the row losses computed from the scratch columns); elsewhere it is idle. The feature matrix is read through two windows (row tile and column tile), so its share is dealt in halves between them.
-/
import proofs.«136741_j45509473469192_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The scoped buffers this pass does not use -/

/-- What the launch hands a region of this pipeline, with the scratch columns named; the other scoped buffers (the
    other pass's) only ride along, each whole at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) sc1_0 fullShare d) ∗ (∃ d, owns (c : Thread nD τ) sc1_1 fullShare d) ∗ (∃ d, owns (c : Thread nD τ) sc1_2 fullShare d) ∗ (∃ d, owns (c : Thread nD τ) sc1_3 fullShare d)) ∗ (∃ r, prngReg c r)) := by
  unfold Pipeline.ΦA; rw [scopedRest1_eq]; simp only [sc1_0, sc1_1, sc1_2, sc1_3, owns_whole]; try rfl

/-! ## The three cases at a grid point -/

abbrev runA1 (c : Dev nD) (t : Fin cfg1.N) (h0 : first1 (grid1.coords t)) (h1 : ¬last1 (grid1.coords t)) :=
  run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) h0 h1 (iblk1 V c 0 t) (iblk1 V c 1 t) (iblk1 V c 2 t) (iblk1 V c 3 t) (iblk1 V c 4 t) (iblk1 V c 5 t)
abbrev runB1 (c : Dev nD) (t : Fin cfg1.N) (h0 : ¬first1 (grid1.coords t)) (h1 : ¬last1 (grid1.coords t)) (s : Vec F S512x1 .f32 × Vec F S512x1 .f32 × Vec F S512x1 .f32 × Vec F S512x1 .f32) :=
  run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) h0 h1 (iblk1 V c 0 t) (iblk1 V c 1 t) (iblk1 V c 2 t) (iblk1 V c 3 t) (iblk1 V c 4 t) (iblk1 V c 5 t) s.1 s.2.1 s.2.2.1 s.2.2.2
abbrev runC1 (c : Dev nD) (t : Fin cfg1.N) (h0 : ¬first1 (grid1.coords t)) (h1 : last1 (grid1.coords t)) (s : Vec F S512x1 .f32 × Vec F S512x1 .f32 × Vec F S512x1 .f32 × Vec F S512x1 .f32) :=
  run1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) h0 h1 (iblk1 V c 0 t) (iblk1 V c 1 t) (iblk1 V c 2 t) (iblk1 V c 3 t) (iblk1 V c 4 t) (iblk1 V c 5 t) s.1 s.2.1 s.2.2.1 s.2.2.2

/-- Pieces that tile a column cover it. -/
theorem coverA1_s0 (c t h0 h1) (y : S512x1.Idx) : ∃ pc ∈ (runA1 V c t h0 h1).1, y ∈ pc.1.set :=
  View.cover_of_tiledL _ S512x1.size (by sl_kernel_rfl) y
theorem coverB1_s0 (c t h0 h1 s) (y : S512x1.Idx) : ∃ pc ∈ (runB1 V c t h0 h1 s).1, y ∈ pc.1.set :=
  View.cover_of_tiledL _ S512x1.size (by sl_kernel_rfl) y
theorem coverC1_s0 (c t h0 h1 s) (y : S512x1.Idx) : ∃ pc ∈ (runC1 V c t h0 h1 s).2.1, y ∈ pc.1.set :=
  View.cover_of_tiledL _ S512x1.size (by sl_kernel_rfl) y
theorem coverA1_s1 (c t h0 h1) (y : S512x1.Idx) : ∃ pc ∈ (runA1 V c t h0 h1).2.1, y ∈ pc.1.set :=
  View.cover_of_tiledL _ S512x1.size (by sl_kernel_rfl) y
theorem coverB1_s1 (c t h0 h1 s) (y : S512x1.Idx) : ∃ pc ∈ (runB1 V c t h0 h1 s).2.1, y ∈ pc.1.set :=
  View.cover_of_tiledL _ S512x1.size (by sl_kernel_rfl) y
theorem coverC1_s1 (c t h0 h1 s) (y : S512x1.Idx) : ∃ pc ∈ (runC1 V c t h0 h1 s).2.2.1, y ∈ pc.1.set :=
  View.cover_of_tiledL _ S512x1.size (by sl_kernel_rfl) y
theorem coverA1_s2 (c t h0 h1) (y : S512x1.Idx) : ∃ pc ∈ (runA1 V c t h0 h1).2.2.1, y ∈ pc.1.set :=
  View.cover_of_tiledL _ S512x1.size (by sl_kernel_rfl) y
theorem coverB1_s2 (c t h0 h1 s) (y : S512x1.Idx) : ∃ pc ∈ (runB1 V c t h0 h1 s).2.2.1, y ∈ pc.1.set :=
  View.cover_of_tiledL _ S512x1.size (by sl_kernel_rfl) y
theorem coverC1_s2 (c t h0 h1 s) (y : S512x1.Idx) : ∃ pc ∈ (runC1 V c t h0 h1 s).2.2.2.1, y ∈ pc.1.set :=
  View.cover_of_tiledL _ S512x1.size (by sl_kernel_rfl) y
theorem coverA1_s3 (c t h0 h1) (y : S512x1.Idx) : ∃ pc ∈ (runA1 V c t h0 h1).2.2.2.1, y ∈ pc.1.set :=
  View.cover_of_tiledL _ S512x1.size (by sl_kernel_rfl) y
theorem coverB1_s3 (c t h0 h1 s) (y : S512x1.Idx) : ∃ pc ∈ (runB1 V c t h0 h1 s).2.2.2.1, y ∈ pc.1.set :=
  View.cover_of_tiledL _ S512x1.size (by sl_kernel_rfl) y
theorem coverC1_s3 (c t h0 h1 s) (y : S512x1.Idx) : ∃ pc ∈ (runC1 V c t h0 h1 s).2.2.2.2.1, y ∈ pc.1.set :=
  View.cover_of_tiledL _ S512x1.size (by sl_kernel_rfl) y
theorem coverC1_o0 (c t h0 h1 s) (y : S512x1.Idx) : ∃ pc ∈ (runC1 V c t h0 h1 s).1, y ∈ pc.1.set :=
  View.cover_of_tiledL _ S512x1.size (by sl_kernel_rfl) y

/-- The scratch columns after a first, middle, last tile: the stored pieces read back. -/
def scrA1 (c : Dev nD) (t : Fin cfg1.N) (h0 : first1 (grid1.coords t)) (h1 : ¬last1 (grid1.coords t)) : Vec F S512x1 .f32 × Vec F S512x1 .f32 × Vec F S512x1 .f32 × Vec F S512x1 .f32 :=
  (VS1_0.read (Elt F) (VS1_0.writes (Elt F) VS1_0.junk (runA1 V c t h0 h1).1), VS1_1.read (Elt F) (VS1_1.writes (Elt F) VS1_1.junk (runA1 V c t h0 h1).2.1), VS1_2.read (Elt F) (VS1_2.writes (Elt F) VS1_2.junk (runA1 V c t h0 h1).2.2.1), VS1_3.read (Elt F) (VS1_3.writes (Elt F) VS1_3.junk (runA1 V c t h0 h1).2.2.2.1))
def scrB1 (c : Dev nD) (t : Fin cfg1.N) (h0 : ¬first1 (grid1.coords t)) (h1 : ¬last1 (grid1.coords t)) (s : Vec F S512x1 .f32 × Vec F S512x1 .f32 × Vec F S512x1 .f32 × Vec F S512x1 .f32) : Vec F S512x1 .f32 × Vec F S512x1 .f32 × Vec F S512x1 .f32 × Vec F S512x1 .f32 :=
  (VS1_0.read (Elt F) (VS1_0.writes (Elt F) VS1_0.junk (runB1 V c t h0 h1 s).1), VS1_1.read (Elt F) (VS1_1.writes (Elt F) VS1_1.junk (runB1 V c t h0 h1 s).2.1), VS1_2.read (Elt F) (VS1_2.writes (Elt F) VS1_2.junk (runB1 V c t h0 h1 s).2.2.1), VS1_3.read (Elt F) (VS1_3.writes (Elt F) VS1_3.junk (runB1 V c t h0 h1 s).2.2.2.1))
def scrC1 (c : Dev nD) (t : Fin cfg1.N) (h0 : ¬first1 (grid1.coords t)) (h1 : last1 (grid1.coords t)) (s : Vec F S512x1 .f32 × Vec F S512x1 .f32 × Vec F S512x1 .f32 × Vec F S512x1 .f32) : Vec F S512x1 .f32 × Vec F S512x1 .f32 × Vec F S512x1 .f32 × Vec F S512x1 .f32 :=
  (VS1_0.read (Elt F) (VS1_0.writes (Elt F) VS1_0.junk (runC1 V c t h0 h1 s).2.1), VS1_1.read (Elt F) (VS1_1.writes (Elt F) VS1_1.junk (runC1 V c t h0 h1 s).2.2.1), VS1_2.read (Elt F) (VS1_2.writes (Elt F) VS1_2.junk (runC1 V c t h0 h1 s).2.2.2.1), VS1_3.read (Elt F) (VS1_3.writes (Elt F) VS1_3.junk (runC1 V c t h0 h1 s).2.2.2.2.1))
/-- The output block(s) after a last tile. -/
def outC1 (c : Dev nD) (t : Fin cfg1.N) (h0 : ¬first1 (grid1.coords t)) (h1 : last1 (grid1.coords t)) (s : Vec F S512x1 .f32 × Vec F S512x1 .f32 × Vec F S512x1 .f32 × Vec F S512x1 .f32) : Vec F S512x1 .f32 :=
  VO1_6.read (Elt F) (VO1_6.writes (Elt F) VO1_6.junk (runC1 V c t h0 h1 s).1)

theorem not_last1_of_first (t : Fin cfg1.N) (h0 : t.val % 8 = 0) : ¬last1 (grid1.coords t) :=
  fun h => by have := (last1_iff t).mp h; omega

/-! ## The scratch columns point by point -/

def scrAt1 (c : Dev nD) : (n : ℕ) → n < cfg1.N → Vec F S512x1 .f32 × Vec F S512x1 .f32 × Vec F S512x1 .f32 × Vec F S512x1 .f32
  | 0, hn => scrA1 V c ⟨0, hn⟩ ((first1_iff ⟨0, hn⟩).mpr (Nat.zero_mod _)) (not_last1_of_first ⟨0, hn⟩ (Nat.zero_mod _))
  | n + 1, hn =>
    if h0 : (n + 1) % 8 = 0 then
      scrA1 V c ⟨n + 1, hn⟩ ((first1_iff ⟨n + 1, hn⟩).mpr h0) (not_last1_of_first ⟨n + 1, hn⟩ h0)
    else if h1 : (n + 1) % 8 = 7 then
      scrC1 V c ⟨n + 1, hn⟩ (fun h => h0 ((first1_iff ⟨n + 1, hn⟩).mp h)) ((last1_iff ⟨n + 1, hn⟩).mpr h1) (scrAt1 c n (Nat.lt_of_succ_lt hn))
    else
      scrB1 V c ⟨n + 1, hn⟩ (fun h => h0 ((first1_iff ⟨n + 1, hn⟩).mp h)) (fun h => h1 ((last1_iff ⟨n + 1, hn⟩).mp h)) (scrAt1 c n (Nat.lt_of_succ_lt hn))

abbrev scrPrev1 (c : Dev nD) (t : Fin cfg1.N) : Vec F S512x1 .f32 × Vec F S512x1 .f32 × Vec F S512x1 .f32 × Vec F S512x1 .f32 :=
  scrAt1 V c (t.val - 1) (Nat.lt_of_le_of_lt (Nat.sub_le _ _) t.isLt)

theorem scrAt1_first (c : Dev nD) (t : Fin cfg1.N) (h0 : t.val % 8 = 0) :
    scrAt1 V c t.val t.isLt = scrA1 V c t ((first1_iff t).mpr h0) (not_last1_of_first t h0) := by
  obtain ⟨n, hn⟩ := t
  cases n with
  | zero => rfl
  | succ n => exact dif_pos h0
theorem scrAt1_mid (c : Dev nD) (t : Fin cfg1.N) (h0 : ¬t.val % 8 = 0) (h1 : ¬t.val % 8 = 7) :
    scrAt1 V c t.val t.isLt = scrB1 V c t (fun h => h0 ((first1_iff t).mp h)) (fun h => h1 ((last1_iff t).mp h)) (scrPrev1 V c t) := by
  obtain ⟨n, hn⟩ := t
  cases n with
  | zero => exact absurd (Nat.zero_mod _) h0
  | succ n => exact (dif_neg h0).trans (dif_neg h1)
theorem scrAt1_last (c : Dev nD) (t : Fin cfg1.N) (h0 : ¬t.val % 8 = 0) (h1 : t.val % 8 = 7) :
    scrAt1 V c t.val t.isLt = scrC1 V c t (fun h => h0 ((first1_iff t).mp h)) ((last1_iff t).mpr h1) (scrPrev1 V c t) := by
  obtain ⟨n, hn⟩ := t
  cases n with
  | zero => exact absurd (Nat.zero_mod _) h0
  | succ n => exact (dif_neg h0).trans (dif_pos h1)

/-- What the output block(s) hold after the body at point `t`: stored at a last tile; at the other points the block is
    idle and this value is never consulted. -/
def outAt1 (c : Dev nD) (t : Fin cfg1.N) : Vec F S512x1 .f32 :=
  if h1 : t.val % 8 = 7 then
    outC1 V c t (fun h => by have := (first1_iff t).mp h; omega) ((last1_iff t).mpr h1) (scrPrev1 V c t)
  else VO1_6.read (Elt F) VO1_6.junk
theorem outAt1_last (c : Dev nD) (t : Fin cfg1.N) (h0 : ¬t.val % 8 = 0) (h1 : t.val % 8 = 7) :
    outAt1 V c t = outC1 V c t (fun h => h0 ((first1_iff t).mp h)) ((last1_iff t).mpr h1) (scrPrev1 V c t) := dif_pos h1

/-! ## The invariant between points -/

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) sc1_0 fullShare (scrAt1 V c n hn).1 ∗ owns (c : Thread nD τ) sc1_1 fullShare (scrAt1 V c n hn).2.1 ∗ owns (c : Thread nD τ) sc1_2 fullShare (scrAt1 V c n hn).2.2.1 ∗ owns (c : Thread nD τ) sc1_3 fullShare (scrAt1 V c n hn).2.2.2) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) sc1_0 fullShare (scrAt1 V c n hn).1 ∗ owns (c : Thread nD τ) sc1_1 fullShare (scrAt1 V c n hn).2.1 ∗ owns (c : Thread nD τ) sc1_2 fullShare (scrAt1 V c n hn).2.2.1 ∗ owns (c : Thread nD τ) sc1_3 fullShare (scrAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) sc1_0 fullShare (scrAt1 V c (n - 1) (by omega)).1 ∗ owns (c : Thread nD τ) sc1_1 fullShare (scrAt1 V c (n - 1) (by omega)).2.1 ∗ owns (c : Thread nD τ) sc1_2 fullShare (scrAt1 V c (n - 1) (by omega)).2.2.1 ∗ owns (c : Thread nD τ) sc1_3 fullShare (scrAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outAt1 V c t)
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outAt1 V c t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

end Cert.KernelIdeal.Hand

end
-- ==== Proof.KI.R0RunA.lean ====
/-
  The first pass at the FIRST column tile of a row: the two scratch columns are reset (+inf, -inf) and then updated with this tile's row extrema; the output blocks are not touched.
-/
import proofs.«136741_j45509473469192_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs holding the four input blocks: it runs to the end, gives the
    inputs and the two untouched output buffers back as they were, and leaves in each scratch column the pieces it
    stored (found by running it). -/
noncomputable def run0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : first0 i) (hc1 : ¬last0 i)
    (x0 : Vec F S512x1024 .bf16) (x1 : Vec F S512x1024 .bf16) (x2 : Vec F S512x1 .i32) (x3 : Vec F S1x512 .i32) :
    Σ' (LMin : List (View.Piece (Elt F) S512x1 .f32)), { LMax : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LMin) ∗ (∃ f, arg9.view.loc (c : Thread nD τ) ↦[arg9.view.set]{fullShare} arg9.view.writes (Elt F) f LMax)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, fun xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R0RunB.lean ====
/-
  The first pass at a MIDDLE column tile of a row (neither first nor last): the two scratch columns, holding what the tile before left, are updated with this tile's row extrema; the output blocks are not touched.
-/
import proofs.«136741_j45509473469192_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile, on whole staging memrefs holding the four input blocks and scratch columns holding
    `sMin`, `sMax`: it runs to the end, gives the inputs and the two untouched output buffers back as they were, and
    leaves in each scratch column the pieces it stored. -/
noncomputable def run0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬first0 i) (hc1 : ¬last0 i)
    (x0 : Vec F S512x1024 .bf16) (x1 : Vec F S512x1024 .bf16) (x2 : Vec F S512x1 .i32) (x3 : Vec F S1x512 .i32) (sMin sMax : Vec F S512x1 .f32) :
    Σ' (LMin : List (View.Piece (Elt F) S512x1 .f32)), { LMax : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare sMin ∗ owns (c : Thread nD τ) arg9 fullShare sMax
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LMin) ∗ (∃ f, arg9.view.loc (c : Thread nD τ) ↦[arg9.view.set]{fullShare} arg9.view.writes (Elt F) f LMax)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, fun xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R0RunC.lean ====
/-
  The first pass at the LAST column tile of a row: the two scratch columns are updated with this tile's row extrema and then copied into the two output blocks.
-/
import proofs.«136741_j45509473469192_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile, on whole staging memrefs holding the four input blocks, scratch columns holding
    `sMin`, `sMax` and output buffers holding anything: it runs to the end, gives the inputs back as they were, and
    leaves in each output buffer and each scratch column the pieces it stored. -/
noncomputable def run0_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬first0 i) (hc1 : last0 i)
    (x0 : Vec F S512x1024 .bf16) (x1 : Vec F S512x1024 .bf16) (x2 : Vec F S512x1 .i32) (x3 : Vec F S1x512 .i32) (sMin sMax : Vec F S512x1 .f32) :
    Σ' (L4 : List (View.Piece (Elt F) S512x1 .f32)) (L5 : List (View.Piece (Elt F) S512x1 .f32)) (LMin : List (View.Piece (Elt F) S512x1 .f32)), { LMax : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare sMin ∗ owns (c : Thread nD τ) arg9 fullShare sMax
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LMin) ∗ (∃ f, arg9.view.loc (c : Thread nD τ) ↦[arg9.view.set]{fullShare} arg9.view.writes (Elt F) f LMax)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.R0Body.lean ====
/-
  The first pass as proof data of its pipeline. A grid point t = 8·i + j. What the two scratch columns hold after
  point t is defined by recursion on t: reset-and-update at j = 0, update of what point t - 1 left otherwise. The
  two output blocks are written only at j = 7 (from the scratch columns); elsewhere they are idle. The feature
  matrix is read through two windows (row tile and column tile), so its share is dealt in halves between them.
-/
import proofs.«136741_j45509473469192_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The scoped buffers the first pass does not use -/

/-- The second pass's staging and scratch buffers, each whole at some contents: they only ride along. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- What the launch hands a region of this pipeline, with the two scratch columns named. -/
theorem PhiA0_eq (c : Dev nD) :
    (Pipeline.ΦA spec0 c : sProp 𝕄)
      = iprop(iprop((∃ d, owns (c : Thread nD τ) scMin0 fullShare d) ∗ (∃ d, owns (c : Thread nD τ) scMax0 fullShare d) ∗ others0 c) ∗ (∃ r, prngReg c r)) := by
  unfold Pipeline.ΦA others0; rw [scopedRest0_eq]; simp only [scMin0, scMax0, owns_whole]; try rfl

/-! ## The three cases at a grid point -/

/-- The run of a first tile at point `t`. -/
abbrev runA (c : Dev nD) (t : Fin cfg0.N) (h0 : first0 (grid0.coords t)) (h1 : ¬last0 (grid0.coords t)) :=
  run0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMin0 (Memref.isWhole_whole _) scMax0 (Memref.isWhole_whole _) h0 h1 (iblk0 V c 0 t) (iblk0 V c 1 t) (iblk0 V c 2 t) (iblk0 V c 3 t)
/-- The run of a middle tile at point `t`, the scratch columns holding `s`. -/
abbrev runB (c : Dev nD) (t : Fin cfg0.N) (h0 : ¬first0 (grid0.coords t)) (h1 : ¬last0 (grid0.coords t)) (s : Vec F S512x1 .f32 × Vec F S512x1 .f32) :=
  run0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMin0 (Memref.isWhole_whole _) scMax0 (Memref.isWhole_whole _) h0 h1 (iblk0 V c 0 t) (iblk0 V c 1 t) (iblk0 V c 2 t) (iblk0 V c 3 t) s.1 s.2
/-- The run of a last tile at point `t`, the scratch columns holding `s`. -/
abbrev runC (c : Dev nD) (t : Fin cfg0.N) (h0 : ¬first0 (grid0.coords t)) (h1 : last0 (grid0.coords t)) (s : Vec F S512x1 .f32 × Vec F S512x1 .f32) :=
  run0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scMin0 (Memref.isWhole_whole _) scMax0 (Memref.isWhole_whole _) h0 h1 (iblk0 V c 0 t) (iblk0 V c 1 t) (iblk0 V c 2 t) (iblk0 V c 3 t) s.1 s.2

/-- Pieces that tile a column cover it. -/
theorem coverA_min (c t h0 h1) (y : S512x1.Idx) : ∃ pc ∈ (runA V c t h0 h1).1, y ∈ pc.1.set :=
  View.cover_of_tiledL _ S512x1.size (by sl_kernel_rfl) y
theorem coverA_max (c t h0 h1) (y : S512x1.Idx) : ∃ pc ∈ (runA V c t h0 h1).2.1, y ∈ pc.1.set :=
  View.cover_of_tiledL _ S512x1.size (by sl_kernel_rfl) y
theorem coverB_min (c t h0 h1 s) (y : S512x1.Idx) : ∃ pc ∈ (runB V c t h0 h1 s).1, y ∈ pc.1.set :=
  View.cover_of_tiledL _ S512x1.size (by sl_kernel_rfl) y
theorem coverB_max (c t h0 h1 s) (y : S512x1.Idx) : ∃ pc ∈ (runB V c t h0 h1 s).2.1, y ∈ pc.1.set :=
  View.cover_of_tiledL _ S512x1.size (by sl_kernel_rfl) y
theorem coverC_4 (c t h0 h1 s) (y : S512x1.Idx) : ∃ pc ∈ (runC V c t h0 h1 s).1, y ∈ pc.1.set :=
  View.cover_of_tiledL _ S512x1.size (by sl_kernel_rfl) y
theorem coverC_5 (c t h0 h1 s) (y : S512x1.Idx) : ∃ pc ∈ (runC V c t h0 h1 s).2.1, y ∈ pc.1.set :=
  View.cover_of_tiledL _ S512x1.size (by sl_kernel_rfl) y
theorem coverC_min (c t h0 h1 s) (y : S512x1.Idx) : ∃ pc ∈ (runC V c t h0 h1 s).2.2.1, y ∈ pc.1.set :=
  View.cover_of_tiledL _ S512x1.size (by sl_kernel_rfl) y
theorem coverC_max (c t h0 h1 s) (y : S512x1.Idx) : ∃ pc ∈ (runC V c t h0 h1 s).2.2.2.1, y ∈ pc.1.set :=
  View.cover_of_tiledL _ S512x1.size (by sl_kernel_rfl) y

/-- The scratch columns (minimum, maximum) after a first, middle, last tile: the stored pieces read back. -/
def scrA (c : Dev nD) (t : Fin cfg0.N) (h0 : first0 (grid0.coords t)) (h1 : ¬last0 (grid0.coords t)) : Vec F S512x1 .f32 × Vec F S512x1 .f32 :=
  (VMin0.read (Elt F) (VMin0.writes (Elt F) VMin0.junk (runA V c t h0 h1).1), VMax0.read (Elt F) (VMax0.writes (Elt F) VMax0.junk (runA V c t h0 h1).2.1))
def scrB (c : Dev nD) (t : Fin cfg0.N) (h0 : ¬first0 (grid0.coords t)) (h1 : ¬last0 (grid0.coords t)) (s : Vec F S512x1 .f32 × Vec F S512x1 .f32) : Vec F S512x1 .f32 × Vec F S512x1 .f32 :=
  (VMin0.read (Elt F) (VMin0.writes (Elt F) VMin0.junk (runB V c t h0 h1 s).1), VMax0.read (Elt F) (VMax0.writes (Elt F) VMax0.junk (runB V c t h0 h1 s).2.1))
def scrC (c : Dev nD) (t : Fin cfg0.N) (h0 : ¬first0 (grid0.coords t)) (h1 : last0 (grid0.coords t)) (s : Vec F S512x1 .f32 × Vec F S512x1 .f32) : Vec F S512x1 .f32 × Vec F S512x1 .f32 :=
  (VMin0.read (Elt F) (VMin0.writes (Elt F) VMin0.junk (runC V c t h0 h1 s).2.2.1), VMax0.read (Elt F) (VMax0.writes (Elt F) VMax0.junk (runC V c t h0 h1 s).2.2.2.1))
/-- The two output blocks after a last tile. -/
def outC (c : Dev nD) (t : Fin cfg0.N) (h0 : ¬first0 (grid0.coords t)) (h1 : last0 (grid0.coords t)) (s : Vec F S512x1 .f32 × Vec F S512x1 .f32) : Vec F S512x1 .f32 × Vec F S512x1 .f32 :=
  (VO0_4.read (Elt F) (VO0_4.writes (Elt F) VO0_4.junk (runC V c t h0 h1 s).1), VO0_5.read (Elt F) (VO0_5.writes (Elt F) VO0_5.junk (runC V c t h0 h1 s).2.1))

theorem not_last_of_first (t : Fin cfg0.N) (h0 : t.val % 8 = 0) : ¬last0 (grid0.coords t) :=
  fun h => by have := (last0_iff t).mp h; omega

/-! ## The scratch columns point by point -/

/-- What the scratch columns hold after the body at point `n`. -/
def scrAt0 (c : Dev nD) : (n : ℕ) → n < cfg0.N → Vec F S512x1 .f32 × Vec F S512x1 .f32
  | 0, hn => scrA V c ⟨0, hn⟩ ((first0_iff ⟨0, hn⟩).mpr (Nat.zero_mod _)) (not_last_of_first ⟨0, hn⟩ (Nat.zero_mod _))
  | n + 1, hn =>
    if h0 : (n + 1) % 8 = 0 then
      scrA V c ⟨n + 1, hn⟩ ((first0_iff ⟨n + 1, hn⟩).mpr h0) (not_last_of_first ⟨n + 1, hn⟩ h0)
    else if h1 : (n + 1) % 8 = 7 then
      scrC V c ⟨n + 1, hn⟩ (fun h => h0 ((first0_iff ⟨n + 1, hn⟩).mp h)) ((last0_iff ⟨n + 1, hn⟩).mpr h1) (scrAt0 c n (Nat.lt_of_succ_lt hn))
    else
      scrB V c ⟨n + 1, hn⟩ (fun h => h0 ((first0_iff ⟨n + 1, hn⟩).mp h)) (fun h => h1 ((last0_iff ⟨n + 1, hn⟩).mp h)) (scrAt0 c n (Nat.lt_of_succ_lt hn))

/-- What point `t - 1` left in the scratch columns. -/
abbrev scrPrev0 (c : Dev nD) (t : Fin cfg0.N) : Vec F S512x1 .f32 × Vec F S512x1 .f32 :=
  scrAt0 V c (t.val - 1) (Nat.lt_of_le_of_lt (Nat.sub_le _ _) t.isLt)

theorem scrAt0_first (c : Dev nD) (t : Fin cfg0.N) (h0 : t.val % 8 = 0) :
    scrAt0 V c t.val t.isLt = scrA V c t ((first0_iff t).mpr h0) (not_last_of_first t h0) := by
  obtain ⟨n, hn⟩ := t
  cases n with
  | zero => rfl
  | succ n => exact dif_pos h0

theorem scrAt0_mid (c : Dev nD) (t : Fin cfg0.N) (h0 : ¬t.val % 8 = 0) (h1 : ¬t.val % 8 = 7) :
    scrAt0 V c t.val t.isLt = scrB V c t (fun h => h0 ((first0_iff t).mp h)) (fun h => h1 ((last0_iff t).mp h)) (scrPrev0 V c t) := by
  obtain ⟨n, hn⟩ := t
  cases n with
  | zero => exact absurd (Nat.zero_mod _) h0
  | succ n => exact (dif_neg h0).trans (dif_neg h1)

theorem scrAt0_last (c : Dev nD) (t : Fin cfg0.N) (h0 : ¬t.val % 8 = 0) (h1 : t.val % 8 = 7) :
    scrAt0 V c t.val t.isLt = scrC V c t (fun h => h0 ((first0_iff t).mp h)) ((last0_iff t).mpr h1) (scrPrev0 V c t) := by
  obtain ⟨n, hn⟩ := t
  cases n with
  | zero => exact absurd (Nat.zero_mod _) h0
  | succ n => exact (dif_neg h0).trans (dif_pos h1)

/-- What the two output blocks hold after the body at point `t`: the scratch columns' copies at a last tile; at the
    other points the blocks are idle and this value is never consulted. -/
def outAt0 (c : Dev nD) (t : Fin cfg0.N) : Vec F S512x1 .f32 × Vec F S512x1 .f32 :=
  if h1 : t.val % 8 = 7 then
    outC V c t (fun h => by have := (first0_iff t).mp h; omega) ((last0_iff t).mpr h1) (scrPrev0 V c t)
  else (VO0_4.read (Elt F) VO0_4.junk, VO0_5.read (Elt F) VO0_5.junk)

theorem outAt0_last (c : Dev nD) (t : Fin cfg0.N) (h0 : ¬t.val % 8 = 0) (h1 : t.val % 8 = 7) :
    outAt0 V c t = outC V c t (fun h => h0 ((first0_iff t).mp h)) ((last0_iff t).mpr h1) (scrPrev0 V c t) := dif_pos h1

/-! ## The invariant between points -/

/-- Before point `n`: at the first point what the launch hands over; afterwards the scratch columns at what point
    `n - 1` left, the unused scoped buffers and the generator register at something. -/
def PhiS0 (c : Dev nD) : (n : ℕ) → n ≤ cfg0.N → sProp 𝕄
  | 0, _ => Pipeline.ΦA spec0 c
  | n + 1, hn => iprop(iprop(owns (c : Thread nD τ) scMin0 fullShare (scrAt0 V c n hn).1 ∗ owns (c : Thread nD τ) scMax0 fullShare (scrAt0 V c n hn).2 ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scMin0 fullShare (scrAt0 V c n hn).1 ∗ owns (c : Thread nD τ) scMax0 fullShare (scrAt0 V c n hn).2 ∗ others0 c) ∗ (∃ r, prngReg c r)) := rfl
theorem PhiS0_pos (c : Dev nD) (n : ℕ) (h : n ≤ cfg0.N) (hz : n ≠ 0) :
    PhiS0 V c n h = iprop(iprop(owns (c : Thread nD τ) scMin0 fullShare (scrAt0 V c (n - 1) (by omega)).1 ∗ owns (c : Thread nD τ) scMax0 fullShare (scrAt0 V c (n - 1) (by omega)).2 ∗ others0 c) ∗ (∃ r, prngReg c r)) := by
  cases n with
  | zero => exact absurd rfl hz
  | succ n => rfl

/-! ## The proof data -/

/-- The first pass's proof data on core `c`: the arrays as the region finds them; after the body each input buffer at
    its block and the output buffers at `outAt0`; the invariant `PhiS0`; nothing owed; the feature matrix's share dealt
    in halves between the two windows that read it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt0 V c t).1
    | ⟨5, _⟩ => (outAt0 V c t).2
  Φ t := PhiS0 V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt0 V c t).1 := by dsimp only [dat0]
theorem after0_5 (c : Dev nD) (t : Fin cfg0.N) : (dat0 V c).after 5 t = (outAt0 V c t).2 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Cert.KernelIdeal.Hand

end
-- ==== Proof.KI.Pieces0.lean ====
/-
  What the first pass's three cases leave, read back as the body's arithmetic: at a first tile the scratch columns
  hold the update of the reset values (+inf, -inf); at a middle or last tile the update of what they held; and at a
  last tile the two output blocks hold copies of the updated scratch columns.
-/
import proofs.«136741_j45509473469192_1_alg».proof.Proof.KI.R0Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

theorem hz : (![0, 0] : Fin 2 → Nat) = fun _ => 0 := funext fun a => by fin_cases a <;> rfl

variable (c : Dev nD) (t : Fin cfg0.N)

section First
variable (h0 : first0 (grid0.coords t)) (h1 : ¬last0 (grid0.coords t))
theorem scrA_min : (scrA V c t h0 h1).1 = k0_pay7 (iblk0 V c 0 t) (iblk0 V c 1 t) (iblk0 V c 2 t) (iblk0 V c 3 t) (k0_pay2 (F := F)) := by
  unfold scrA
  dsimp only
  rw [View.read_writes_eq_canon _ _ _ (coverA_min V c t h0 h1)]
  unfold runA run0_A
  dsimp only
  sl_unfold_words
  rw [View.canon_cons_unit_zero (S := S512x1) hz, View.readCov_unit_zero (S := S512x1) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
theorem scrA_max : (scrA V c t h0 h1).2 = k0_pay1 (k0_pay6 (iblk0 V c 0 t) (iblk0 V c 1 t) (iblk0 V c 2 t) (iblk0 V c 3 t)) (k0_pay3 (F := F)) := by
  unfold scrA
  dsimp only
  rw [View.read_writes_eq_canon _ _ _ (coverA_max V c t h0 h1)]
  unfold runA run0_A
  dsimp only
  sl_unfold_words
  rw [View.canon_cons_unit_zero (S := S512x1) hz, View.readCov_unit_zero (S := S512x1) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
end First

section Middle
variable (h0 : ¬first0 (grid0.coords t)) (h1 : ¬last0 (grid0.coords t)) (s : Vec F S512x1 .f32 × Vec F S512x1 .f32)
theorem scrB_min : (scrB V c t h0 h1 s).1 = k0_pay7 (iblk0 V c 0 t) (iblk0 V c 1 t) (iblk0 V c 2 t) (iblk0 V c 3 t) s.1 := by
  unfold scrB
  dsimp only
  rw [View.read_writes_eq_canon _ _ _ (coverB_min V c t h0 h1 s)]
  unfold runB run0_B
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
theorem scrB_max : (scrB V c t h0 h1 s).2 = k0_pay1 (k0_pay6 (iblk0 V c 0 t) (iblk0 V c 1 t) (iblk0 V c 2 t) (iblk0 V c 3 t)) s.2 := by
  unfold scrB
  dsimp only
  rw [View.read_writes_eq_canon _ _ _ (coverB_max V c t h0 h1 s)]
  unfold runB run0_B
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
end Middle

section Last
variable (h0 : ¬first0 (grid0.coords t)) (h1 : last0 (grid0.coords t)) (s : Vec F S512x1 .f32 × Vec F S512x1 .f32)
theorem scrC_min : (scrC V c t h0 h1 s).1 = k0_pay7 (iblk0 V c 0 t) (iblk0 V c 1 t) (iblk0 V c 2 t) (iblk0 V c 3 t) s.1 := by
  unfold scrC
  dsimp only
  rw [View.read_writes_eq_canon _ _ _ (coverC_min V c t h0 h1 s)]
  unfold runC run0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
theorem scrC_max : (scrC V c t h0 h1 s).2 = k0_pay1 (k0_pay6 (iblk0 V c 0 t) (iblk0 V c 1 t) (iblk0 V c 2 t) (iblk0 V c 3 t)) s.2 := by
  unfold scrC
  dsimp only
  rw [View.read_writes_eq_canon _ _ _ (coverC_max V c t h0 h1 s)]
  unfold runC run0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
theorem outC_min : (outC V c t h0 h1 s).1 = k0_pay7 (iblk0 V c 0 t) (iblk0 V c 1 t) (iblk0 V c 2 t) (iblk0 V c 3 t) s.1 := by
  unfold outC
  dsimp only
  rw [View.read_writes_eq_canon _ _ _ (coverC_4 V c t h0 h1 s)]
  unfold runC run0_C
  dsimp only
  sl_unfold_words
  rw [View.canon_unit_zero hz, View.readCov_unit_zero (S := S512x1) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
theorem outC_max : (outC V c t h0 h1 s).2 = k0_pay1 (k0_pay6 (iblk0 V c 0 t) (iblk0 V c 1 t) (iblk0 V c 2 t) (iblk0 V c 3 t)) s.2 := by
  unfold outC
  dsimp only
  rw [View.read_writes_eq_canon _ _ _ (coverC_5 V c t h0 h1 s)]
  unfold runC run0_C
  dsimp only
  sl_unfold_words
  rw [View.canon_unit_zero hz, View.readCov_unit_zero (S := S512x1) _ hz]
  simp only [View.readAt_eq_ld, (hs0_0 t).read_unread, (hs0_1 t).read_unread, (hs0_2 t).read_unread, (hs0_3 t).read_unread,
    (Memref.isWhole_whole cc0_scratch0).read_unread, (Memref.isWhole_whole cc0_scratch1).read_unread,
    View.ld_unit_zero (S := S512x1024) hz, View.ld_unit_zero (S := S512x1) hz, View.ld_unit_zero (S := S1x512) hz]
end Last

end Cert.KernelIdeal.Hand

end
-- ==== Proof.KI.Pieces1.lean ====
/-
  What the second pass's three cases leave, read back as the body's arithmetic: at a first tile the four scratch
  columns hold the update of the reset values (zeros); at a middle or last tile the update of what they held; at a
  last tile the output block holds the rows' losses computed from the updated scratch columns.
-/
import proofs.«136741_j45509473469192_1_alg».proof.Proof.KI.R1Body
import proofs.«136741_j45509473469192_1_alg».proof.Proof.KI.Pieces0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)
variable (c : Dev nD) (t : Fin cfg1.N)

section First
variable (h0 : first1 (grid1.coords t)) (h1 : ¬last1 (grid1.coords t))
theorem scrA1_0 : (scrA1 V c t h0 h1).1 = k1_pay13 (k1_pay10 (iblk1 V c 0 t) (iblk1 V c 1 t) (iblk1 V c 2 t) (iblk1 V c 3 t) (iblk1 V c 5 t)) (k1_pay11 (iblk1 V c 0 t) (iblk1 V c 1 t)) (k1_pay12 (F := F)) (k1_pay3 (F := F)) := by
  unfold scrA1
  dsimp only
  rw [View.read_writes_eq_canon _ _ _ (coverA1_s0 V c t h0 h1)]
  unfold runA1 run1_A
  dsimp only
  sl_unfold_words
  rw [View.canon_cons_unit_zero (S := S512x1) hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrA1_1 : (scrA1 V c t h0 h1).2.1 = k1_pay14 (k1_pay7 (iblk1 V c 0 t) (iblk1 V c 1 t)) (k1_pay9 (iblk1 V c 0 t) (iblk1 V c 1 t) (iblk1 V c 2 t) (iblk1 V c 3 t) (iblk1 V c 4 t)) (k1_pay4 (F := F)) := by
  unfold scrA1
  dsimp only
  rw [View.read_writes_eq_canon _ _ _ (coverA1_s1 V c t h0 h1)]
  unfold runA1 run1_A
  dsimp only
  sl_unfold_words
  rw [View.canon_cons_unit_zero (S := S512x1) hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrA1_2 : (scrA1 V c t h0 h1).2.2.1 = k1_pay15 (k1_pay10 (iblk1 V c 0 t) (iblk1 V c 1 t) (iblk1 V c 2 t) (iblk1 V c 3 t) (iblk1 V c 5 t)) (k1_pay5 (F := F)) := by
  unfold scrA1
  dsimp only
  rw [View.read_writes_eq_canon _ _ _ (coverA1_s2 V c t h0 h1)]
  unfold runA1 run1_A
  dsimp only
  sl_unfold_words
  rw [View.canon_cons_unit_zero (S := S512x1) hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrA1_3 : (scrA1 V c t h0 h1).2.2.2 = k1_pay1 (k1_pay6 (F := F)) (k1_pay16 (k1_pay9 (iblk1 V c 0 t) (iblk1 V c 1 t) (iblk1 V c 2 t) (iblk1 V c 3 t) (iblk1 V c 4 t))) := by
  unfold scrA1
  dsimp only
  rw [View.read_writes_eq_canon _ _ _ (coverA1_s3 V c t h0 h1)]
  unfold runA1 run1_A
  dsimp only
  sl_unfold_words
  rw [View.canon_cons_unit_zero (S := S512x1) hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
end First

section Middle
variable (h0 : ¬first1 (grid1.coords t)) (h1 : ¬last1 (grid1.coords t)) (s : Vec F S512x1 .f32 × Vec F S512x1 .f32 × Vec F S512x1 .f32 × Vec F S512x1 .f32)
theorem scrB1_0 : (scrB1 V c t h0 h1 s).1 = k1_pay13 (k1_pay10 (iblk1 V c 0 t) (iblk1 V c 1 t) (iblk1 V c 2 t) (iblk1 V c 3 t) (iblk1 V c 5 t)) (k1_pay11 (iblk1 V c 0 t) (iblk1 V c 1 t)) (k1_pay12 (F := F)) s.1 := by
  unfold scrB1
  dsimp only
  rw [View.read_writes_eq_canon _ _ _ (coverB1_s0 V c t h0 h1 s)]
  unfold runB1 run1_B
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrB1_1 : (scrB1 V c t h0 h1 s).2.1 = k1_pay14 (k1_pay7 (iblk1 V c 0 t) (iblk1 V c 1 t)) (k1_pay9 (iblk1 V c 0 t) (iblk1 V c 1 t) (iblk1 V c 2 t) (iblk1 V c 3 t) (iblk1 V c 4 t)) s.2.1 := by
  unfold scrB1
  dsimp only
  rw [View.read_writes_eq_canon _ _ _ (coverB1_s1 V c t h0 h1 s)]
  unfold runB1 run1_B
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrB1_2 : (scrB1 V c t h0 h1 s).2.2.1 = k1_pay15 (k1_pay10 (iblk1 V c 0 t) (iblk1 V c 1 t) (iblk1 V c 2 t) (iblk1 V c 3 t) (iblk1 V c 5 t)) s.2.2.1 := by
  unfold scrB1
  dsimp only
  rw [View.read_writes_eq_canon _ _ _ (coverB1_s2 V c t h0 h1 s)]
  unfold runB1 run1_B
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrB1_3 : (scrB1 V c t h0 h1 s).2.2.2 = k1_pay1 s.2.2.2 (k1_pay16 (k1_pay9 (iblk1 V c 0 t) (iblk1 V c 1 t) (iblk1 V c 2 t) (iblk1 V c 3 t) (iblk1 V c 4 t))) := by
  unfold scrB1
  dsimp only
  rw [View.read_writes_eq_canon _ _ _ (coverB1_s3 V c t h0 h1 s)]
  unfold runB1 run1_B
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
end Middle

section Last
variable (h0 : ¬first1 (grid1.coords t)) (h1 : last1 (grid1.coords t)) (s : Vec F S512x1 .f32 × Vec F S512x1 .f32 × Vec F S512x1 .f32 × Vec F S512x1 .f32)
theorem scrC1_0 : (scrC1 V c t h0 h1 s).1 = k1_pay13 (k1_pay10 (iblk1 V c 0 t) (iblk1 V c 1 t) (iblk1 V c 2 t) (iblk1 V c 3 t) (iblk1 V c 5 t)) (k1_pay11 (iblk1 V c 0 t) (iblk1 V c 1 t)) (k1_pay12 (F := F)) s.1 := by
  unfold scrC1
  dsimp only
  rw [View.read_writes_eq_canon _ _ _ (coverC1_s0 V c t h0 h1 s)]
  unfold runC1 run1_C
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrC1_1 : (scrC1 V c t h0 h1 s).2.1 = k1_pay14 (k1_pay7 (iblk1 V c 0 t) (iblk1 V c 1 t)) (k1_pay9 (iblk1 V c 0 t) (iblk1 V c 1 t) (iblk1 V c 2 t) (iblk1 V c 3 t) (iblk1 V c 4 t)) s.2.1 := by
  unfold scrC1
  dsimp only
  rw [View.read_writes_eq_canon _ _ _ (coverC1_s1 V c t h0 h1 s)]
  unfold runC1 run1_C
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrC1_2 : (scrC1 V c t h0 h1 s).2.2.1 = k1_pay15 (k1_pay10 (iblk1 V c 0 t) (iblk1 V c 1 t) (iblk1 V c 2 t) (iblk1 V c 3 t) (iblk1 V c 5 t)) s.2.2.1 := by
  unfold scrC1
  dsimp only
  rw [View.read_writes_eq_canon _ _ _ (coverC1_s2 V c t h0 h1 s)]
  unfold runC1 run1_C
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem scrC1_3 : (scrC1 V c t h0 h1 s).2.2.2 = k1_pay1 s.2.2.2 (k1_pay16 (k1_pay9 (iblk1 V c 0 t) (iblk1 V c 1 t) (iblk1 V c 2 t) (iblk1 V c 3 t) (iblk1 V c 4 t))) := by
  unfold scrC1
  dsimp only
  rw [View.read_writes_eq_canon _ _ _ (coverC1_s3 V c t h0 h1 s)]
  unfold runC1 run1_C
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
theorem outC1_eq : outC1 V c t h0 h1 s = k1_pay2 (k1_pay13 (k1_pay10 (iblk1 V c 0 t) (iblk1 V c 1 t) (iblk1 V c 2 t) (iblk1 V c 3 t) (iblk1 V c 5 t)) (k1_pay11 (iblk1 V c 0 t) (iblk1 V c 1 t)) (k1_pay12 (F := F)) s.1) (k1_pay14 (k1_pay7 (iblk1 V c 0 t) (iblk1 V c 1 t)) (k1_pay9 (iblk1 V c 0 t) (iblk1 V c 1 t) (iblk1 V c 2 t) (iblk1 V c 3 t) (iblk1 V c 4 t)) s.2.1) (k1_pay15 (k1_pay10 (iblk1 V c 0 t) (iblk1 V c 1 t) (iblk1 V c 2 t) (iblk1 V c 3 t) (iblk1 V c 5 t)) s.2.2.1) (k1_pay1 s.2.2.2 (k1_pay16 (k1_pay9 (iblk1 V c 0 t) (iblk1 V c 1 t) (iblk1 V c 2 t) (iblk1 V c 3 t) (iblk1 V c 4 t)))) := by
  unfold outC1
  dsimp only
  rw [View.read_writes_eq_canon _ _ _ (coverC1_o0 V c t h0 h1 s)]
  unfold runC1 run1_C
  dsimp only
  sl_unfold_words
  rw [View.canon_unit_zero hz]
  repeat rw [View.readCov_unit_zero (S := S512x1) _ hz]
  simp only [View.readAt_eq_ld, (hs1_0 t).read_unread, (hs1_1 t).read_unread, (hs1_2 t).read_unread, (hs1_3 t).read_unread,
    (hs1_4 t).read_unread, (hs1_5 t).read_unread,
    (Memref.isWhole_whole cc1_scratch0).read_unread, (Memref.isWhole_whole cc1_scratch1).read_unread,
    (Memref.isWhole_whole cc1_scratch2).read_unread, (Memref.isWhole_whole cc1_scratch3).read_unread,
    View.ld_unit_zero (S := S512x1024) hz, View.ld_unit_zero (S := S512x1) hz, View.ld_unit_zero (S := S1x512) hz]
end Last

end Cert.KernelIdeal.Hand

end
-- ==== Proof.Spec.lean ====
/-
  The multi-similarity loss as ONE function of the feature matrix x : 4096 × 1024 and the labels, over the extended
  reals. Rows are normalised by their Euclidean norm; sim p q is the inner product of normalised rows p and q.
  A pair (p, q) is a positive when the labels agree and sim p q is below the threshold, a negative when the labels
  differ. Per row p: the least positive and the greatest negative similarity (infimum / supremum over the whole row,
  ⊤ / ⊥ where the mask is off); the selected negatives are those within the margin above the least positive, the
  selected positives those within the margin below the greatest negative; the two exponential sums over the
  selected pairs; the row's loss when both selections are non-empty, else 0; the loss is the rows' mean.
  Float literals are kept as their words (the same word on both sides is never evaluated); only 0, +inf, -inf are
  read (0, ⊤, ⊥).
-/
import Idealize.ShloMosaic.PureOps.Ideal

noncomputable section

namespace Cert.Loss

open Idealize.ShloMosaic

/-- The literals both programs share, as words. -/
abbrev cThr : EReal := Ideal.ofBits .f32 0x3F7FFF58#32
abbrev cMargin : EReal := Ideal.ofBits .f32 0x3DCCCCCD#32
abbrev cHalf : EReal := Ideal.ofBits .f32 0x3F000000#32
abbrev cPosScale : EReal := Ideal.ofBits .f32 0xC0000000#32
abbrev cNegScale : EReal := Ideal.ofBits .f32 0x42200000#32
abbrev cTwo : EReal := Ideal.ofBits .f32 0x40000000#32
abbrev cRows : EReal := Ideal.ofBits .f32 0x45800000#32

variable (x : Fin 4096 → Fin 1024 → EReal) (lab : Fin 4096 → BitVec 32)

/-- The Euclidean norm of row `r`. -/
def nrm (r : Fin 4096) : EReal := Ideal.sqrt (∑ k : Fin 1024, x r k * x r k)
/-- The normalised features. -/
def feat (r : Fin 4096) (k : Fin 1024) : EReal := Ideal.div (x r k) (nrm x r)
/-- The similarity of rows `p` and `q`. -/
def sim (p q : Fin 4096) : EReal := ∑ k : Fin 1024, feat x p k * feat x q k
/-- "Rows p and q carry one label", as a truth bit. -/
def same (p q : Fin 4096) : BitVec 1 := IntOp.cmpi .eq (lab p) (lab q)
/-- The positives' mask and the negatives' mask. -/
def posM (p q : Fin 4096) : BitVec 1 := same lab p q &&& Ideal.cmp .olt (sim x p q) cThr
def negM (p q : Fin 4096) : BitVec 1 := ~~~ same lab p q
/-- The least positive and the greatest negative similarity of row `p`. -/
def minPos (p : Fin 4096) : EReal := ⨅ q : Fin 4096, Scalar.select (posM x lab p q) (sim x p q) ⊤
def maxNeg (p : Fin 4096) : EReal := ⨆ q : Fin 4096, Scalar.select (negM lab p q) (sim x p q) ⊥
/-- The selected negatives and positives of row `p`. -/
def negSel (p q : Fin 4096) : BitVec 1 := negM lab p q &&& Ideal.cmp .ogt (sim x p q + cMargin) (minPos x lab p)
def posSel (p q : Fin 4096) : BitVec 1 := posM x lab p q &&& Ideal.cmp .olt (sim x p q - cMargin) (maxNeg x lab p)
/-- The two exponential sums of row `p`. -/
def posSum (p : Fin 4096) : EReal :=
  ∑ q : Fin 4096, Scalar.select (posSel x lab p q) (Ideal.exp (cPosScale * (sim x p q - cHalf))) 0
def negSum (p : Fin 4096) : EReal :=
  ∑ q : Fin 4096, Scalar.select (negSel x lab p q) (Ideal.exp (cNegScale * (sim x p q - cHalf))) 0
/-- The loss of row `p`: counted only when it has a selected positive and a selected negative. -/
def rowLoss (p : Fin 4096) : EReal :=
  if (∃ q, posSel x lab p q = 1#1) ∧ (∃ q, negSel x lab p q = 1#1) then
    Ideal.div (Ideal.log1p (posSum x lab p)) cTwo + Ideal.div (Ideal.log1p (negSum x lab p)) cNegScale
  else 0
/-- The loss: the mean of the rows' losses. -/
def loss : EReal := Ideal.div (∑ p : Fin 4096, rowLoss x lab p) cRows

end Cert.Loss

end
-- ==== Proof.KI.Tile.lean ====
/-
  One row tile of the loss, as the kernel computes it, in pure functions over the extended reals. A row tile i
  (512 rows) is processed against the 8 column tiles j = 0 … 7 in order. Pass 1 keeps two columns (running least
  positive, running greatest negative similarity): `init0` resets them, `step0` updates them with one column tile.
  Pass 2 keeps four columns (the two exponential sums and the two "something was selected" flags): `init1`,
  `step1`; `out1` turns them into the rows' losses. `acc0` / `acc1` are the columns after column tiles 0 … j.
  The blocks are cut out of whole arrays: 512 consecutive rows of the feature matrix, 512 consecutive labels as a
  column or as a row, 512 consecutive entries of a per-row column.
-/
import proofs.«136741_j45509473469192_1_alg».proof.Proof.Gen.KernelIdeal.Skeleton
import proofs.«136741_j45509473469192_1_alg».proof.Proof.Spec
import Idealize.ShloMosaic.Lib.ValueIdx

noncomputable section

namespace Cert.KernelIdeal.Tile

open Cert.KernelIdeal Cert.KernelIdeal.Gen
open Idealize.ShloMosaic Idealize.ShloMosaic.ValueIdx

/-- A column of 512 extended reals. -/
abbrev Col : Type := Vec Ideal S512x1 .f32

/-- Tile number `j` taken modulo 8. -/
abbrev tileOf (j : ℕ) : Fin 8 := ⟨j % 8, Nat.mod_lt _ (by decide)⟩

/-- Rows 512·i … 512·i + 511 of the feature matrix. -/
def featBlk (A : Vec Ideal S4096x1024 .bf16) (i : Fin 8) : Vec Ideal S512x1024 .bf16 :=
  fun y => A (ix2 (⟨512 * i.val + (y 0).val, by have h : (y 0).val < 512 := (y 0).isLt; have := i.isLt; omega⟩ : Fin 4096) (y 1))
/-- Labels 512·i … 512·i + 511, as a column. -/
def labColBlk (A : Vec Ideal S4096x1 .i32) (i : Fin 8) : Vec Ideal S512x1 .i32 :=
  fun y => A (ix2 (⟨512 * i.val + (y 0).val, by have h : (y 0).val < 512 := (y 0).isLt; have := i.isLt; omega⟩ : Fin 4096) (y 1))
/-- Labels 512·j … 512·j + 511, as a row. -/
def labRowBlk (A : Vec Ideal S1x4096 .i32) (j : Fin 8) : Vec Ideal S1x512 .i32 :=
  fun y => A (ix2 (y 0) (⟨512 * j.val + (y 1).val, by have h : (y 1).val < 512 := (y 1).isLt; have := j.isLt; omega⟩ : Fin 4096))
/-- Entries 512·i … 512·i + 511 of a per-row column. -/
def colBlk (A : Vec Ideal S4096x1 .f32) (i : Fin 8) : Col :=
  fun y => A (ix2 (⟨512 * i.val + (y 0).val, by have h : (y 0).val < 512 := (y 0).isLt; have := i.isLt; omega⟩ : Fin 4096) (y 1))

/-! ## Pass 1 -/

/-- The two columns at the start of a row: +inf, -inf. -/
def init0 : Col × Col := (k0_pay2 (F := Ideal), k0_pay3 (F := Ideal))
/-- One column tile: `a` the row tile's features, `b` the column tile's, `la` / `lb` their labels. -/
def step0 (a b : Vec Ideal S512x1024 .bf16) (la : Vec Ideal S512x1 .i32) (lb : Vec Ideal S1x512 .i32) (s : Col × Col) : Col × Col :=
  (k0_pay7 a b la lb s.1, k0_pay1 (k0_pay6 a b la lb) s.2)
/-- The two columns of row tile `i` after column tiles 0 … j. -/
def acc0 (Fm : Vec Ideal S4096x1024 .bf16) (Lc : Vec Ideal S4096x1 .i32) (Lr : Vec Ideal S1x4096 .i32) (i : Fin 8) : ℕ → Col × Col
  | 0 => step0 (featBlk Fm i) (featBlk Fm (tileOf 0)) (labColBlk Lc i) (labRowBlk Lr (tileOf 0)) init0
  | j + 1 => step0 (featBlk Fm i) (featBlk Fm (tileOf (j + 1))) (labColBlk Lc i) (labRowBlk Lr (tileOf (j + 1))) (acc0 Fm Lc Lr i j)

/-! ## Pass 2 -/

/-- The four columns at the start of a row: zeros. -/
def init1 : Col × Col × Col × Col := (k1_pay3 (F := Ideal), k1_pay4 (F := Ideal), k1_pay5 (F := Ideal), k1_pay6 (F := Ideal))
/-- One column tile: besides the features and labels, `mn` / `mx` the row tile's least positive and greatest
    negative similarity from pass 1. -/
def step1 (a b : Vec Ideal S512x1024 .bf16) (la : Vec Ideal S512x1 .i32) (lb : Vec Ideal S1x512 .i32) (mn mx : Col)
    (s : Col × Col × Col × Col) : Col × Col × Col × Col :=
  (k1_pay13 (k1_pay10 a b la lb mx) (k1_pay11 a b) (k1_pay12 (F := Ideal)) s.1,
   k1_pay14 (k1_pay7 a b) (k1_pay9 a b la lb mn) s.2.1,
   k1_pay15 (k1_pay10 a b la lb mx) s.2.2.1,
   k1_pay1 s.2.2.2 (k1_pay16 (k1_pay9 a b la lb mn)))
/-- The rows' losses from the four columns. -/
def out1 (s : Col × Col × Col × Col) : Col := k1_pay2 s.1 s.2.1 s.2.2.1 s.2.2.2
/-- The four columns of row tile `i` after column tiles 0 … j. -/
def acc1 (Fm : Vec Ideal S4096x1024 .bf16) (Lc : Vec Ideal S4096x1 .i32) (Lr : Vec Ideal S1x4096 .i32) (Mn Mx : Vec Ideal S4096x1 .f32) (i : Fin 8) :
    ℕ → Col × Col × Col × Col
  | 0 => step1 (featBlk Fm i) (featBlk Fm (tileOf 0)) (labColBlk Lc i) (labRowBlk Lr (tileOf 0)) (colBlk Mn i) (colBlk Mx i) init1
  | j + 1 => step1 (featBlk Fm i) (featBlk Fm (tileOf (j + 1))) (labColBlk Lc i) (labRowBlk Lr (tileOf (j + 1))) (colBlk Mn i) (colBlk Mx i)
      (acc1 Fm Lc Lr Mn Mx i j)

end Cert.KernelIdeal.Tile

end
-- ==== Proof.KI.Link0.lean ====
/-
  The first pass, point by point, IS the tile recursion: at grid point t = 8·i + j the four input blocks are row
  tile i and column tile j of the feature matrix and of the labels, each case of the body is one `step0`, and what
  the scratch columns hold after point t is `acc0 … i j`. Hence at a last tile (j = 7) the two output blocks hold
  `acc0 … i 7`, and the two output arrays end holding, row tile by row tile, those columns.
-/
import proofs.«136741_j45509473469192_1_alg».proof.Proof.KI.Pieces0
import proofs.«136741_j45509473469192_1_alg».proof.Proof.KI.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Idealize.ShloMosaic.ValueIdx

variable (V : Entry Ideal) (c : Dev nD)

/-- The region's three input arrays: the normalised features, the labels as a column and as a row. -/
abbrev FmOf : Vec Ideal S4096x1024 .bf16 := V c main_v3
abbrev LcOf : Vec Ideal S4096x1 .i32 := V c main_v4
abbrev LrOf : Vec Ideal S1x4096 .i32 := V c main_v5

/-- The row tile and the column tile of grid point `t`. -/
abbrev rowTile0 (t : Fin cfg0.N) : Fin 8 := ⟨t.val / 8, by have := t.isLt; have : cfg0.N = 64 := N_0; omega⟩
abbrev colTile0 (t : Fin cfg0.N) : Fin 8 := ⟨t.val % 8, Nat.mod_lt _ (by decide)⟩

/-! ## The index maps, decided over the grid -/

theorem idx0_0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx0_2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx0_3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx0_4 : ∀ t : Fin cfg0.N, win0_4.index t 0 = t.val / 8 ∧ win0_4.index t 1 = 0 :=
  (by decide +kernel : ∀ t : Fin grid0.N, win0_4.index t 0 = t.val / 8 ∧ win0_4.index t 1 = 0)
theorem idx0_5 : ∀ t : Fin cfg0.N, win0_5.index t 0 = t.val / 8 ∧ win0_5.index t 1 = 0 :=
  (by decide +kernel : ∀ t : Fin grid0.N, win0_5.index t 0 = t.val / 8 ∧ win0_5.index t 1 = 0)

/-! ## The blocks are cuts of the arrays -/

theorem blk0_0 (t : Fin cfg0.N) : (iblk0 V c 0 t : Vec Ideal S512x1024 .bf16) = featBlk (FmOf V c) (rowTile0 t) := by
  funext y
  unfold iblk0 featBlk
  rw [View.read_apply]
  show V c main_v3 _ = V c main_v3 _
  congr 1
  funext a
  apply Fin.ext
  match a with
  | ⟨0, _⟩ => show win0_0.index t 0 * 512 + 1 * (y 0).val = 512 * (t.val / 8) + (y 0).val; rw [(idx0_0 t).1]; omega
  | ⟨1, _⟩ => show win0_0.index t 1 * 1024 + 1 * (y 1).val = (y 1).val; rw [(idx0_0 t).2]; omega

theorem blk0_1 (t : Fin cfg0.N) : (iblk0 V c 1 t : Vec Ideal S512x1024 .bf16) = featBlk (FmOf V c) (colTile0 t) := by
  funext y
  unfold iblk0 featBlk
  rw [View.read_apply]
  show V c main_v3 _ = V c main_v3 _
  congr 1
  funext a
  apply Fin.ext
  match a with
  | ⟨0, _⟩ => show win0_1.index t 0 * 512 + 1 * (y 0).val = 512 * (t.val % 8) + (y 0).val; rw [(idx0_1 t).1]; omega
  | ⟨1, _⟩ => show win0_1.index t 1 * 1024 + 1 * (y 1).val = (y 1).val; rw [(idx0_1 t).2]; omega

theorem blk0_2 (t : Fin cfg0.N) : (iblk0 V c 2 t : Vec Ideal S512x1 .i32) = labColBlk (LcOf V c) (rowTile0 t) := by
  funext y
  unfold iblk0 labColBlk
  rw [View.read_apply]
  show V c main_v4 _ = V c main_v4 _
  congr 1
  funext a
  apply Fin.ext
  match a with
  | ⟨0, _⟩ => show win0_2.index t 0 * 512 + 1 * (y 0).val = 512 * (t.val / 8) + (y 0).val; rw [(idx0_2 t).1]; omega
  | ⟨1, _⟩ => show win0_2.index t 1 * 1 + 1 * (y 1).val = (y 1).val; rw [(idx0_2 t).2]; omega

theorem blk0_3 (t : Fin cfg0.N) : (iblk0 V c 3 t : Vec Ideal S1x512 .i32) = labRowBlk (LrOf V c) (colTile0 t) := by
  funext y
  unfold iblk0 labRowBlk
  rw [View.read_apply]
  show V c main_v5 _ = V c main_v5 _
  congr 1
  funext a
  apply Fin.ext
  match a with
  | ⟨0, _⟩ => show win0_3.index t 0 * 1 + 1 * (y 0).val = (y 0).val; rw [(idx0_3 t).1]; omega
  | ⟨1, _⟩ => show win0_3.index t 1 * 512 + 1 * (y 1).val = 512 * (t.val % 8) + (y 1).val; rw [(idx0_3 t).2]; omega

/-! ## Each case is one step of the tile recursion -/

/-- The step of the tile recursion at point `t`. -/
abbrev stepAt0 (t : Fin cfg0.N) (s : Col × Col) : Col × Col :=
  step0 (featBlk (FmOf V c) (rowTile0 t)) (featBlk (FmOf V c) (colTile0 t)) (labColBlk (LcOf V c) (rowTile0 t)) (labRowBlk (LrOf V c) (colTile0 t)) s

theorem scrA_step (t : Fin cfg0.N) (h0 : first0 (grid0.coords t)) (h1 : ¬last0 (grid0.coords t)) :
    scrA V c t h0 h1 = stepAt0 V c t init0 := by
  refine Prod.ext ?_ ?_
  · rw [scrA_min, blk0_0, blk0_1, blk0_2, blk0_3]; rfl
  · rw [scrA_max, blk0_0, blk0_1, blk0_2, blk0_3]; rfl
theorem scrB_step (t : Fin cfg0.N) (h0 : ¬first0 (grid0.coords t)) (h1 : ¬last0 (grid0.coords t)) (s : Col × Col) :
    scrB V c t h0 h1 s = stepAt0 V c t s := by
  refine Prod.ext ?_ ?_
  · rw [scrB_min, blk0_0, blk0_1, blk0_2, blk0_3]; rfl
  · rw [scrB_max, blk0_0, blk0_1, blk0_2, blk0_3]; rfl
theorem scrC_step (t : Fin cfg0.N) (h0 : ¬first0 (grid0.coords t)) (h1 : last0 (grid0.coords t)) (s : Col × Col) :
    scrC V c t h0 h1 s = stepAt0 V c t s := by
  refine Prod.ext ?_ ?_
  · rw [scrC_min, blk0_0, blk0_1, blk0_2, blk0_3]; rfl
  · rw [scrC_max, blk0_0, blk0_1, blk0_2, blk0_3]; rfl
theorem outC_step (t : Fin cfg0.N) (h0 : ¬first0 (grid0.coords t)) (h1 : last0 (grid0.coords t)) (s : Col × Col) :
    outC V c t h0 h1 s = stepAt0 V c t s := by
  refine Prod.ext ?_ ?_
  · rw [outC_min, blk0_0, blk0_1, blk0_2, blk0_3]; rfl
  · rw [outC_max, blk0_0, blk0_1, blk0_2, blk0_3]; rfl

/-! ## The scratch columns after point `n` are the tile recursion -/

theorem scrAt0_acc : ∀ (n : ℕ) (hn : n < cfg0.N) (i : Fin 8) (j : ℕ), n / 8 = i.val → n % 8 = j →
    scrAt0 V c n hn = acc0 (FmOf V c) (LcOf V c) (LrOf V c) i j
  | 0, hn, i, j, hi, hj => by
    obtain rfl : j = 0 := by omega
    have hr : rowTile0 ⟨0, hn⟩ = i := Fin.ext (by show 0 / 8 = i.val; omega)
    have hc : colTile0 ⟨0, hn⟩ = tileOf 0 := Fin.ext rfl
    rw [show scrAt0 V c 0 hn = scrAt0 V c (⟨0, hn⟩ : Fin cfg0.N).val (⟨0, hn⟩ : Fin cfg0.N).isLt from rfl,
      scrAt0_first V c ⟨0, hn⟩ (Nat.zero_mod 8), scrA_step]
    unfold stepAt0; rw [hr, hc]; rfl
  | n + 1, hn, i, j, hi, hj => by
    by_cases h0 : (n + 1) % 8 = 0
    · obtain rfl : j = 0 := by omega
      have hr : rowTile0 ⟨n + 1, hn⟩ = i := Fin.ext (by show (n + 1) / 8 = i.val; omega)
      have hc : colTile0 ⟨n + 1, hn⟩ = tileOf 0 := Fin.ext (by show (n + 1) % 8 = 0 % 8; omega)
      rw [show scrAt0 V c (n + 1) hn = scrAt0 V c (⟨n + 1, hn⟩ : Fin cfg0.N).val (⟨n + 1, hn⟩ : Fin cfg0.N).isLt from rfl,
        scrAt0_first V c ⟨n + 1, hn⟩ h0, scrA_step]
      unfold stepAt0; rw [hr, hc]; rfl
    · obtain ⟨j', rfl⟩ : ∃ j', j = j' + 1 := ⟨j - 1, by omega⟩
      have hprev : scrPrev0 V c ⟨n + 1, hn⟩ = acc0 (FmOf V c) (LcOf V c) (LrOf V c) i j' :=
        scrAt0_acc n (Nat.lt_of_succ_lt hn) i j' (by omega) (by omega)
      have hr : rowTile0 ⟨n + 1, hn⟩ = i := Fin.ext (by show (n + 1) / 8 = i.val; omega)
      have hc : colTile0 ⟨n + 1, hn⟩ = tileOf (j' + 1) := Fin.ext (by show (n + 1) % 8 = (j' + 1) % 8; omega)
      by_cases h1 : (n + 1) % 8 = 7
      · rw [show scrAt0 V c (n + 1) hn = scrAt0 V c (⟨n + 1, hn⟩ : Fin cfg0.N).val (⟨n + 1, hn⟩ : Fin cfg0.N).isLt from rfl,
          scrAt0_last V c ⟨n + 1, hn⟩ h0 h1, scrC_step, hprev]
        unfold stepAt0; rw [hr, hc]; rfl
      · rw [show scrAt0 V c (n + 1) hn = scrAt0 V c (⟨n + 1, hn⟩ : Fin cfg0.N).val (⟨n + 1, hn⟩ : Fin cfg0.N).isLt from rfl,
          scrAt0_mid V c ⟨n + 1, hn⟩ h0 h1, scrB_step, hprev]
        unfold stepAt0; rw [hr, hc]; rfl

/-- At a last tile the two output blocks hold the row tile's finished columns. -/
theorem outAt0_acc (t : Fin cfg0.N) (h1 : t.val % 8 = 7) :
    outAt0 V c t = acc0 (FmOf V c) (LcOf V c) (LrOf V c) (rowTile0 t) 7 := by
  have h0 : ¬t.val % 8 = 0 := by omega
  have e := scrAt0_acc V c t.val t.isLt (rowTile0 t) 7 rfl h1
  rw [scrAt0_last V c t h0 h1, scrC_step] at e
  rw [outAt0_last V c t h0 h1, outC_step]
  exact e

end Cert.KernelIdeal.Hand

end
-- ==== Proof.KI.Link1.lean ====
/-
  The second pass, point by point, IS the tile recursion: at grid point t = 8·i + j the six input blocks are row
  tile i and column tile j of the feature matrix and of the labels and row tile i of the two columns the first pass
  produced; each case of the body is one `step1`; what the four scratch columns hold after point t is
  `acc1 … i j`; at a last tile (j = 7) the output block holds `out1 (acc1 … i 7)`.
-/
import proofs.«136741_j45509473469192_1_alg».proof.Proof.KI.Pieces1
import proofs.«136741_j45509473469192_1_alg».proof.Proof.KI.Link0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Idealize.ShloMosaic.ValueIdx

variable (V : Entry Ideal) (c : Dev nD)

/-- The two columns the first pass produced, as the second pass finds them. -/
abbrev MnOf : Vec Ideal S4096x1 .f32 := V c main_v6_0
abbrev MxOf : Vec Ideal S4096x1 .f32 := V c main_v6_1

abbrev rowTile1 (t : Fin cfg1.N) : Fin 8 := ⟨t.val / 8, by have := t.isLt; have : cfg1.N = 64 := N_1; omega⟩
abbrev colTile1 (t : Fin cfg1.N) : Fin 8 := ⟨t.val % 8, Nat.mod_lt _ (by decide)⟩

/-! ## The index maps, decided over the grid -/

theorem idx1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)
theorem idx1_3 : ∀ t : Fin cfg1.N, win1_3.index t 0 = 0 ∧ win1_3.index t 1 = t.val % 8 :=
  (by decide +kernel : ∀ t : Fin grid1.N, win1_3.index t 0 = 0 ∧ win1_3.index t 1 = t.val % 8)
theorem idx1_4 : ∀ t : Fin cfg1.N, win1_4.index t 0 = t.val / 8 ∧ win1_4.index t 1 = 0 :=
  (by decide +kernel : ∀ t : Fin grid1.N, win1_4.index t 0 = t.val / 8 ∧ win1_4.index t 1 = 0)
theorem idx1_5 : ∀ t : Fin cfg1.N, win1_5.index t 0 = t.val / 8 ∧ win1_5.index t 1 = 0 :=
  (by decide +kernel : ∀ t : Fin grid1.N, win1_5.index t 0 = t.val / 8 ∧ win1_5.index t 1 = 0)
theorem idx1_6 : ∀ t : Fin cfg1.N, win1_6.index t 0 = t.val / 8 ∧ win1_6.index t 1 = 0 :=
  (by decide +kernel : ∀ t : Fin grid1.N, win1_6.index t 0 = t.val / 8 ∧ win1_6.index t 1 = 0)

/-! ## The blocks are cuts of the arrays -/

theorem blk1_0 (t : Fin cfg1.N) : (iblk1 V c 0 t : Vec Ideal S512x1024 .bf16) = featBlk (FmOf V c) (rowTile1 t) := by
  funext y
  unfold iblk1 featBlk
  rw [View.read_apply]
  show V c main_v3 _ = V c main_v3 _
  congr 1
  funext a
  apply Fin.ext
  match a with
  | ⟨0, _⟩ => show win1_0.index t 0 * 512 + 1 * (y 0).val = 512 * (t.val / 8) + (y 0).val; rw [(idx1_0 t).1]; omega
  | ⟨1, _⟩ => show win1_0.index t 1 * 1024 + 1 * (y 1).val = (y 1).val; rw [(idx1_0 t).2]; omega
theorem blk1_1 (t : Fin cfg1.N) : (iblk1 V c 1 t : Vec Ideal S512x1024 .bf16) = featBlk (FmOf V c) (colTile1 t) := by
  funext y
  unfold iblk1 featBlk
  rw [View.read_apply]
  show V c main_v3 _ = V c main_v3 _
  congr 1
  funext a
  apply Fin.ext
  match a with
  | ⟨0, _⟩ => show win1_1.index t 0 * 512 + 1 * (y 0).val = 512 * (t.val % 8) + (y 0).val; rw [(idx1_1 t).1]; omega
  | ⟨1, _⟩ => show win1_1.index t 1 * 1024 + 1 * (y 1).val = (y 1).val; rw [(idx1_1 t).2]; omega
theorem blk1_2 (t : Fin cfg1.N) : (iblk1 V c 2 t : Vec Ideal S512x1 .i32) = labColBlk (LcOf V c) (rowTile1 t) := by
  funext y
  unfold iblk1 labColBlk
  rw [View.read_apply]
  show V c main_v4 _ = V c main_v4 _
  congr 1
  funext a
  apply Fin.ext
  match a with
  | ⟨0, _⟩ => show win1_2.index t 0 * 512 + 1 * (y 0).val = 512 * (t.val / 8) + (y 0).val; rw [(idx1_2 t).1]; omega
  | ⟨1, _⟩ => show win1_2.index t 1 * 1 + 1 * (y 1).val = (y 1).val; rw [(idx1_2 t).2]; omega
theorem blk1_3 (t : Fin cfg1.N) : (iblk1 V c 3 t : Vec Ideal S1x512 .i32) = labRowBlk (LrOf V c) (colTile1 t) := by
  funext y
  unfold iblk1 labRowBlk
  rw [View.read_apply]
  show V c main_v5 _ = V c main_v5 _
  congr 1
  funext a
  apply Fin.ext
  match a with
  | ⟨0, _⟩ => show win1_3.index t 0 * 1 + 1 * (y 0).val = (y 0).val; rw [(idx1_3 t).1]; omega
  | ⟨1, _⟩ => show win1_3.index t 1 * 512 + 1 * (y 1).val = 512 * (t.val % 8) + (y 1).val; rw [(idx1_3 t).2]; omega
theorem blk1_4 (t : Fin cfg1.N) : (iblk1 V c 4 t : Vec Ideal S512x1 .f32) = colBlk (MnOf V c) (rowTile1 t) := by
  funext y
  unfold iblk1 colBlk
  rw [View.read_apply]
  show V c main_v6_0 _ = V c main_v6_0 _
  congr 1
  funext a
  apply Fin.ext
  match a with
  | ⟨0, _⟩ => show win1_4.index t 0 * 512 + 1 * (y 0).val = 512 * (t.val / 8) + (y 0).val; rw [(idx1_4 t).1]; omega
  | ⟨1, _⟩ => show win1_4.index t 1 * 1 + 1 * (y 1).val = (y 1).val; rw [(idx1_4 t).2]; omega
theorem blk1_5 (t : Fin cfg1.N) : (iblk1 V c 5 t : Vec Ideal S512x1 .f32) = colBlk (MxOf V c) (rowTile1 t) := by
  funext y
  unfold iblk1 colBlk
  rw [View.read_apply]
  show V c main_v6_1 _ = V c main_v6_1 _
  congr 1
  funext a
  apply Fin.ext
  match a with
  | ⟨0, _⟩ => show win1_5.index t 0 * 512 + 1 * (y 0).val = 512 * (t.val / 8) + (y 0).val; rw [(idx1_5 t).1]; omega
  | ⟨1, _⟩ => show win1_5.index t 1 * 1 + 1 * (y 1).val = (y 1).val; rw [(idx1_5 t).2]; omega

/-! ## Each case is one step of the tile recursion -/

abbrev stepAt1 (t : Fin cfg1.N) (s : Col × Col × Col × Col) : Col × Col × Col × Col :=
  step1 (featBlk (FmOf V c) (rowTile1 t)) (featBlk (FmOf V c) (colTile1 t)) (labColBlk (LcOf V c) (rowTile1 t)) (labRowBlk (LrOf V c) (colTile1 t))
    (colBlk (MnOf V c) (rowTile1 t)) (colBlk (MxOf V c) (rowTile1 t)) s

theorem scrA1_step (t : Fin cfg1.N) (h0 : first1 (grid1.coords t)) (h1 : ¬last1 (grid1.coords t)) :
    scrA1 V c t h0 h1 = stepAt1 V c t init1 := by
  refine Prod.ext ?_ (Prod.ext ?_ (Prod.ext ?_ ?_))
  · rw [scrA1_0]; simp only [blk1_0, blk1_1, blk1_2, blk1_3, blk1_4, blk1_5]; rfl
  · rw [scrA1_1]; simp only [blk1_0, blk1_1, blk1_2, blk1_3, blk1_4, blk1_5]; rfl
  · rw [scrA1_2]; simp only [blk1_0, blk1_1, blk1_2, blk1_3, blk1_4, blk1_5]; rfl
  · rw [scrA1_3]; simp only [blk1_0, blk1_1, blk1_2, blk1_3, blk1_4, blk1_5]; rfl
theorem scrB1_step (t : Fin cfg1.N) (h0 : ¬first1 (grid1.coords t)) (h1 : ¬last1 (grid1.coords t)) (s : Col × Col × Col × Col) :
    scrB1 V c t h0 h1 s = stepAt1 V c t s := by
  refine Prod.ext ?_ (Prod.ext ?_ (Prod.ext ?_ ?_))
  · rw [scrB1_0]; simp only [blk1_0, blk1_1, blk1_2, blk1_3, blk1_4, blk1_5]; rfl
  · rw [scrB1_1]; simp only [blk1_0, blk1_1, blk1_2, blk1_3, blk1_4, blk1_5]; rfl
  · rw [scrB1_2]; simp only [blk1_0, blk1_1, blk1_2, blk1_3, blk1_4, blk1_5]; rfl
  · rw [scrB1_3]; simp only [blk1_0, blk1_1, blk1_2, blk1_3, blk1_4, blk1_5]; rfl
theorem scrC1_step (t : Fin cfg1.N) (h0 : ¬first1 (grid1.coords t)) (h1 : last1 (grid1.coords t)) (s : Col × Col × Col × Col) :
    scrC1 V c t h0 h1 s = stepAt1 V c t s := by
  refine Prod.ext ?_ (Prod.ext ?_ (Prod.ext ?_ ?_))
  · rw [scrC1_0]; simp only [blk1_0, blk1_1, blk1_2, blk1_3, blk1_4, blk1_5]; rfl
  · rw [scrC1_1]; simp only [blk1_0, blk1_1, blk1_2, blk1_3, blk1_4, blk1_5]; rfl
  · rw [scrC1_2]; simp only [blk1_0, blk1_1, blk1_2, blk1_3, blk1_4, blk1_5]; rfl
  · rw [scrC1_3]; simp only [blk1_0, blk1_1, blk1_2, blk1_3, blk1_4, blk1_5]; rfl
theorem outC1_step (t : Fin cfg1.N) (h0 : ¬first1 (grid1.coords t)) (h1 : last1 (grid1.coords t)) (s : Col × Col × Col × Col) :
    outC1 V c t h0 h1 s = out1 (stepAt1 V c t s) := by
  rw [outC1_eq]; simp only [blk1_0, blk1_1, blk1_2, blk1_3, blk1_4, blk1_5]; rfl

/-! ## The scratch columns after point `n` are the tile recursion -/

theorem scrAt1_acc : ∀ (n : ℕ) (hn : n < cfg1.N) (i : Fin 8) (j : ℕ), n / 8 = i.val → n % 8 = j →
    scrAt1 V c n hn = acc1 (FmOf V c) (LcOf V c) (LrOf V c) (MnOf V c) (MxOf V c) i j
  | 0, hn, i, j, hi, hj => by
    obtain rfl : j = 0 := by omega
    have hr : rowTile1 ⟨0, hn⟩ = i := Fin.ext (by show 0 / 8 = i.val; omega)
    have hc : colTile1 ⟨0, hn⟩ = tileOf 0 := Fin.ext rfl
    rw [show scrAt1 V c 0 hn = scrAt1 V c (⟨0, hn⟩ : Fin cfg1.N).val (⟨0, hn⟩ : Fin cfg1.N).isLt from rfl,
      scrAt1_first V c ⟨0, hn⟩ (Nat.zero_mod 8), scrA1_step]
    unfold stepAt1; rw [hr, hc]; rfl
  | n + 1, hn, i, j, hi, hj => by
    by_cases h0 : (n + 1) % 8 = 0
    · obtain rfl : j = 0 := by omega
      have hr : rowTile1 ⟨n + 1, hn⟩ = i := Fin.ext (by show (n + 1) / 8 = i.val; omega)
      have hc : colTile1 ⟨n + 1, hn⟩ = tileOf 0 := Fin.ext (by show (n + 1) % 8 = 0 % 8; omega)
      rw [show scrAt1 V c (n + 1) hn = scrAt1 V c (⟨n + 1, hn⟩ : Fin cfg1.N).val (⟨n + 1, hn⟩ : Fin cfg1.N).isLt from rfl,
        scrAt1_first V c ⟨n + 1, hn⟩ h0, scrA1_step]
      unfold stepAt1; rw [hr, hc]; rfl
    · obtain ⟨j', rfl⟩ : ∃ j', j = j' + 1 := ⟨j - 1, by omega⟩
      have hprev : scrPrev1 V c ⟨n + 1, hn⟩ = acc1 (FmOf V c) (LcOf V c) (LrOf V c) (MnOf V c) (MxOf V c) i j' :=
        scrAt1_acc n (Nat.lt_of_succ_lt hn) i j' (by omega) (by omega)
      have hr : rowTile1 ⟨n + 1, hn⟩ = i := Fin.ext (by show (n + 1) / 8 = i.val; omega)
      have hc : colTile1 ⟨n + 1, hn⟩ = tileOf (j' + 1) := Fin.ext (by show (n + 1) % 8 = (j' + 1) % 8; omega)
      by_cases h1 : (n + 1) % 8 = 7
      · rw [show scrAt1 V c (n + 1) hn = scrAt1 V c (⟨n + 1, hn⟩ : Fin cfg1.N).val (⟨n + 1, hn⟩ : Fin cfg1.N).isLt from rfl,
          scrAt1_last V c ⟨n + 1, hn⟩ h0 h1, scrC1_step, hprev]
        unfold stepAt1; rw [hr, hc]; rfl
      · rw [show scrAt1 V c (n + 1) hn = scrAt1 V c (⟨n + 1, hn⟩ : Fin cfg1.N).val (⟨n + 1, hn⟩ : Fin cfg1.N).isLt from rfl,
          scrAt1_mid V c ⟨n + 1, hn⟩ h0 h1, scrB1_step, hprev]
        unfold stepAt1; rw [hr, hc]; rfl

/-- At a last tile the output block holds the row tile's losses. -/
theorem outAt1_acc (t : Fin cfg1.N) (h1 : t.val % 8 = 7) :
    outAt1 V c t = out1 (acc1 (FmOf V c) (LcOf V c) (LrOf V c) (MnOf V c) (MxOf V c) (rowTile1 t) 7) := by
  have h0 : ¬t.val % 8 = 0 := by omega
  have e := scrAt1_acc V c t.val t.isLt (rowTile1 t) 7 rfl h1
  rw [scrAt1_last V c t h0 h1, scrC1_step] at e
  rw [outAt1_last V c t h0 h1, outC1_step, e]

end Cert.KernelIdeal.Hand

end
-- ==== Proof.KI.Arr0.lean ====
/-
  The first pass's first output array at the end of its region: eight finished columns of 512 rows laid one after
  the other. Row tile i's block is written back once, at the row's last column tile (grid point 8·i + 7), and those
  eight blocks cover the array.
-/
import proofs.«136741_j45509473469192_1_alg».proof.Proof.KI.Link1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Idealize.ShloMosaic.ValueIdx

/-- Eight columns of 512 laid one after the other as one column of 4096. -/
def unTile (f : Fin 8 → Col) : Vec Ideal S4096x1 .f32 :=
  fun idx => f ⟨(idx 0).val / 512, by have h : (idx 0).val < 4096 := (idx 0).isLt; omega⟩
    (ix2 (⟨(idx 0).val % 512, Nat.mod_lt _ (by decide)⟩ : Fin 512) (idx 1))

theorem unTile_apply (f : Fin 8 → Col) (i : Fin 8) (y : S512x1.Idx) (idx : S4096x1.Idx)
    (h0 : (idx 0).val = 512 * i.val + (y 0).val) (h1 : idx 1 = y 1) : unTile f idx = f i y := by
  have hy : (y 0).val < 512 := (y 0).isLt
  unfold unTile
  have ha : (⟨(idx 0).val / 512, by have h : (idx 0).val < 4096 := (idx 0).isLt; omega⟩ : Fin 8) = i :=
    Fin.ext (by show (idx 0).val / 512 = i.val; rw [h0]; omega)
  have hb : (⟨(idx 0).val % 512, Nat.mod_lt _ (by decide)⟩ : Fin 512) = y 0 :=
    Fin.ext (by show (idx 0).val % 512 = (y 0).val; rw [h0]; omega)
  rw [ha, hb, h1]
  exact congrArg (f i) (eq_ix2 y).symm

/-- A block of 512 consecutive entries of such a column is the tile's column. -/
theorem colBlk_unTile (f : Fin 8 → Col) (i : Fin 8) : colBlk (unTile f) i = f i := by
  funext y
  unfold colBlk
  exact unTile_apply f i y _ rfl rfl

variable (V : Entry Ideal) (c : Dev nD)

theorem xsize0_4 : ∀ t : Fin cfg0.N, win0_4.xsize (grid0.coords t) 0 = 512 ∧ win0_4.xsize (grid0.coords t) 1 = 1 :=
  (by decide +kernel : ∀ t : Fin grid0.N, win0_4.xsize (grid0.coords t) 0 = 512 ∧ win0_4.xsize (grid0.coords t) 1 = 1)

/-- What a last tile writes back is its block of the eight finished columns. -/
theorem flushed0_4 (t : Fin cfg0.N) (hf : (cfg0.win 4).flush t = true) :
    (dat0 V c).flushed 4 t = ((cfg0.win 4).blk t).view.read (Elt Ideal)
      (unTile fun i => (acc0 (FmOf V c) (LcOf V c) (LrOf V c) i 7).1) := by
  have h1 : t.val % 8 = 7 := (flush0_4 t).mp hf
  funext y
  rw [View.read_apply]
  have e : (dat0 V c).flushed 4 t y = ((dat0 V c).after 4 t) ((cfg0.win 4).xinj (grid0.coords t) y) := rfl
  rw [e, after0_4, outAt0_acc V c t h1]
  refine (unTile_apply (fun i => (acc0 (FmOf V c) (LcOf V c) (LrOf V c) i 7).1) (rowTile0 t) ((cfg0.win 4).xinj (grid0.coords t) y)
    (((cfg0.win 4).blk t).view.emb y) ?_ ?_).symm
  · show win0_4.index t 0 * 512 + 1 * (y 0).val = 512 * (t.val / 8) + (y 0).val
    rw [(idx0_4 t).1]; omega
  · apply Fin.ext
    show win0_4.index t 1 * 1 + 1 * (y 1).val = (y 1).val
    rw [(idx0_4 t).2]; omega

theorem minArr_eq : (dat0 V c).arrAt 4 cfg0.N = unTile fun i => (acc0 (FmOf V c) (LcOf V c) (LrOf V c) i 7).1 :=
  (dat0 V c).arrAt_eq_of_cover 4 _ (flushed0_4 V c) fun i => by
    have hi : (i 0 : Nat) < 4096 := (i 0).isLt
    have hi1 : (i 1 : Nat) < 1 := (i 1).isLt
    have hN : cfg0.N = 64 := N_0
    let t : Fin cfg0.N := ⟨8 * ((i 0 : Nat) / 512) + 7, by rw [hN]; omega⟩
    have ht : t.val = 8 * ((i 0 : Nat) / 512) + 7 := rfl
    refine ⟨t, (flush0_4 t).mpr (by rw [ht]; omega), ?_⟩
    show i ∈ ((View.whole main_v6_0).slice (win0_4.rect t)).set
    rw [View.set_slice_whole, Rect.mem_set_unit]
    intro a
    match a with
    | ⟨0, _⟩ =>
      show win0_4.index t 0 * win0_4.size 0 ≤ (i 0 : Nat) ∧ (i 0 : Nat) < win0_4.index t 0 * win0_4.size 0 + win0_4.xsize (grid0.coords t) 0
      rw [(idx0_4 t).1, (xsize0_4 t).1, show win0_4.size 0 = 512 from rfl, ht]
      omega
    | ⟨1, _⟩ =>
      show win0_4.index t 1 * win0_4.size 1 ≤ (i 1 : Nat) ∧ (i 1 : Nat) < win0_4.index t 1 * win0_4.size 1 + win0_4.xsize (grid0.coords t) 1
      rw [(idx0_4 t).2, (xsize0_4 t).2]
      omega

end Cert.KernelIdeal.Hand

end
-- ==== Proof.KI.Arr1.lean ====
/-
  The first pass's second output array and the second pass's output array at the end of their regions, as the first
  output: eight finished columns of 512 rows laid one after the other, each written back once at its row's last
  column tile.
-/
import proofs.«136741_j45509473469192_1_alg».proof.Proof.KI.Arr0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Idealize.ShloMosaic.ValueIdx

variable (V : Entry Ideal) (c : Dev nD)

theorem xsize0_5 : ∀ t : Fin cfg0.N, win0_5.xsize (grid0.coords t) 0 = 512 ∧ win0_5.xsize (grid0.coords t) 1 = 1 :=
  (by decide +kernel : ∀ t : Fin grid0.N, win0_5.xsize (grid0.coords t) 0 = 512 ∧ win0_5.xsize (grid0.coords t) 1 = 1)

/-- What a last tile writes back is its block of the eight finished columns. -/
theorem flushed0_5 (t : Fin cfg0.N) (hf : (cfg0.win 5).flush t = true) :
    (dat0 V c).flushed 5 t = ((cfg0.win 5).blk t).view.read (Elt Ideal)
      (unTile fun i => (acc0 (FmOf V c) (LcOf V c) (LrOf V c) i 7).2) := by
  have h1 : t.val % 8 = 7 := (flush0_5 t).mp hf
  funext y
  rw [View.read_apply]
  have e : (dat0 V c).flushed 5 t y = ((dat0 V c).after 5 t) ((cfg0.win 5).xinj (grid0.coords t) y) := rfl
  rw [e, after0_5, outAt0_acc V c t h1]
  refine (unTile_apply (fun i => (acc0 (FmOf V c) (LcOf V c) (LrOf V c) i 7).2) (rowTile0 t) ((cfg0.win 5).xinj (grid0.coords t) y)
    (((cfg0.win 5).blk t).view.emb y) ?_ ?_).symm
  · show win0_5.index t 0 * 512 + 1 * (y 0).val = 512 * (t.val / 8) + (y 0).val
    rw [(idx0_5 t).1]; omega
  · apply Fin.ext
    show win0_5.index t 1 * 1 + 1 * (y 1).val = (y 1).val
    rw [(idx0_5 t).2]; omega

theorem maxArr_eq : (dat0 V c).arrAt 5 cfg0.N = unTile fun i => (acc0 (FmOf V c) (LcOf V c) (LrOf V c) i 7).2 :=
  (dat0 V c).arrAt_eq_of_cover 5 _ (flushed0_5 V c) fun i => by
    have hi : (i 0 : Nat) < 4096 := (i 0).isLt
    have hi1 : (i 1 : Nat) < 1 := (i 1).isLt
    have hN : cfg0.N = 64 := N_0
    let t : Fin cfg0.N := ⟨8 * ((i 0 : Nat) / 512) + 7, by rw [hN]; omega⟩
    have ht : t.val = 8 * ((i 0 : Nat) / 512) + 7 := rfl
    refine ⟨t, (flush0_5 t).mpr (by rw [ht]; omega), ?_⟩
    show i ∈ ((View.whole main_v6_1).slice (win0_5.rect t)).set
    rw [View.set_slice_whole, Rect.mem_set_unit]
    intro a
    match a with
    | ⟨0, _⟩ =>
      show win0_5.index t 0 * win0_5.size 0 ≤ (i 0 : Nat) ∧ (i 0 : Nat) < win0_5.index t 0 * win0_5.size 0 + win0_5.xsize (grid0.coords t) 0
      rw [(idx0_5 t).1, (xsize0_5 t).1, show win0_5.size 0 = 512 from rfl, ht]
      omega
    | ⟨1, _⟩ =>
      show win0_5.index t 1 * win0_5.size 1 ≤ (i 1 : Nat) ∧ (i 1 : Nat) < win0_5.index t 1 * win0_5.size 1 + win0_5.xsize (grid0.coords t) 1
      rw [(idx0_5 t).2, (xsize0_5 t).2]
      omega

theorem xsize1_6 : ∀ t : Fin cfg1.N, win1_6.xsize (grid1.coords t) 0 = 512 ∧ win1_6.xsize (grid1.coords t) 1 = 1 :=
  (by decide +kernel : ∀ t : Fin grid1.N, win1_6.xsize (grid1.coords t) 0 = 512 ∧ win1_6.xsize (grid1.coords t) 1 = 1)

/-- What a last tile writes back is its block of the eight finished columns. -/
theorem flushed1_6 (t : Fin cfg1.N) (hf : (cfg1.win 6).flush t = true) :
    (dat1 V c).flushed 6 t = ((cfg1.win 6).blk t).view.read (Elt Ideal)
      (unTile fun i => out1 (acc1 (FmOf V c) (LcOf V c) (LrOf V c) (MnOf V c) (MxOf V c) i 7)) := by
  have h1 : t.val % 8 = 7 := (flush1_6 t).mp hf
  funext y
  rw [View.read_apply]
  have e : (dat1 V c).flushed 6 t y = ((dat1 V c).after 6 t) ((cfg1.win 6).xinj (grid1.coords t) y) := rfl
  rw [e, after1_6, outAt1_acc V c t h1]
  refine (unTile_apply (fun i => out1 (acc1 (FmOf V c) (LcOf V c) (LrOf V c) (MnOf V c) (MxOf V c) i 7)) (rowTile1 t) ((cfg1.win 6).xinj (grid1.coords t) y)
    (((cfg1.win 6).blk t).view.emb y) ?_ ?_).symm
  · show win1_6.index t 0 * 512 + 1 * (y 0).val = 512 * (t.val / 8) + (y 0).val
    rw [(idx1_6 t).1]; omega
  · apply Fin.ext
    show win1_6.index t 1 * 1 + 1 * (y 1).val = (y 1).val
    rw [(idx1_6 t).2]; omega

theorem lossArr_eq : (dat1 V c).arrAt 6 cfg1.N = unTile fun i => out1 (acc1 (FmOf V c) (LcOf V c) (LrOf V c) (MnOf V c) (MxOf V c) i 7) :=
  (dat1 V c).arrAt_eq_of_cover 6 _ (flushed1_6 V c) fun i => by
    have hi : (i 0 : Nat) < 4096 := (i 0).isLt
    have hi1 : (i 1 : Nat) < 1 := (i 1).isLt
    have hN : cfg1.N = 64 := N_1
    let t : Fin cfg1.N := ⟨8 * ((i 0 : Nat) / 512) + 7, by rw [hN]; omega⟩
    have ht : t.val = 8 * ((i 0 : Nat) / 512) + 7 := rfl
    refine ⟨t, (flush1_6 t).mpr (by rw [ht]; omega), ?_⟩
    show i ∈ ((View.whole main_v7).slice (win1_6.rect t)).set
    rw [View.set_slice_whole, Rect.mem_set_unit]
    intro a
    match a with
    | ⟨0, _⟩ =>
      show win1_6.index t 0 * win1_6.size 0 ≤ (i 0 : Nat) ∧ (i 0 : Nat) < win1_6.index t 0 * win1_6.size 0 + win1_6.xsize (grid1.coords t) 0
      rw [(idx1_6 t).1, (xsize1_6 t).1, show win1_6.size 0 = 512 from rfl, ht]
      omega
    | ⟨1, _⟩ =>
      show win1_6.index t 1 * win1_6.size 1 ≤ (i 1 : Nat) ∧ (i 1 : Nat) < win1_6.index t 1 * win1_6.size 1 + win1_6.xsize (grid1.coords t) 1
      rw [(idx1_6 t).2, (xsize1_6 t).2]
      omega

end Cert.KernelIdeal.Hand

end
-- ==== Proof.KI.R1Obl.lean ====
/-
  The body obligation of the second pass: at every grid point the body, handed the six input blocks, the output buffer and the invariant, runs to the end and gives back the next point's invariant and each buffer at what the proof data says. By the column tile's position in its row: first, middle, last.
-/
import proofs.«136741_j45509473469192_1_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 9600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  by_cases h0 : t.val % 8 = 0
  · have hf : first1 (grid1.coords t) := (first1_iff t).mpr h0
    have hnl : ¬last1 (grid1.coords t) := not_last1_of_first t h0
    rw [Dat.leavesExact_idle (dat1 V c) 6 t (idle1_6 t hnl) (noFlush1_6 t hnl)]
    rw [scrAt1_first V c t h0]
    unfold scrA1; (try dsimp only)
    by_cases hz : t.val = 0
    · rw [Phi1_castSucc V c t, PhiS1_zero V c _ _ hz, PhiA1_eq]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runA1 V c t hf hnl).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverA1_s0 V c t hf hnl)
          isplitl [HS1]
          · unfold owns; iexists _; isplitr
            swap; · iexact HS1
            ipureintro; exact View.read_writes_of_cover _ _ _ _ _ (coverA1_s1 V c t hf hnl)
          isplitl [HS2]
          · unfold owns; iexists _; isplitr
            swap; · iexact HS2
            ipureintro; exact View.read_writes_of_cover _ _ _ _ _ (coverA1_s2 V c t hf hnl)
          unfold owns; iexists _; isplitr
          swap; · iexact HS3
          ipureintro; exact View.read_writes_of_cover _ _ _ _ _ (coverA1_s3 V c t hf hnl)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc V c t, PhiS1_pos V c _ _ hz]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runA1 V c t hf hnl).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverA1_s0 V c t hf hnl)
          isplitl [HS1]
          · unfold owns; iexists _; isplitr
            swap; · iexact HS1
            ipureintro; exact View.read_writes_of_cover _ _ _ _ _ (coverA1_s1 V c t hf hnl)
          isplitl [HS2]
          · unfold owns; iexists _; isplitr
            swap; · iexact HS2
            ipureintro; exact View.read_writes_of_cover _ _ _ _ _ (coverA1_s2 V c t hf hnl)
          unfold owns; iexists _; isplitr
          swap; · iexact HS3
          ipureintro; exact View.read_writes_of_cover _ _ _ _ _ (coverA1_s3 V c t hf hnl)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hnf : ¬first1 (grid1.coords t) := fun h => h0 ((first1_iff t).mp h)
    by_cases h1 : t.val % 8 = 7
    · have hl : last1 (grid1.coords t) := (last1_iff t).mpr h1
      rw [show (dat1 V c).leavesExact 6 t = owns (c : Thread nD τ) (ms1_6 t) fullShare ((dat1 V c).after 6 t) from by
        unfold Dat.leavesExact; rw [live1_6 t hl], after1_6]
      rw [scrAt1_last V c t h0 h1, outAt1_last V c t h0 h1]
      unfold scrC1 outC1; (try dsimp only)
      rw [Phi1_castSucc V c t, PhiS1_pos V c _ _ hz]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runC1 V c t hnf hl (scrPrev1 V c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%eo6, H6⟩, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverC1_s0 V c t hnf hl (scrPrev1 V c t))
          isplitl [HS1]
          · unfold owns; iexists _; isplitr
            swap; · iexact HS1
            ipureintro; exact View.read_writes_of_cover _ _ _ _ _ (coverC1_s1 V c t hnf hl (scrPrev1 V c t))
          isplitl [HS2]
          · unfold owns; iexists _; isplitr
            swap; · iexact HS2
            ipureintro; exact View.read_writes_of_cover _ _ _ _ _ (coverC1_s2 V c t hnf hl (scrPrev1 V c t))
          unfold owns; iexists _; isplitr
          swap; · iexact HS3
          ipureintro; exact View.read_writes_of_cover _ _ _ _ _ (coverC1_s3 V c t hnf hl (scrPrev1 V c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC1_o0 V c t hnf hl (scrPrev1 V c t))
    · have hnl : ¬last1 (grid1.coords t) := fun h => h1 ((last1_iff t).mp h)
      rw [Dat.leavesExact_idle (dat1 V c) 6 t (idle1_6 t hnl) (noFlush1_6 t hnl)]
      rw [scrAt1_mid V c t h0 h1]
      unfold scrB1; (try dsimp only)
      rw [Phi1_castSucc V c t, PhiS1_pos V c _ _ hz]
      iintro ⟨⟨⟨A0, A1, A2, A3, A4, A5, A6, A7, A8, A9, A10, A11, A12, A13, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runB1 V c t hnf hnl (scrPrev1 V c t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%e0, HS0⟩, ⟨%e1, HS1⟩, ⟨%e2, HS2⟩, ⟨%e3, HS3⟩⟩
      isplitl [HS0 HS1 HS2 HS3 A0 A1 A2 A3 A4 A5 A6 A7 A8 A9 A10 A11 A12 A13 Hg]
      · isplitl [HS0 HS1 HS2 HS3 A0 A1 A2 A3 A4 A5 A6 A7 A8 A9 A10 A11 A12 A13]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (coverB1_s0 V c t hnf hnl (scrPrev1 V c t))
          isplitl [HS1]
          · unfold owns; iexists _; isplitr
            swap; · iexact HS1
            ipureintro; exact View.read_writes_of_cover _ _ _ _ _ (coverB1_s1 V c t hnf hnl (scrPrev1 V c t))
          isplitl [HS2]
          · unfold owns; iexists _; isplitr
            swap; · iexact HS2
            ipureintro; exact View.read_writes_of_cover _ _ _ _ _ (coverB1_s2 V c t hnf hnl (scrPrev1 V c t))
          unfold owns; iexists _; isplitr
          swap; · iexact HS3
          ipureintro; exact View.read_writes_of_cover _ _ _ _ _ (coverB1_s3 V c t hnf hnl (scrPrev1 V c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨A0, A1, A2, A3, A4, A5, A6, A7, A8, A9, A10, A11, A12, A13, HS0, HS1, HS2, HS3⟩, Hg⟩
  isplitl [HS0 HS1 HS2 HS3 A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexists _; iexact HS0
    isplitl [HS1]; · iexists _; iexact HS1
    isplitl [HS2]; · iexists _; iexact HS2
    iexists _; iexact HS3
  iexact Hg

end Cert.KernelIdeal.Hand

end
-- ==== Proof.KI.R0Obl.lean ====
/-
  The body obligation of the first pass: at every grid point the body, handed the four input blocks, the two output
  buffers and the invariant, runs to the end and gives back the next point's invariant and each buffer at what the
  proof data says. By the column tile's position in its row: first, middle, last.
-/
import proofs.«136741_j45509473469192_1_alg».proof.Proof.KI.R0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases h0 : t.val % 8 = 0
  · -- a first tile: the scratch columns are reset before they are read
    have hf : first0 (grid0.coords t) := (first0_iff t).mpr h0
    have hnl : ¬last0 (grid0.coords t) := not_last_of_first t h0
    rw [Dat.leavesExact_idle (dat0 V c) 4 t (idle0_4 t hnl) (noFlush0_4 t hnl),
      Dat.leavesExact_idle (dat0 V c) 5 t (idle0_5 t hnl) (noFlush0_5 t hnl)]
    rw [scrAt0_first V c t h0]
    unfold scrA; (try dsimp only)
    by_cases hz : t.val = 0
    · rw [Phi0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA V c t hf hnl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_min V c t hf hnl)
          isplitl [HS1]
          · unfold owns; iexists _; isplitr
            swap; · iexact HS1
            ipureintro; exact View.read_writes_of_cover _ _ _ _ _ (coverA_max V c t hf hnl)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA V c t hf hnl).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_min V c t hf hnl)
          isplitl [HS1]
          · unfold owns; iexists _; isplitr
            swap; · iexact HS1
            ipureintro; exact View.read_writes_of_cover _ _ _ _ _ (coverA_max V c t hf hnl)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hnf : ¬first0 (grid0.coords t) := fun h => h0 ((first0_iff t).mp h)
    by_cases h1 : t.val % 8 = 7
    · -- a last tile: update, then copy the scratch columns out
      have hl : last0 (grid0.coords t) := (last0_iff t).mpr h1
      rw [show (dat0 V c).leavesExact 4 t = owns (c : Thread nD τ) (ms0_4 t) fullShare ((dat0 V c).after 4 t) from by
        unfold Dat.leavesExact; rw [live0_4 t hl], after0_4]
      rw [show (dat0 V c).leavesExact 5 t = owns (c : Thread nD τ) (ms0_5 t) fullShare ((dat0 V c).after 5 t) from by
        unfold Dat.leavesExact; rw [live0_5 t hl], after0_5]
      rw [scrAt0_last V c t h0 h1, outAt0_last V c t h0 h1]
      unfold scrC outC; (try dsimp only)
      rw [Phi0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runC V c t hnf hl (scrPrev0 V c t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverC_min V c t hnf hl (scrPrev0 V c t))
          isplitl [HS1]
          · unfold owns; iexists _; isplitr
            swap; · iexact HS1
            ipureintro; exact View.read_writes_of_cover _ _ _ _ _ (coverC_max V c t hnf hl (scrPrev0 V c t))
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t hnf hl (scrPrev0 V c t))
      unfold owns; iexists _; isplitr
      swap; · iexact H5
      ipureintro; exact View.read_writes_of_cover _ _ _ _ _ (coverC_5 V c t hnf hl (scrPrev0 V c t))
    · -- a middle tile: update only
      have hnl : ¬last0 (grid0.coords t) := fun h => h1 ((last0_iff t).mp h)
      rw [Dat.leavesExact_idle (dat0 V c) 4 t (idle0_4 t hnl) (noFlush0_4 t hnl),
        Dat.leavesExact_idle (dat0 V c) 5 t (idle0_5 t hnl) (noFlush0_5 t hnl)]
      rw [scrAt0_mid V c t h0 h1]
      unfold scrB; (try dsimp only)
      rw [Phi0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runB V c t hnf hnl (scrPrev0 V c t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e0, HS0⟩, ⟨%e1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB_min V c t hnf hnl (scrPrev0 V c t))
          isplitl [HS1]
          · unfold owns; iexists _; isplitr
            swap; · iexact HS1
            ipureintro; exact View.read_writes_of_cover _ _ _ _ _ (coverB_max V c t hnf hnl (scrPrev0 V c t))
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the scratch columns' contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Hand

end
-- ==== Proof.KI.Deal0.lean ====
/-
  Entering and leaving the first pass's region when two of its windows read ONE array (the normalised feature
  matrix, by row tile and by column tile). At entry the buffers behind the windows' arrays, each whole, are dealt to
  the windows: the feature matrix's share in halves to its two windows. At exit the halves are joined again; the
  inputs are as found and the two outputs hold what the write-backs made of them.
-/
import proofs.«136741_j45509473469192_1_alg».proof.Proof.KI.R0Obl
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

theorem arrAt0_in0 (c : Dev nD) (n : ℕ) : (dat0 V c).arrAt 0 n = V c main_v3 := ((dat0 V c).arrAt_in 0 rfl n).trans (A_eq0 V c 0)
theorem arrAt0_in1 (c : Dev nD) (n : ℕ) : (dat0 V c).arrAt 1 n = V c main_v3 := ((dat0 V c).arrAt_in 1 rfl n).trans (A_eq0 V c 1)
theorem arrAt0_in2 (c : Dev nD) (n : ℕ) : (dat0 V c).arrAt 2 n = V c main_v4 := ((dat0 V c).arrAt_in 2 rfl n).trans (A_eq0 V c 2)
theorem arrAt0_in3 (c : Dev nD) (n : ℕ) : (dat0 V c).arrAt 3 n = V c main_v5 := ((dat0 V c).arrAt_in 3 rfl n).trans (A_eq0 V c 3)

/-- The buffers behind the first pass's arrays, listed. -/
theorem arrBufs0_eq (c : Dev nD) (X : (b : Ref sig .tc) → Buf (Elt F) ((c : Thread nD τ).loc b)) :
    (Pipeline.arrBufs spec0 c X : sProp 𝕄)
      = iprop((((c : Thread nD τ).loc main_v3) ↦{fullShare} X main_v3) ∗ (((c : Thread nD τ).loc main_v4) ↦{fullShare} X main_v4)
          ∗ (((c : Thread nD τ).loc main_v5) ↦{fullShare} X main_v5) ∗ (((c : Thread nD τ).loc main_v6_0) ↦{fullShare} X main_v6_0)
          ∗ (((c : Thread nD τ).loc main_v6_1) ↦{fullShare} X main_v6_1)) := by
  unfold Pipeline.arrBufs
  rw [bigSep_eq_bigSepL_of_eq [main_v3, main_v4, main_v5, main_v6_0, main_v6_1] (by decide) (by decide)]
  rfl

/-- The pipeline's arrays at contents `G`, window by window, the feature matrix at its two half shares. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2) ∗ (((c : Thread nD τ).loc main_v5) ↦{fullShare} G 3)
          ∗ (((c : Thread nD τ).loc main_v6_0) ↦{fullShare} G 4) ∗ (((c : Thread nD τ).loc main_v6_1) ↦{fullShare} G 5)) := by
  unfold Dat.arrays; rw [bigSep_W0]
  rw [(arr_whole0 0).set_eq_univ, (arr_whole0 2).set_eq_univ, (arr_whole0 3).set_eq_univ,
    (arr_whole0 4).set_eq_univ, (arr_whole0 5).set_eq_univ]
  rfl

/-- ENTRY: the buffers behind the arrays at the entry contents are the pipeline's arrays before the first point. -/
theorem deal0 (c : Dev nD) : (Pipeline.arrBufs spec0 c (V c) : sProp 𝕄) ⊢ (dat0 V c).arrays ((dat0 V c).arrAt · 0) := by
  rw [arrBufs0_eq, arrays0_eq, arrAt0_in0, arrAt0_in1, arrAt0_in2, arrAt0_in3]
  iintro ⟨H3, H4, H5, H60, H61⟩
  ihave Hs := (pointsTo_share (PosShare.mem_left_op_right fullShare)).1 $$ H3
  icases Hs with ⟨Hl, Hr⟩
  isplitl [Hl]; · iexact Hl
  isplitl [Hr]; · iexact Hr
  isplitl [H4]; · iexact H4
  isplitl [H5]; · iexact H5
  isplitl [H60]; · iexact H60
  iexact H61

end Cert.KernelIdeal.Hand

end
-- ==== Proof.KI.Deal0b.lean ====
/-
  Entering and leaving the first pass's region against a valuation of the core's unscoped buffers: the thread state
  "every unscoped buffer whole at W" splits into the pipeline's arrays (the feature matrix dealt in halves) and the
  other unscoped buffers; at the exit it is put back with the two outputs' arrays at what the write-backs left.
-/
import proofs.«136741_j45509473469192_1_alg».proof.Proof.KI.Deal0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- A valuation read at the TensorCore's references. -/
abbrev entryOf (W : Dev nD → Valuation τ sig (Elt F)) : Entry F := fun c b => W c b

/-- What the first pass leaves in its two output arrays. -/
abbrev minOut (c : Dev nD) := (dat0 (entryOf W) c).arrAt 4 cfg0.N
abbrev maxOut (c : Dev nD) := (dat0 (entryOf W) c).arrAt 5 cfg0.N

/-- The unscoped buffers after the first pass: as before it, the two outputs' arrays at what the write-backs left. -/
def exit0 (c : Dev nD) : Valuation τ sig (Elt F) :=
  Function.update (Function.update (W c) main_v6_0 (minOut W c)) main_v6_1 (maxOut W c)

theorem exit0_v6_1 (c : Dev nD) : exit0 W c main_v6_1 = maxOut W c := by
  unfold exit0; rw [Function.update_self]
theorem exit0_v6_0 (c : Dev nD) : exit0 W c main_v6_0 = minOut W c := by
  unfold exit0
  rw [Function.update_of_ne (StableHlo.devRef_ne_of_ne (by decide) : (Proc.devRef .tc main_v6_0 : DevRef τ sig) ≠ Proc.devRef .tc main_v6_1), Function.update_self]
theorem exit0_of (c : Dev nD) (r : Ref sig .tc) (h : r ∉ ([main_v6_0, main_v6_1] : List (Ref sig .tc))) : exit0 W c r = W c r := by
  unfold exit0
  rw [Function.update_of_ne (StableHlo.devRef_ne_of_ne (List.ne_of_not_mem_cons (List.not_mem_of_not_mem_cons h)) : (Proc.devRef .tc r : DevRef τ sig) ≠ Proc.devRef .tc main_v6_1),
    Function.update_of_ne (StableHlo.devRef_ne_of_ne (List.ne_of_not_mem_cons h) : (Proc.devRef .tc r : DevRef τ sig) ≠ Proc.devRef .tc main_v6_0)]

theorem exit0E_v6_0 (c : Dev nD) : entryOf (exit0 W) c main_v6_0 = minOut W c := exit0_v6_0 W c
theorem exit0E_v6_1 (c : Dev nD) : entryOf (exit0 W) c main_v6_1 = maxOut W c := exit0_v6_1 W c
theorem exit0E_of (c : Dev nD) (r : Ref sig .tc) (h : r ∉ ([main_v6_0, main_v6_1] : List (Ref sig .tc))) : entryOf (exit0 W) c r = entryOf W c r := exit0_of W c r h

/-- ENTRY: every unscoped buffer whole at `W` is the pipeline's arrays before the first point and the other
    unscoped buffers. -/
theorem enter0 (c : Dev nD) :
    (StableHlo.held (c : Thread nD τ) (Pipeline.ucRefs τ sig) (W c) : sProp 𝕄)
      ⊢ iprop((dat0 (entryOf W) c).arrays ((dat0 (entryOf W) c).arrAt · 0)
          ∗ Pipeline.unscopedRest (Ix := Unit) (Name := ℕ) (U := UR sig nD τ) (Lvl := ℕ) spec0 c (entryOf W c)) := by
  rw [← Pipeline.unscopedBufs_held (Ix := Unit) (Name := ℕ) (U := UR sig nD τ) (Lvl := ℕ) c (W c)]
  rw [Pipeline.unscopedBufs_split₀ cfgs 0 (by decide) c]
  iintro ⟨Ha, Hr⟩
  isplitl [Ha]
  · iapply (deal0 (entryOf W) c); iexact Ha
  iexact Hr

/-- EXIT: the pipeline's arrays after the last point and the other unscoped buffers are every unscoped buffer
    whole at `exit0 W`. -/
theorem leave0 (c : Dev nD) :
    (iprop((dat0 (entryOf W) c).arrays ((dat0 (entryOf W) c).arrAt · cfg0.N)
        ∗ Pipeline.unscopedRest (Ix := Unit) (Name := ℕ) (U := UR sig nD τ) (Lvl := ℕ) spec0 c (entryOf W c)) : sProp 𝕄)
      ⊢ StableHlo.held (c : Thread nD τ) (Pipeline.ucRefs τ sig) (exit0 W c) := by
  rw [← Pipeline.unscopedBufs_held (Ix := Unit) (Name := ℕ) (U := UR sig nD τ) (Lvl := ℕ) c (exit0 W c)]
  rw [Pipeline.unscopedBufs_split₀ cfgs 0 (by decide) c]
  change _ ⊢ iprop((Pipeline.arrBufs spec0 c (entryOf (exit0 W) c) : sProp 𝕄)
    ∗ Pipeline.unscopedRest (Ix := Unit) (Name := ℕ) (U := UR sig nD τ) (Lvl := ℕ) spec0 c (entryOf (exit0 W) c))
  rw [arrBufs0_eq, arrays0_eq, arrAt0_in0, arrAt0_in1, arrAt0_in2, arrAt0_in3]
  rw [unscopedRest0_eq, unscopedRest0_eq]
  rw [exit0E_v6_0, exit0E_v6_1]
  rw [exit0E_of W c main_v3 (by decide), exit0E_of W c main_v4 (by decide), exit0E_of W c main_v5 (by decide),
    exit0E_of W c main_arg0 (by decide), exit0E_of W c main_arg1 (by decide), exit0E_of W c main_call0_v0 (by decide),
    exit0E_of W c main_call0_cst (by decide), exit0E_of W c main_call0_v1 (by decide), exit0E_of W c main_call0_v2 (by decide),
    exit0E_of W c main_v0 (by decide), exit0E_of W c main_v1 (by decide), exit0E_of W c main_v2 (by decide),
    exit0E_of W c main_v7 (by decide), exit0E_of W c main_cst (by decide), exit0E_of W c main_v8 (by decide),
    exit0E_of W c main_cst_0 (by decide), exit0E_of W c main_v9 (by decide)]
  iintro ⟨⟨Hl, Hr, H4, H5, H60, H61⟩, Hrest⟩
  isplitr [Hrest]
  · isplitl [Hl Hr]
    · iapply (pointsTo_share (PosShare.mem_left_op_right fullShare)).2
      isplitl [Hl] <;> iassumption
    isplitl [H4]; · iexact H4
    isplitl [H5]; · iexact H5
    isplitl [H60]; · iexact H60
    iexact H61
  iexact Hrest

end Cert.KernelIdeal.Hand

end
-- ==== Proof.KI.Deal1.lean ====
/-
  Entering and leaving the second pass's region, two of whose windows read ONE array (the normalised feature
  matrix, by row tile and by column tile): at entry that array's share is dealt in halves to its two windows, at
  exit the halves are joined; the six inputs are as found and the output holds what the write-backs made of it.
-/
import proofs.«136741_j45509473469192_1_alg».proof.Proof.KI.R1Obl
import proofs.«136741_j45509473469192_1_alg».proof.Proof.KI.Deal0b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

theorem arrAt1_in0 (c : Dev nD) (n : ℕ) : (dat1 V c).arrAt 0 n = V c main_v3 := ((dat1 V c).arrAt_in 0 rfl n).trans (A_eq1 V c 0)
theorem arrAt1_in1 (c : Dev nD) (n : ℕ) : (dat1 V c).arrAt 1 n = V c main_v3 := ((dat1 V c).arrAt_in 1 rfl n).trans (A_eq1 V c 1)
theorem arrAt1_in2 (c : Dev nD) (n : ℕ) : (dat1 V c).arrAt 2 n = V c main_v4 := ((dat1 V c).arrAt_in 2 rfl n).trans (A_eq1 V c 2)
theorem arrAt1_in3 (c : Dev nD) (n : ℕ) : (dat1 V c).arrAt 3 n = V c main_v5 := ((dat1 V c).arrAt_in 3 rfl n).trans (A_eq1 V c 3)
theorem arrAt1_in4 (c : Dev nD) (n : ℕ) : (dat1 V c).arrAt 4 n = V c main_v6_0 := ((dat1 V c).arrAt_in 4 rfl n).trans (A_eq1 V c 4)
theorem arrAt1_in5 (c : Dev nD) (n : ℕ) : (dat1 V c).arrAt 5 n = V c main_v6_1 := ((dat1 V c).arrAt_in 5 rfl n).trans (A_eq1 V c 5)

theorem arrBufs1_eq (c : Dev nD) (X : (b : Ref sig .tc) → Buf (Elt F) ((c : Thread nD τ).loc b)) :
    (Pipeline.arrBufs spec1 c X : sProp 𝕄)
      = iprop((((c : Thread nD τ).loc main_v3) ↦{fullShare} X main_v3) ∗ (((c : Thread nD τ).loc main_v4) ↦{fullShare} X main_v4)
          ∗ (((c : Thread nD τ).loc main_v5) ↦{fullShare} X main_v5) ∗ (((c : Thread nD τ).loc main_v6_0) ↦{fullShare} X main_v6_0)
          ∗ (((c : Thread nD τ).loc main_v6_1) ↦{fullShare} X main_v6_1) ∗ (((c : Thread nD τ).loc main_v7) ↦{fullShare} X main_v7)) := by
  unfold Pipeline.arrBufs
  rw [bigSep_eq_bigSepL_of_eq [main_v3, main_v4, main_v5, main_v6_0, main_v6_1, main_v7] (by decide) (by decide)]
  rfl

theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2) ∗ (((c : Thread nD τ).loc main_v5) ↦{fullShare} G 3)
          ∗ (((c : Thread nD τ).loc main_v6_0) ↦{fullShare} G 4) ∗ (((c : Thread nD τ).loc main_v6_1) ↦{fullShare} G 5)
          ∗ (((c : Thread nD τ).loc main_v7) ↦{fullShare} G 6)) := by
  unfold Dat.arrays; rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

theorem deal1 (c : Dev nD) : (Pipeline.arrBufs spec1 c (V c) : sProp 𝕄) ⊢ (dat1 V c).arrays ((dat1 V c).arrAt · 0) := by
  rw [arrBufs1_eq, arrays1_eq, arrAt1_in0, arrAt1_in1, arrAt1_in2, arrAt1_in3, arrAt1_in4, arrAt1_in5]
  iintro ⟨H3, H4, H5, H60, H61, H7⟩
  ihave Hs := (pointsTo_share (PosShare.mem_left_op_right fullShare)).1 $$ H3
  icases Hs with ⟨Hl, Hr⟩
  isplitl [Hl]; · iexact Hl
  isplitl [Hr]; · iexact Hr
  isplitl [H4]; · iexact H4
  isplitl [H5]; · iexact H5
  isplitl [H60]; · iexact H60
  isplitl [H61]; · iexact H61
  iexact H7

variable (W : Dev nD → Valuation τ sig (Elt F))

/-- What the second pass leaves in its output array: the rows' losses. -/
abbrev lossOut (c : Dev nD) := (dat1 (entryOf W) c).arrAt 6 cfg1.N

def exit1 (c : Dev nD) : Valuation τ sig (Elt F) := Function.update (W c) main_v7 (lossOut W c)

theorem exit1_v7 (c : Dev nD) : exit1 W c main_v7 = lossOut W c := by
  unfold exit1; rw [Function.update_self]
theorem exit1_of (c : Dev nD) (r : Ref sig .tc) (h : r ∉ ([main_v7] : List (Ref sig .tc))) : exit1 W c r = W c r := by
  unfold exit1
  rw [Function.update_of_ne (StableHlo.devRef_ne_of_ne (List.ne_of_not_mem_cons h) : (Proc.devRef .tc r : DevRef τ sig) ≠ Proc.devRef .tc main_v7)]

theorem exit1E_v7 (c : Dev nD) : entryOf (exit1 W) c main_v7 = lossOut W c := exit1_v7 W c
theorem exit1E_of (c : Dev nD) (r : Ref sig .tc) (h : r ∉ ([main_v7] : List (Ref sig .tc))) : entryOf (exit1 W) c r = entryOf W c r := exit1_of W c r h

theorem enter1 (c : Dev nD) :
    (StableHlo.held (c : Thread nD τ) (Pipeline.ucRefs τ sig) (W c) : sProp 𝕄)
      ⊢ iprop((dat1 (entryOf W) c).arrays ((dat1 (entryOf W) c).arrAt · 0)
          ∗ Pipeline.unscopedRest (Ix := Unit) (Name := ℕ) (U := UR sig nD τ) (Lvl := ℕ) spec1 c (entryOf W c)) := by
  rw [← Pipeline.unscopedBufs_held (Ix := Unit) (Name := ℕ) (U := UR sig nD τ) (Lvl := ℕ) c (W c)]
  rw [Pipeline.unscopedBufs_split₀ cfgs 1 (by decide) c]
  iintro ⟨Ha, Hr⟩
  isplitl [Ha]
  · iapply (deal1 (entryOf W) c); iexact Ha
  iexact Hr

theorem leave1 (c : Dev nD) :
    (iprop((dat1 (entryOf W) c).arrays ((dat1 (entryOf W) c).arrAt · cfg1.N)
        ∗ Pipeline.unscopedRest (Ix := Unit) (Name := ℕ) (U := UR sig nD τ) (Lvl := ℕ) spec1 c (entryOf W c)) : sProp 𝕄)
      ⊢ StableHlo.held (c : Thread nD τ) (Pipeline.ucRefs τ sig) (exit1 W c) := by
  rw [← Pipeline.unscopedBufs_held (Ix := Unit) (Name := ℕ) (U := UR sig nD τ) (Lvl := ℕ) c (exit1 W c)]
  rw [Pipeline.unscopedBufs_split₀ cfgs 1 (by decide) c]
  change _ ⊢ iprop((Pipeline.arrBufs spec1 c (entryOf (exit1 W) c) : sProp 𝕄)
    ∗ Pipeline.unscopedRest (Ix := Unit) (Name := ℕ) (U := UR sig nD τ) (Lvl := ℕ) spec1 c (entryOf (exit1 W) c))
  rw [arrBufs1_eq, arrays1_eq, arrAt1_in0, arrAt1_in1, arrAt1_in2, arrAt1_in3, arrAt1_in4, arrAt1_in5]
  rw [unscopedRest1_eq, unscopedRest1_eq]
  rw [exit1E_v7]
  rw [exit1E_of W c main_v3 (by decide), exit1E_of W c main_v4 (by decide), exit1E_of W c main_v5 (by decide),
    exit1E_of W c main_v6_0 (by decide), exit1E_of W c main_v6_1 (by decide),
    exit1E_of W c main_arg0 (by decide), exit1E_of W c main_arg1 (by decide), exit1E_of W c main_call0_v0 (by decide),
    exit1E_of W c main_call0_cst (by decide), exit1E_of W c main_call0_v1 (by decide), exit1E_of W c main_call0_v2 (by decide),
    exit1E_of W c main_v0 (by decide), exit1E_of W c main_v1 (by decide), exit1E_of W c main_v2 (by decide),
    exit1E_of W c main_cst (by decide), exit1E_of W c main_v8 (by decide),
    exit1E_of W c main_cst_0 (by decide), exit1E_of W c main_v9 (by decide)]
  iintro ⟨⟨Hl, Hr, H4, H5, H60, H61, H7⟩, Hrest⟩
  isplitr [Hrest]
  · isplitl [Hl Hr]
    · iapply (pointsTo_share (PosShare.mem_left_op_right fullShare)).2
      isplitl [Hl] <;> iassumption
    isplitl [H4]; · iexact H4
    isplitl [H5]; · iexact H5
    isplitl [H60]; · iexact H60
    isplitl [H61]; · iexact H61
    iexact H7
  iexact Hrest

end Cert.KernelIdeal.Hand

end
-- ==== Proof.KI.Whole.lean ====
/-
  The whole run of the program: normalise the rows (two stretches of host operations), the first pass (per-row
  least positive and greatest negative similarity), the second pass (per-row loss), and the mean (a last stretch of
  host operations). Every unscoped buffer's contents are followed from the launch to the end, W0 … W5; the run
  terminates with every unscoped buffer at W5.
-/
import proofs.«136741_j45509473469192_1_alg».proof.Proof.KI.Deal1
import proofs.«136741_j45509473469192_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents between the items of @main -/

/-- After the two stretches of host operations (the rows normalised, the labels reshaped): the first pass's entry. -/
abbrev W2 : Dev nD → Valuation τ sig (Elt F) := fun c => Gen.V2 m c
/-- After the first pass: the second pass's entry. -/
abbrev W3 : Dev nD → Valuation τ sig (Elt F) := fun c => exit0 (W2 m) c
/-- After the second pass. -/
abbrev W4 : Dev nD → Valuation τ sig (Elt F) := fun c => exit1 (W3 m) c
/-- After the last stretch of host operations (the mean). -/
abbrev W5 : Dev nD → Valuation τ sig (Elt F) := fun c => StableHlo.after hostOps2 (W4 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (entryOf (W2 m)) c
  | ⟨1, _⟩ => fun c => dat1 (entryOf (W3 m)) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The two regions -/

set_option backward.isDefEq.respectTransparency.types false in
/-- The first pass's region over the thread state "every unscoped buffer whole at a valuation, the generator
    register at some state, nothing owed": its arrays are split out of the unscoped buffers at entry (the feature
    matrix dealt in halves) and put back at the exit contents; the generator register goes into the invariant and
    comes back; the kernel has no semaphore of its own and owes nothing. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (entryOf (W2 m)) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (entryOf (W2 m) c)
  hentry c := by
    rw [Pipeline.ownSems0_none]
    iintro ⟨⟨Hub, Hp, HO⟩, -, -⟩
    ihave H := (enter0 (W2 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (entryOf (W2 m)) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 (W2 m) c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second pass's region over the thread state "every unscoped buffer whole at a valuation, the generator
    register at some state, nothing owed": its arrays are split out of the unscoped buffers at entry (the feature
    matrix dealt in halves) and put back at the exit contents; the generator register goes into the invariant and
    comes back; the kernel has no semaphore of its own and owes nothing. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (entryOf (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (entryOf (W3 m) c)
  hentry c := by
    rw [Pipeline.ownSems0_none]
    iintro ⟨⟨Hub, Hp, HO⟩, -, -⟩
    ihave H := (enter1 (W3 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (entryOf (W3 m)) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 (W3 m) c)
      isplitl [Ha]; · iexact Ha
      iexact Hrest
    isplitl [HY]; · iexact HY
    unfold Pipeline.Dat.owesAt Pipeline.owesWithin
    icases HO with ⟨%W, -, HO⟩; iexists W; iexact HO

/-! ## @main as five items, and the launch -/

/-- The last stretch of host operations as a segment from `W4`. -/
def segLast : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) R

/-- The last item leaves the buffers at `W5`, the generator register at some state and nothing owed. -/
theorem lastLink (c : Dev nD) :
    (iprop(StableHlo.held (c : Thread nD τ) (Pipeline.ucRefs τ sig) (W5 m c) ∗ R c) : sProp 𝕄)
      ⊢ iprop((StableHlo.held (c : Thread nD τ) (Pipeline.ucRefs τ sig) (W5 m c) ∗ ∃ r, prngReg c r)
          ∗ ∃ W, owes (c : Thread nD τ) (0 : CellTallies nD τ sig Unit) W) := by
  iintro ⟨Hh, ⟨Hp, HO⟩⟩
  isplitl [Hh Hp]
  · isplitl [Hh]; · iexact Hh
    iexact Hp
  iexact HO

abbrev segsAll (c : Dev nD) : List (Pipeline.Seg (pcfgs (F := F)) adm (pdats m) () defs₀ 𝒱₀ L lv) :=
  [.host (seg0 m 𝒱₀ L lv (fun _ => R)), .host (seg1 m 𝒱₀ L lv (fun _ => R)), .region (reg0 m), .region (reg1 m), .host (segLast m)]

set_option backward.isDefEq.respectTransparency.types false in
/-- THE RUN: from any memory with zero counters every weakly fair execution of @main terminates, nothing faulting,
    with every unscoped buffer at `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) := by
  refine Pipeline.θ_run_regions_kit_dev (pcfgs (F := F)) adm (pdats m) () cellOf_inj emb₁ defs₀ 𝒱₀ L lv m ρ main
    (segsAll m)
    (fun c Q => by
      rewrite [main_chain c, Pipeline.Seg.run_eq_chain,
        show (segsAll m c).map Pipeline.Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (fun c => by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W5 m c) ∗ ∃ r, prngReg c r))
    (hch := fun c => ⟨.rfl, .rfl, .rfl, .rfl, .rfl, lastLink m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun _ h => h)

end Cert.KernelIdeal.Hand

end
-- ==== Proof.Ref.RefSim.lean ====
/-
  The reference program's stages from the row norms to the similarity matrix and the two masks, each read at an
  index written by its coordinates, are the specification's functions of the feature matrix and the labels.
-/
import proofs.«136741_j45509473469192_1_alg».proof.Proof.Gen.ReferenceIdeal.Read
import proofs.«136741_j45509473469192_1_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx
open Cert.Loss

/-- The feature matrix by coordinates. -/
abbrev xOf (a0 : (⟨S4096x1024, .f32⟩ : BufTy).Contents (Elt Ideal)) : Fin 4096 → Fin 1024 → EReal :=
  fun p k => a0 (ix2 p k)
/-- The labels by coordinate. -/
abbrev labOf (a1 : (⟨S4096, .i32⟩ : BufTy).Contents (Elt Ideal)) : Fin 4096 → BitVec 32 :=
  fun p => a1 (ix1 p)

variable (a0 : (⟨S4096x1024, .f32⟩ : BufTy).Contents (Elt Ideal)) (a1 : (⟨S4096, .i32⟩ : BufTy).Contents (Elt Ideal))

/-! ## Index equations: each layout operation's operand index, by coordinates -/

theorem idx_call0_v1 (p : Fin 4096) (k : Fin 1024) : idx_main_call0_v1 (ix1 p) k = ix2 p k :=
  funext fun a => Fin.ext (by match a with | ⟨0, _⟩ => rfl | ⟨1, _⟩ => rfl)
theorem idx_call0_v2 (p : Fin 4096) (u : Fin 1) : idx_main_call0_v2 (ix2 p u) = ix1 p :=
  funext fun a => Fin.ext (by match a with | ⟨0, _⟩ => rfl)
theorem idx_v1 (p : Fin 4096) (k : Fin 1024) : idx_main_v1 (ix2 p k) = ix2 p (0 : Fin 1) :=
  funext fun a => Fin.ext (by match a with | ⟨0, _⟩ => rfl | ⟨1, _⟩ => rfl)
theorem idx_v3 (k : Fin 1024) (q : Fin 4096) : idx_main_v3 (ix2 k q) = ix2 q k :=
  funext fun a => Fin.ext (by match a with | ⟨0, _⟩ => rfl | ⟨1, _⟩ => rfl)
theorem lidx_v4 (p q : Fin 4096) (k : Fin 1024) : lidx_main_v4 (ix2 p q) k = ix2 p k :=
  funext fun a => Fin.ext (by match a with | ⟨0, _⟩ => rfl | ⟨1, _⟩ => rfl)
theorem ridx_v4 (p q : Fin 4096) (k : Fin 1024) : ridx_main_v4 (ix2 p q) k = ix2 k q :=
  funext fun a => Fin.ext (by match a with | ⟨0, _⟩ => rfl | ⟨1, _⟩ => rfl)
theorem idx_v7 (p q : Fin 4096) : idx_main_v7 (ix2 p q) = ix2 p (0 : Fin 1) :=
  funext fun a => Fin.ext (by match a with | ⟨0, _⟩ => rfl | ⟨1, _⟩ => rfl)
theorem idx_v5 (p : Fin 4096) (u : Fin 1) : idx_main_v5 (ix2 p u) = ix1 p :=
  funext fun a => Fin.ext (by match a with | ⟨0, _⟩ => rfl)
theorem idx_v8 (p q : Fin 4096) : idx_main_v8 (ix2 p q) = ix2 (0 : Fin 1) q :=
  funext fun a => Fin.ext (by match a with | ⟨0, _⟩ => rfl | ⟨1, _⟩ => rfl)
theorem idx_v6 (u : Fin 1) (q : Fin 4096) : idx_main_v6 (ix2 u q) = ix1 q :=
  funext fun a => Fin.ext (by match a with | ⟨0, _⟩ => rfl)

/-! ## The norm, the normalised features, the similarity -/

/-- The sum of squares of row p: the host's sum from the zero word. -/
theorem sumsq_apply (p : Fin 4096) :
    val_main_call0_v1 (F := Ideal) a0 (ix1 p) = ∑ k : Fin 1024, xOf a0 p k * xOf a0 p k := by
  rw [val_main_call0_v1_apply]
  rw [show (val_main_call0_cst (F := Ideal)) (Shape.Idx.first h_S_) = Ideal.ofBits .f32 0x00000000#32 from rfl,
    Ideal.ofBits_zero_f32, zero_add]
  refine Finset.sum_congr rfl fun k _ => ?_
  rw [idx_call0_v1]
  rfl

/-- The norm of row p, in the keepdims column. -/
theorem nrm_apply (p : Fin 4096) (u : Fin 1) : val_main_v0 (F := Ideal) a0 (ix2 p u) = nrm (xOf a0) p := by
  rw [val_main_v0_apply, val_main_call0_v2_apply, idx_call0_v2, sumsq_apply]
  rfl

/-- The normalised feature (p, k). -/
theorem feat_apply (p : Fin 4096) (k : Fin 1024) : val_main_v2 (F := Ideal) a0 (ix2 p k) = feat (xOf a0) p k := by
  rw [val_main_v2_apply, val_main_v1_apply, idx_v1, nrm_apply]
  rfl

/-- The transposed normalised features. -/
theorem featT_apply (k : Fin 1024) (q : Fin 4096) : val_main_v3 (F := Ideal) a0 (ix2 k q) = feat (xOf a0) q k := by
  rw [val_main_v3_apply, idx_v3, feat_apply]

/-- The similarity of rows p and q. -/
theorem sim_apply (p q : Fin 4096) : val_main_v4 (F := Ideal) a0 (ix2 p q) = sim (xOf a0) p q := by
  rw [val_main_v4_apply]
  refine Finset.sum_congr rfl fun k _ => ?_
  rw [lidx_v4, ridx_v4, feat_apply, featT_apply]

/-! ## The masks -/

/-- "Rows p and q carry one label". -/
theorem same_apply (p q : Fin 4096) : val_main_v9 (F := Ideal) a1 (ix2 p q) = same (labOf a1) p q := by
  rw [val_main_v9_apply, val_main_v7_apply, idx_v7, val_main_v5_apply, idx_v5, val_main_v8_apply, idx_v8,
    val_main_v6_apply, idx_v6]
  rfl

/-- The broadcast threshold. -/
theorem thr_apply (i : S4096x4096.Idx) : val_main_v10 (F := Ideal) i = cThr := by
  rw [val_main_v10_apply]; rfl

/-- The positives' mask. -/
theorem posM_apply (p q : Fin 4096) : val_main_v12 (F := Ideal) a0 a1 (ix2 p q) = posM (xOf a0) (labOf a1) p q := by
  rw [val_main_v12_apply, same_apply, val_main_v11_apply, sim_apply, thr_apply]
  rfl

/-- The negatives' mask. -/
theorem negM_apply (p q : Fin 4096) : val_main_v13 (F := Ideal) a1 (ix2 p q) = negM (labOf a1) p q := by
  rw [val_main_v13_apply, same_apply]
  rfl

end Cert.RefSide

end
-- ==== Proof.LibRecast.lean ====
/-
  A vector recast as a one-row matrix or as a one-column matrix, read at an index: the row's entry k, and the column's
  entry e, are the vector's entries k and e. (A reshape keeps the row-major position, and the position of (0, k) in a
  1 × n matrix, like that of (e, 0) in an n × 1 matrix, is the position in the vector.)
-/
import Idealize.ShloMosaic.Lib.ValueIdx
import Idealize.ShloMosaic.Lib.Pipeline.Value

noncomputable section

namespace Cert.LibRecast

open Idealize.ShloMosaic Idealize.ShloMosaic.ValueIdx

variable {α : Type}

/-- A vector recast as one row, at (0, k). -/
theorem as_row_apply {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rewrite [Shape.rowMajor_val_two, Shape.rowMajor_val_one]
  show k.val = 0 * n + k.val
  omega

/-- A vector recast as one column, at (e, 0). -/
theorem as_column_apply {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) := by
  refine shapeCast_apply x h (ix2 e (0 : Fin 1)) (ix1 e) ?_
  rewrite [Shape.rowMajor_val_two, Shape.rowMajor_val_one]
  show e.val = e.val * 1 + 0
  omega

end Cert.LibRecast

end
-- ==== Proof.KI.Host.lean ====
/-
  The host operations around the two passes, read at an index: before the first pass the rows are normalised (the
  same norm-and-divide prefix as the reference's) and the labels are recast as a column and as a row; after the
  second pass the rows' losses are summed and divided by the number of rows.
-/
import proofs.«136741_j45509473469192_1_alg».proof.Proof.KI.Whole
import proofs.«136741_j45509473469192_1_alg».proof.Proof.Ref.RefSim
import proofs.«136741_j45509473469192_1_alg».proof.Proof.LibRecast
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (c : Dev nD)

/-- The two arguments as the launch finds them. -/
abbrev arg0K : (⟨S4096x1024, .f32⟩ : BufTy).Contents (Elt Ideal) := m ((c : Thread nD τ).loc main_arg0)
abbrev arg1K : (⟨S4096, .i32⟩ : BufTy).Contents (Elt Ideal) := m ((c : Thread nD τ).loc main_arg1)

/-- The first pass finds the normalised features in its feature window's array. -/
theorem W2_v3_eq : (W2 m c main_v3 : Vec Ideal S4096x1024 .bf16)
    = (truncf (F := Ideal) .bf16 (Cert.ReferenceIdeal.Read.val_main_v2 (F := Ideal) (arg0K m c) : FVec Ideal S4096x1024 .f32) bitsLt_bf16_f32 : Vec Ideal S4096x1024 .bf16) := by
  show StableHlo.after hostOps0_1 (StableHlo.after hostOps0 (fun b => m (c, b))) (Proc.devRef .tc main_v3) = _
  after_results
  rfl

theorem W2_v4_eq : (W2 m c main_v4 : Vec Ideal S4096x1 .i32) = shapeCast S4096x1 (arg1K m c) shapeCasts_S4096_S4096x1 := by
  show StableHlo.after hostOps0_1 (StableHlo.after hostOps0 (fun b => m (c, b))) (Proc.devRef .tc main_v4) = _
  after_results
  rfl

theorem W2_v5_eq : (W2 m c main_v5 : Vec Ideal S1x4096 .i32) = shapeCast S1x4096 (arg1K m c) shapeCasts_S4096_S1x4096 := by
  show StableHlo.after hostOps0_1 (StableHlo.after hostOps0 (fun b => m (c, b))) (Proc.devRef .tc main_v5) = _
  after_results
  rfl

theorem W2_feat (p : Fin 4096) (k : Fin 1024) :
    (W2 m c main_v3 : Vec Ideal S4096x1024 .bf16) (ix2 p k) = Cert.Loss.feat (Cert.RefSide.xOf (arg0K m c)) p k := by
  rw [W2_v3_eq]
  exact Cert.RefSide.feat_apply (arg0K m c) p k

theorem W2_labc (p : Fin 4096) : (W2 m c main_v4 : Vec Ideal S4096x1 .i32) (ix2 p 0) = Cert.RefSide.labOf (arg1K m c) p := by
  rw [W2_v4_eq]
  exact Cert.LibRecast.as_column_apply _ _ p

theorem W2_labr (q : Fin 4096) : (W2 m c main_v5 : Vec Ideal S1x4096 .i32) (ix2 0 q) = Cert.RefSide.labOf (arg1K m c) q := by
  rw [W2_v5_eq]
  exact Cert.LibRecast.as_row_apply _ _ q

end Cert.KernelIdeal.Hand

end
-- ==== Proof.KI.Args.lean ====
/-
  The two argument arrays end as launched: no host operation writes them and no region may change them, so the
  final valuation read at an argument walks back to the launch memory. Hence the frame claim from the whole run.
-/
import proofs.«136741_j45509473469192_1_alg».proof.Proof.KI.Whole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W5_of (c : Dev nD) (r : Ref sig .tc) (h : r ∉ hostOps2_W) : W5 m c r = W4 m c r :=
  StableHlo.after_of_writes_sub hostOps2 _ hostOps2_writes h

theorem W5_arg0 (c : Dev nD) : W5 m c main_arg0 = m ((c : Thread nD τ).loc main_arg0) :=
  (W5_of m c main_arg0 (by decide)).trans <| (exit1_of (W3 m) c main_arg0 (by decide)).trans <|
    (exit0_of (W2 m) c main_arg0 (by decide)).trans <| (V2_of m c main_arg0 (by decide)).trans <| (V1_of m c main_arg0 (by decide)).trans rfl
theorem W5_arg1 (c : Dev nD) : W5 m c main_arg1 = m ((c : Thread nD τ).loc main_arg1) :=
  (W5_of m c main_arg1 (by decide)).trans <| (exit1_of (W3 m) c main_arg1 (by decide)).trans <|
    (exit0_of (W2 m) c main_arg1 (by decide)).trans <| (V2_of m c main_arg1 (by decide)).trans <| (V1_of m c main_arg1 (by decide)).trans rfl

/-- THE FRAME: every weakly fair execution terminates, nothing faulting, the two arguments unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_arg0 m c), (h c _ (mem_uc main_arg1 (by decide))).trans (W5_arg1 m c)⟩)
    (run_all m ρ)

end Cert.KernelIdeal.Hand

end
-- ==== Proof.LibMatmulNT.lean ====
/-
  A matrix product whose right operand is contracted on its LAST axis, read at an index: for the dimension
  numbers that contract the left operand's second axis with the right operand's second (rows × inner times
  columns × inner, no batch axis — the product of a matrix with the transpose of another, the transpose never
  formed), a product into the zero accumulator is, at `(i, j)`, the sum over the inner coordinate `k` of
  `lhs (i, k) · rhs (j, k)`.
-/
import Idealize.ShloMosaic.PureOps.Ideal.Laws
import Idealize.ShloMosaic.Lib.ValueIdx

noncomputable section

namespace Idealize.ShloMosaic.ValueIdx

/-- The product with a right operand contracted on its last axis, into the zero accumulator, at `(i, j)`, as a sum
    over the inner coordinate. -/
theorem matmul_transposedRhs_zero_apply (M K N : ℕ) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact hk)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.LibMinBounds.lean ====
/-
  Lower bounds of minima over the extended reals. A minimum taken by a fold — the host's one-operand
  reduce with a minimum body, a vector multi-reduction of kind minimum — is characterised by its lower
  bounds: a number lies below the result exactly when it lies below the starting value and below every
  entry that reduces to the index. Two results with the same lower bounds are equal, so two programs
  that take the same minimum in different orders, groupings or tilings agree without any unfolding of
  the folds themselves. No finiteness is needed: the extended reals are a linear order.
-/
import Idealize.ShloMosaic.PureOps.Ideal
import Idealize.ShloMosaic.PureOps.Ideal.Laws
import Idealize.ShloMosaic.PureOps.Reduce

noncomputable section

namespace Cert.LibMinBounds

open Idealize.ShloMosaic

/-- A fold of the ideal minimum over a finite set lies above `z` exactly when its start and every term do. -/
theorem le_fold_minimumf {ι : Type} {φ : FTy} (S : Finset ι) (b : Ideal φ) (f : ι → Ideal φ) (z : EReal) :
    z ≤ S.fold (FloatOps.minimumf (F := Ideal) (φ := φ)) b f ↔ z ≤ b ∧ ∀ i ∈ S, z ≤ f i :=
  Finset.le_fold_min (s := S) (b := b) (f := f) (c := z)

/-- The host's reduce with a minimum body, at an index: its lower bounds are those of the initial value
    and of every operand entry that drops to the index. -/
theorem le_hostReduce_min {s t u : Shape} {axes : List (Fin s.rank)} {φ : FTy} (x : s.Idx → Ideal φ)
    (init : u.Idx → Ideal φ) (h : s.ReducesTo axes t) (hu : 0 < u.numel) (j : t.Idx) (z : EReal) :
    z ≤ Host.reduce (FloatOps.minimumf (F := Ideal) (φ := φ)) x init h hu j
      ↔ z ≤ init (Shape.Idx.first hu) ∧ ∀ i : s.Idx, h.drop i = j → z ≤ x i := by
  rw [Host.reduce_eq_fold, le_fold_minimumf]
  simp only [Finset.mem_filter, Finset.mem_univ, true_and]

/-- A vector multi-reduction of kind minimum, at an index: its lower bounds are those of the accumulator's
    value and of every source entry that drops to the index. -/
theorem le_multiReduction_min {s t : Shape} {axes : List (Fin s.rank)} {φ : FTy} (src : FVec Ideal s φ)
    (acc : BitVec φ.bits) (h : s.Reduces axes t) (hφ : FKind.Formats φ) (hacc : acc = FKind.minimumf.neutral φ hφ)
    (j : t.Idx) (z : EReal) :
    z ≤ multiReduction .minimumf axes t src acc h hφ hacc j
      ↔ z ≤ Ideal.ofBits φ acc ∧ ∀ i : s.Idx, h.drop i = j → z ≤ src i := by
  rw [multiReduction_minimumf_eq_fold, le_fold_minimumf]
  simp only [Finset.mem_filter, Finset.mem_univ, true_and, Ideal.ofBits_def]

/-- Two extended reals with the same lower bounds are equal. -/
theorem eq_of_forall_le_iff {a b : EReal} (h : ∀ z : EReal, z ≤ a ↔ z ≤ b) : a = b :=
  le_antisymm ((h a).mp le_rfl) ((h b).mpr le_rfl)

end Cert.LibMinBounds

end
-- ==== Proof.LibHostRowMax.lean ====
/-
  The host's one-operand reduce with a maximum body along the second axis of an [a, b] matrix, read at row r:
  the fold of max, from the scalar initial value, over the b entries of that row. The fold is over the finite
  set of all columns, so it does not depend on any order.
-/
import Idealize.ShloMosaic.Lib.Pipeline.Value
import Idealize.ShloMosaic.Lib.ValueIdx
import Idealize.ShloMosaic.PureOps.Ideal.Laws

namespace Cert.LibHostRowMax

open Idealize.ShloMosaic Idealize.ShloMosaic.ValueIdx

/-- Entry (r, k) of the matrix is the entry at row r with k put back on the reduced second axis. -/
theorem lift_row {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The host's maximum along the second axis, from its scalar initial value, at row r. -/
theorem host_max_rows_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init ix0) (fun k => x (ix2 r k)) := by
  rw [Host.reduce_eq_fold_single (FloatOps.maximumf (F := Ideal) (φ := .f32)) x init h' h hu (ix1 r)]
  show Finset.fold max _ _ Finset.univ = _
  rw [show init (Shape.Idx.first hu) = init ix0 from congrArg init (funext fun q => q.elim0)]
  refine congrArg (fun f => Finset.fold max _ f Finset.univ) ?_
  exact funext fun k => congrArg x (lift_row h r k)

end Cert.LibHostRowMax
-- ==== Proof.Ref.RefFolds.lean ====
/-
  Folds over a whole row, free of any order. A fold of the minimum from ⊤ over every column is the infimum of
  the row, a fold of the maximum from ⊥ its supremum (both by their bounds: the extended reals are a complete
  linear order); a fold of "or" from the false bit over one-bit words is 1 exactly when some word is 1. The
  host's one-operand reduce along the second axis of an [a, b] matrix is such a fold at each row. The words
  0x7F800000 and 0xFF800000 are the two infinities.
-/
import Idealize.ShloMosaic.Lib.Pipeline.Value
import Idealize.ShloMosaic.Lib.ValueIdx
import Idealize.ShloMosaic.Lib.Affine
import Idealize.ShloMosaic.PureOps.Ideal.Laws
import proofs.«136741_j45509473469192_1_alg».proof.Proof.LibMinBounds
import proofs.«136741_j45509473469192_1_alg».proof.Proof.LibHostRowMax

noncomputable section

namespace Cert.RefSide

open Idealize.ShloMosaic Idealize.ShloMosaic.ValueIdx

/-- The word of +∞. -/
theorem ofBits_posInf : Ideal.ofBits .f32 0x7F800000#32 = (⊤ : EReal) := by
  simp [Ideal.ofBits, Ideal.ieee]

/-- The word of -∞. -/
theorem ofBits_negInf : Ideal.ofBits .f32 0xFF800000#32 = (⊥ : EReal) := by
  simp [Ideal.ofBits, Ideal.ieee]

/-- A fold of the minimum from ⊤ over every index is the infimum. -/
theorem fold_min_top {n : ℕ} (f : Fin n → EReal) :
    (Finset.univ : Finset (Fin n)).fold min (⊤ : EReal) f = ⨅ k : Fin n, f k := by
  refine Cert.LibMinBounds.eq_of_forall_le_iff fun z => ?_
  rw [Finset.le_fold_min, le_iInf_iff]
  simp only [le_top, true_and, Finset.mem_univ, forall_true_left]

/-- A fold of the maximum from ⊥ over every index is the supremum. -/
theorem fold_max_bot {n : ℕ} (f : Fin n → EReal) :
    (Finset.univ : Finset (Fin n)).fold max (⊥ : EReal) f = ⨆ k : Fin n, f k := by
  refine eq_of_forall_ge_iff fun z => ?_
  rw [Finset.fold_max_le, iSup_le_iff]
  simp only [bot_le, true_and, Finset.mem_univ, forall_true_left]

/-- A fold of "or" from the false bit is 1 exactly when some term is 1. -/
theorem fold_ori_eq_one {ι : Type} (S : Finset ι) (f : ι → BitVec 1) :
    S.fold IntOp.ori 0#1 f = 1#1 ↔ ∃ k ∈ S, f k = 1#1 := by
  classical
  induction S using Finset.induction_on with
  | empty => simp
  | insert a S ha ih =>
    rw [Finset.fold_insert ha, IntOp.ori_eq_one, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.1 hk with rfl | hk
      · exact Or.inl h
      · exact Or.inr ⟨k, hk, h⟩

/-- The host's minimum along the second axis, from its scalar initial value, at row r. -/
theorem host_min_rows_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.minimumf (F := Ideal) (φ := .f32)) x init h' hu (ix1 r)
      = (Finset.univ : Finset (Fin b)).fold min (init ix0) (fun k => x (ix2 r k)) := by
  rw [Host.reduce_eq_fold_single (FloatOps.minimumf (F := Ideal) (φ := .f32)) x init h' h hu (ix1 r)]
  show Finset.fold min _ _ Finset.univ = _
  rw [show init (Shape.Idx.first hu) = init ix0 from congrArg init (funext fun q => q.elim0)]
  refine congrArg (fun f => Finset.fold min _ f Finset.univ) ?_
  exact funext fun k => congrArg x (Cert.LibHostRowMax.lift_row h r k)

/-- The host's "or" along the second axis of a matrix of one-bit words, from its scalar initial value, at row r. -/
theorem host_or_rows_apply {a b : ℕ} (x : (⟨2, ![a, b]⟩ : Shape).Idx → BitVec 1) (init : (⟨0, ![]⟩ : Shape).Idx → BitVec 1)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce IntOp.ori x init h' hu (ix1 r)
      = (Finset.univ : Finset (Fin b)).fold IntOp.ori (init ix0) (fun k => x (ix2 r k)) := by
  rw [Host.reduce_eq_fold_single IntOp.ori x init h' h hu (ix1 r)]
  rw [show init (Shape.Idx.first hu) = init ix0 from congrArg init (funext fun q => q.elim0)]
  refine congrArg (fun f => Finset.fold IntOp.ori _ f Finset.univ) ?_
  exact funext fun k => congrArg x (Cert.LibHostRowMax.lift_row h r k)

/-- So the host's "or" along a row, from the false bit, is 1 exactly when some entry of the row is 1. -/
theorem host_or_rows_eq_one {a b : ℕ} (x : (⟨2, ![a, b]⟩ : Shape).Idx → BitVec 1) (init : (⟨0, ![]⟩ : Shape).Idx → BitVec 1)
    (hinit : init ix0 = 0#1)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce IntOp.ori x init h' hu (ix1 r) = 1#1 ↔ ∃ k : Fin b, x (ix2 r k) = 1#1 := by
  rw [host_or_rows_apply x init h' h hu r, hinit, fold_ori_eq_one]
  simp only [Finset.mem_univ, true_and]

/-- A select on a one-bit word is the conditional on "the word is 1". -/
theorem select_eq_ite {α : Type} (c : BitVec 1) (x y : α) : Scalar.select c x y = if c = 1#1 then x else y := rfl

end Cert.RefSide

end
-- ==== Proof.KI.Pass1Tile.lean ====
/-
  One column tile of pass 1, read at an index. For a row tile's features a, a column tile's features b and their
  labels la (a column) and lb (a row): the similarity of row r and column s is the inner product of the two
  feature rows; "same label" compares the two labels; the positives' mask is "same label and similarity below
  the threshold", the negatives' mask "labels differ". The tile updates the running least positive similarity
  of row r with the infimum over the tile's columns of the similarity where the positives' mask is on (⊤ where
  it is off), and the running greatest negative similarity with the supremum of the similarity where the
  negatives' mask is on (⊥ where it is off).
-/
import proofs.«136741_j45509473469192_1_alg».proof.Proof.KI.Tile
import proofs.«136741_j45509473469192_1_alg».proof.Proof.LibMatmulNT
import proofs.«136741_j45509473469192_1_alg».proof.Proof.LibKeepdims
import proofs.«136741_j45509473469192_1_alg».proof.Proof.LibMinBounds
import proofs.«136741_j45509473469192_1_alg».proof.Proof.Ref.RefFolds
import Idealize.ShloMosaic.Lib.ValueLayout
import Idealize.ShloMosaic.Lib.Pipeline.Value

noncomputable section

namespace Cert.KernelIdeal.Tile

open Cert.KernelIdeal Cert.KernelIdeal.Gen
open Idealize.ShloMosaic Idealize.ShloMosaic.ValueIdx

/-- The similarity of row r of a and row s of b: the inner product of the two feature rows. -/
def tSim (a b : Vec Ideal S512x1024 .bf16) (r s : Fin 512) : EReal := ∑ k : Fin 1024, a (ix2 r k) * b (ix2 s k)
/-- "Row r and column s carry one label". -/
def tSame (la : Vec Ideal S512x1 .i32) (lb : Vec Ideal S1x512 .i32) (r s : Fin 512) : BitVec 1 :=
  IntOp.cmpi .eq (la (ix2 r (0 : Fin 1))) (lb (ix2 (0 : Fin 1) s))

/-- The product of a with b transposed, at (r, s). -/
theorem pay4_apply (a b : Vec Ideal S512x1024 .bf16) (r s : Fin 512) :
    k0_pay4 (F := Ideal) a b (ix2 r s) = tSim a b r s := by
  unfold k0_pay4
  simp only [shapeCast_self]
  exact matmul_transposedRhs_zero_apply 512 1024 512 none a b r s

/-- The label comparison at (r, s). -/
theorem pay5_apply (la : Vec Ideal S512x1 .i32) (lb : Vec Ideal S1x512 .i32) (r s : Fin 512) :
    k0_pay5 (F := Ideal) la lb (ix2 r s) = tSame la lb r s := by
  unfold k0_pay5
  simp only [shapeCast_self]
  show IntOp.cmpi .eq (broadcastTo S512x512 la _ (ix2 r s)) (broadcastTo S512x512 lb _ (ix2 r s)) = _
  rw [broadcastTo_a1_ab_apply, broadcastTo_1b_ab_apply]
  rfl

/-- The minimum over the second axis of an [a, b] matrix, at row r: the fold of min from the accumulator's
    value over that row's b entries. -/
theorem multiReduction_minimumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f Finset.univ) (funext fun k => congrArg src (lift_rows h r k))

/-- On one-bit words, "exclusive or with 1" is the complement. -/
theorem xor_one_eq_not (c : BitVec 1) : IntOp.xori c 1#1 = ~~~ c := by
  by_cases h : c = 1#1
  · subst h; rfl
  · rw [eq_zero_of_ne_one h]; rfl

/-- The positives' mask of the tile at (r, s). -/
def tPos (a b : Vec Ideal S512x1024 .bf16) (la : Vec Ideal S512x1 .i32) (lb : Vec Ideal S1x512 .i32) (r s : Fin 512) : BitVec 1 :=
  tSame la lb r s &&& Ideal.cmp .olt (tSim a b r s) Cert.Loss.cThr
/-- The negatives' mask of the tile at (r, s). -/
def tNeg (la : Vec Ideal S512x1 .i32) (lb : Vec Ideal S1x512 .i32) (r s : Fin 512) : BitVec 1 := ~~~ tSame la lb r s

/-- The tile's update of the running least positive similarity, at row r. -/
theorem pay7_apply (a b : Vec Ideal S512x1024 .bf16) (la : Vec Ideal S512x1 .i32) (lb : Vec Ideal S1x512 .i32)
    (v : Vec Ideal S512x1 .f32) (r : Fin 512) :
    k0_pay7 (F := Ideal) a b la lb v (ix2 r (0 : Fin 1))
      = min (v (ix2 r (0 : Fin 1))) (⨅ s : Fin 512, Scalar.select (tPos a b la lb r s) (tSim a b r s) ⊤) := by
  unfold k0_pay7
  simp only [shapeCast_self]
  rw [minimumf_apply]
  refine congrArg (min (v (ix2 r (0 : Fin 1)))) ?_
  refine (shapeCast_a_a1_apply _ _ r (0 : Fin 1)).trans ?_
  refine (multiReduction_minimumf_rows_apply _ _ _ _ _ r).trans ?_
  rw [Cert.RefSide.ofBits_posInf, Cert.RefSide.fold_min_top]
  refine iInf_congr fun s => ?_
  rw [select_apply, broadcast_apply, pay4_apply]
  show Scalar.select (IntOp.andi (k0_pay5 (F := Ideal) la lb (ix2 r s)) (FloatOps.cmpf .olt (k0_pay4 (F := Ideal) a b (ix2 r s)) _)) _ _ = _
  rw [pay4_apply, pay5_apply, show FloatOps.ofBits (F := Ideal) .f32 0x7F800000#32 = (⊤ : EReal) from Cert.RefSide.ofBits_posInf]
  rfl

/-- The tile's update of the running greatest negative similarity, at row r. -/
theorem pay1_pay6_apply (a b : Vec Ideal S512x1024 .bf16) (la : Vec Ideal S512x1 .i32) (lb : Vec Ideal S1x512 .i32)
    (v : Vec Ideal S512x1 .f32) (r : Fin 512) :
    k0_pay1 (F := Ideal) (k0_pay6 a b la lb) v (ix2 r (0 : Fin 1))
      = max (v (ix2 r (0 : Fin 1))) (⨆ s : Fin 512, Scalar.select (tNeg la lb r s) (tSim a b r s) ⊥) := by
  unfold k0_pay1 k0_pay6
  simp only [shapeCast_self]
  rw [maximumf_apply]
  refine congrArg (max (v (ix2 r (0 : Fin 1)))) ?_
  refine (shapeCast_a_a1_apply _ _ r (0 : Fin 1)).trans ?_
  refine (multiReduction_maximumf_rows_apply _ _ _ _ _ r).trans ?_
  rw [Cert.RefSide.ofBits_negInf, Cert.RefSide.fold_max_bot]
  refine iSup_congr fun s => ?_
  rw [select_apply, broadcast_apply, pay4_apply]
  show Scalar.select (IntOp.xori (k0_pay5 (F := Ideal) la lb (ix2 r s)) 1#1) _ _ = _
  rw [pay5_apply, xor_one_eq_not, show FloatOps.ofBits (F := Ideal) .f32 0xFF800000#32 = (⊥ : EReal) from Cert.RefSide.ofBits_negInf]
  rfl

end Cert.KernelIdeal.Tile

end
-- ==== Proof.KI.Pass1Math.lean ====
/-
  Pass 1 over a whole row. Row r of row tile i is row 512·i + r of the matrix, and column s of column tile t is
  column 512·t + s; with the blocks cut out of the whole arrays, a tile's similarity and masks are the
  specification's at those two rows. The running least positive similarity after column tiles 0 … j is
  characterised by its lower bounds: a number lies below it exactly when it lies below the specification's term
  at every column before 512·(j + 1) (each column is 512·t + s for one tile t and one s below 512). After the
  last tile every column is covered, so the running value is the infimum over the whole row. The running
  greatest negative similarity is the same statement with upper bounds and the supremum.
-/
import proofs.«136741_j45509473469192_1_alg».proof.Proof.KI.Pass1Tile

noncomputable section

namespace Cert.KernelIdeal.Tile

open Cert.KernelIdeal Cert.KernelIdeal.Gen
open Idealize.ShloMosaic Idealize.ShloMosaic.ValueIdx

/-- Row r of tile i as a row of the whole matrix: 512·i + r. -/
abbrev gRow (i : Fin 8) (r : Fin 512) : Fin 4096 :=
  ⟨512 * i.val + r.val, by have h : r.val < 512 := r.isLt; have := i.isLt; omega⟩

/-- A tile number below 8 is its own residue. -/
theorem tileOf_val (j : ℕ) (h : j < 8) : (tileOf j).val = j := Nat.mod_eq_of_lt h

section Blocks

variable (x : Fin 4096 → Fin 1024 → EReal) (lab : Fin 4096 → BitVec 32)
  (Fm : Vec Ideal S4096x1024 .bf16) (Lc : Vec Ideal S4096x1 .i32) (Lr : Vec Ideal S1x4096 .i32)

/-- The term of row p at column q that the least positive similarity ranges over. -/
def posTerm (p q : Fin 4096) : EReal := Scalar.select (Cert.Loss.posM x lab p q) (Cert.Loss.sim x p q) ⊤
/-- The term of row p at column q that the greatest negative similarity ranges over. -/
def negTerm (p q : Fin 4096) : EReal := Scalar.select (Cert.Loss.negM lab p q) (Cert.Loss.sim x p q) ⊥

/-- A tile's similarity is the specification's at the two rows. -/
theorem tSim_blk (hF : ∀ p k, Fm (ix2 p k) = Cert.Loss.feat x p k) (i t : Fin 8) (r s : Fin 512) :
    tSim (featBlk Fm i) (featBlk Fm t) r s = Cert.Loss.sim x (gRow i r) (gRow t s) := by
  unfold tSim Cert.Loss.sim
  refine Finset.sum_congr rfl fun k _ => ?_
  show Fm (ix2 (gRow i r) k) * Fm (ix2 (gRow t s) k) = _
  rw [hF, hF]

/-- A tile's label comparison is the specification's at the two rows. -/
theorem tSame_blk (hLc : ∀ p, Lc (ix2 p (0 : Fin 1)) = lab p) (hLr : ∀ q, Lr (ix2 (0 : Fin 1) q) = lab q)
    (i t : Fin 8) (r s : Fin 512) :
    tSame (labColBlk Lc i) (labRowBlk Lr t) r s = Cert.Loss.same lab (gRow i r) (gRow t s) := by
  unfold tSame Cert.Loss.same
  show IntOp.cmpi .eq (Lc (ix2 (gRow i r) (0 : Fin 1))) (Lr (ix2 (0 : Fin 1) (gRow t s))) = _
  rw [hLc, hLr]

/-- One column tile's update of the running least positive similarity of row r of row tile i. -/
theorem step0_fst (hF : ∀ p k, Fm (ix2 p k) = Cert.Loss.feat x p k) (hLc : ∀ p, Lc (ix2 p (0 : Fin 1)) = lab p)
    (hLr : ∀ q, Lr (ix2 (0 : Fin 1) q) = lab q) (i t : Fin 8) (S : Col × Col) (r : Fin 512) :
    (step0 (featBlk Fm i) (featBlk Fm t) (labColBlk Lc i) (labRowBlk Lr t) S).1 (ix2 r (0 : Fin 1))
      = min (S.1 (ix2 r (0 : Fin 1))) (⨅ s : Fin 512, posTerm x lab (gRow i r) (gRow t s)) := by
  show k0_pay7 (F := Ideal) _ _ _ _ S.1 (ix2 r (0 : Fin 1)) = _
  rw [pay7_apply]
  refine congrArg (min _) (iInf_congr fun s => ?_)
  unfold tPos posTerm Cert.Loss.posM
  rw [tSim_blk x Fm hF, tSame_blk lab Lc Lr hLc hLr]

/-- One column tile's update of the running greatest negative similarity of row r of row tile i. -/
theorem step0_snd (hF : ∀ p k, Fm (ix2 p k) = Cert.Loss.feat x p k) (hLc : ∀ p, Lc (ix2 p (0 : Fin 1)) = lab p)
    (hLr : ∀ q, Lr (ix2 (0 : Fin 1) q) = lab q) (i t : Fin 8) (S : Col × Col) (r : Fin 512) :
    (step0 (featBlk Fm i) (featBlk Fm t) (labColBlk Lc i) (labRowBlk Lr t) S).2 (ix2 r (0 : Fin 1))
      = max (S.2 (ix2 r (0 : Fin 1))) (⨆ s : Fin 512, negTerm x lab (gRow i r) (gRow t s)) := by
  show k0_pay1 (F := Ideal) (k0_pay6 _ _ _ _) S.2 (ix2 r (0 : Fin 1)) = _
  rw [pay1_pay6_apply]
  refine congrArg (max _) (iSup_congr fun s => ?_)
  unfold tNeg negTerm Cert.Loss.negM
  rw [tSim_blk x Fm hF, tSame_blk lab Lc Lr hLc hLr]

end Blocks

/-! ## Bounds over the columns covered so far -/

/-- Every column below 512·(t + 1) is below 512·t or is column s of tile t. -/
theorem col_split (t : Fin 8) (q : Fin 4096) (hq : q.val < 512 * (t.val + 1)) (hlt : ¬ q.val < 512 * t.val) :
    ∃ s : Fin 512, q = gRow t s :=
  ⟨⟨q.val - 512 * t.val, by omega⟩, Fin.ext (by show q.val = 512 * t.val + (q.val - 512 * t.val); omega)⟩

/-- Lower bounds after one more tile. -/
theorem lower_step (g : Fin 4096 → EReal) (t : Fin 8) (A : EReal)
    (hA : ∀ z : EReal, z ≤ A ↔ ∀ q : Fin 4096, q.val < 512 * t.val → z ≤ g q) (z : EReal) :
    z ≤ min A (⨅ s : Fin 512, g (gRow t s)) ↔ ∀ q : Fin 4096, q.val < 512 * (t.val + 1) → z ≤ g q := by
  rw [le_min_iff, hA, le_iInf_iff]
  constructor
  · rintro ⟨h1, h2⟩ q hq
    by_cases hlt : q.val < 512 * t.val
    · exact h1 q hlt
    · obtain ⟨s, rfl⟩ := col_split t q hq hlt
      exact h2 s
  · intro h
    refine ⟨fun q hq => h q (by omega), fun s => h _ ?_⟩
    show 512 * t.val + s.val < 512 * (t.val + 1)
    have := s.isLt
    omega

/-- Upper bounds after one more tile. -/
theorem upper_step (g : Fin 4096 → EReal) (t : Fin 8) (A : EReal)
    (hA : ∀ z : EReal, A ≤ z ↔ ∀ q : Fin 4096, q.val < 512 * t.val → g q ≤ z) (z : EReal) :
    max A (⨆ s : Fin 512, g (gRow t s)) ≤ z ↔ ∀ q : Fin 4096, q.val < 512 * (t.val + 1) → g q ≤ z := by
  rw [max_le_iff, hA, iSup_le_iff]
  constructor
  · rintro ⟨h1, h2⟩ q hq
    by_cases hlt : q.val < 512 * t.val
    · exact h1 q hlt
    · obtain ⟨s, rfl⟩ := col_split t q hq hlt
      exact h2 s
  · intro h
    refine ⟨fun q hq => h q (by omega), fun s => h _ ?_⟩
    show 512 * t.val + s.val < 512 * (t.val + 1)
    have := s.isLt
    omega

/-- The two columns start at +∞ and -∞. -/
theorem init0_fst (r : Fin 512) : init0.1 (ix2 r (0 : Fin 1)) = (⊤ : EReal) := by
  show k0_pay2 (F := Ideal) (ix2 r (0 : Fin 1)) = ⊤
  unfold k0_pay2
  simp only [shapeCast_self]
  exact Cert.RefSide.ofBits_posInf
theorem init0_snd (r : Fin 512) : init0.2 (ix2 r (0 : Fin 1)) = (⊥ : EReal) := by
  show k0_pay3 (F := Ideal) (ix2 r (0 : Fin 1)) = ⊥
  unfold k0_pay3
  simp only [shapeCast_self]
  exact Cert.RefSide.ofBits_negInf

section Rows

variable (x : Fin 4096 → Fin 1024 → EReal) (lab : Fin 4096 → BitVec 32)
  (Fm : Vec Ideal S4096x1024 .bf16) (Lc : Vec Ideal S4096x1 .i32) (Lr : Vec Ideal S1x4096 .i32)
  (hF : ∀ p k, Fm (ix2 p k) = Cert.Loss.feat x p k) (hLc : ∀ p, Lc (ix2 p (0 : Fin 1)) = lab p)
  (hLr : ∀ q, Lr (ix2 (0 : Fin 1) q) = lab q)

include hF hLc hLr

/-- The running least positive similarity after column tiles 0 … j, by its lower bounds. -/
theorem acc0_fst_bounds (i : Fin 8) (r : Fin 512) : ∀ j : ℕ, j < 8 → ∀ z : EReal,
    (z ≤ (acc0 Fm Lc Lr i j).1 (ix2 r (0 : Fin 1))
      ↔ ∀ q : Fin 4096, q.val < 512 * (j + 1) → z ≤ posTerm x lab (gRow i r) q)
  | 0, _, z => by
    show z ≤ (step0 (featBlk Fm i) (featBlk Fm (tileOf 0)) (labColBlk Lc i) (labRowBlk Lr (tileOf 0)) init0).1 (ix2 r (0 : Fin 1)) ↔ _
    rw [step0_fst x lab Fm Lc Lr hF hLc hLr, init0_fst]
    exact lower_step (posTerm x lab (gRow i r)) (tileOf 0) ⊤
      (fun z => ⟨fun _ q hq => absurd hq (by show ¬ q.val < 512 * 0; omega), fun _ => le_top⟩) z
  | j + 1, hj, z => by
    show z ≤ (step0 (featBlk Fm i) (featBlk Fm (tileOf (j + 1))) (labColBlk Lc i) (labRowBlk Lr (tileOf (j + 1)))
      (acc0 Fm Lc Lr i j)).1 (ix2 r (0 : Fin 1)) ↔ _
    rw [step0_fst x lab Fm Lc Lr hF hLc hLr]
    have ih := acc0_fst_bounds i r j (by omega)
    have hv : (tileOf (j + 1)).val = j + 1 := tileOf_val (j + 1) hj
    have h := lower_step (posTerm x lab (gRow i r)) (tileOf (j + 1)) ((acc0 Fm Lc Lr i j).1 (ix2 r (0 : Fin 1)))
      (fun z => by rw [hv]; exact ih z) z
    rw [hv] at h
    exact h

/-- The running greatest negative similarity after column tiles 0 … j, by its upper bounds. -/
theorem acc0_snd_bounds (i : Fin 8) (r : Fin 512) : ∀ j : ℕ, j < 8 → ∀ z : EReal,
    ((acc0 Fm Lc Lr i j).2 (ix2 r (0 : Fin 1)) ≤ z
      ↔ ∀ q : Fin 4096, q.val < 512 * (j + 1) → negTerm x lab (gRow i r) q ≤ z)
  | 0, _, z => by
    show (step0 (featBlk Fm i) (featBlk Fm (tileOf 0)) (labColBlk Lc i) (labRowBlk Lr (tileOf 0)) init0).2 (ix2 r (0 : Fin 1)) ≤ z ↔ _
    rw [step0_snd x lab Fm Lc Lr hF hLc hLr, init0_snd]
    exact upper_step (negTerm x lab (gRow i r)) (tileOf 0) ⊥
      (fun z => ⟨fun _ q hq => absurd hq (by show ¬ q.val < 512 * 0; omega), fun _ => bot_le⟩) z
  | j + 1, hj, z => by
    show (step0 (featBlk Fm i) (featBlk Fm (tileOf (j + 1))) (labColBlk Lc i) (labRowBlk Lr (tileOf (j + 1)))
      (acc0 Fm Lc Lr i j)).2 (ix2 r (0 : Fin 1)) ≤ z ↔ _
    rw [step0_snd x lab Fm Lc Lr hF hLc hLr]
    have ih := acc0_snd_bounds i r j (by omega)
    have hv : (tileOf (j + 1)).val = j + 1 := tileOf_val (j + 1) hj
    have h := upper_step (negTerm x lab (gRow i r)) (tileOf (j + 1)) ((acc0 Fm Lc Lr i j).2 (ix2 r (0 : Fin 1)))
      (fun z => by rw [hv]; exact ih z) z
    rw [hv] at h
    exact h

/-- After the last column tile the running least positive similarity of row r of row tile i is the
    specification's, the infimum over the whole row. -/
theorem acc0_last_fst (i : Fin 8) (r : Fin 512) :
    (acc0 Fm Lc Lr i 7).1 (ix2 r (0 : Fin 1)) = Cert.Loss.minPos x lab (gRow i r) := by
  refine Cert.LibMinBounds.eq_of_forall_le_iff fun z => ?_
  rw [acc0_fst_bounds x lab Fm Lc Lr hF hLc hLr i r 7 (by omega) z]
  unfold Cert.Loss.minPos
  rw [le_iInf_iff]
  exact ⟨fun h q => h q (by have := q.isLt; omega), fun h q _ => h q⟩

/-- After the last column tile the running greatest negative similarity of row r of row tile i is the
    specification's, the supremum over the whole row. -/
theorem acc0_last_snd (i : Fin 8) (r : Fin 512) :
    (acc0 Fm Lc Lr i 7).2 (ix2 r (0 : Fin 1)) = Cert.Loss.maxNeg x lab (gRow i r) := by
  refine eq_of_forall_ge_iff fun z => ?_
  rw [acc0_snd_bounds x lab Fm Lc Lr hF hLc hLr i r 7 (by omega) z]
  unfold Cert.Loss.maxNeg
  rw [iSup_le_iff]
  exact ⟨fun h q => h q (by have := q.isLt; omega), fun h q _ => h q⟩

/-- Both columns of row tile i after the last column tile, as whole columns. -/
theorem acc0_last (i : Fin 8) :
    acc0 Fm Lc Lr i 7
      = (fun y => Cert.Loss.minPos x lab (⟨512 * i.val + (y 0).val, by have h : (y 0).val < 512 := (y 0).isLt; have := i.isLt; omega⟩ : Fin 4096),
         fun y => Cert.Loss.maxNeg x lab (⟨512 * i.val + (y 0).val, by have h : (y 0).val < 512 := (y 0).isLt; have := i.isLt; omega⟩ : Fin 4096)) := by
  refine Prod.ext (funext fun y => ?_) (funext fun y => ?_)
  · obtain ⟨r, u, rfl⟩ : ∃ (r : Fin 512) (u : Fin 1), y = ix2 r u := ⟨y 0, y 1, eq_ix2 y⟩
    obtain rfl : u = 0 := Subsingleton.elim _ _
    exact acc0_last_fst x lab Fm Lc Lr hF hLc hLr i r
  · obtain ⟨r, u, rfl⟩ : ∃ (r : Fin 512) (u : Fin 1), y = ix2 r u := ⟨y 0, y 1, eq_ix2 y⟩
    obtain rfl : u = 0 := Subsingleton.elim _ _
    exact acc0_last_snd x lab Fm Lc Lr hF hLc hLr i r

end Rows

end Cert.KernelIdeal.Tile

end
-- ==== Proof.KI.Pass2Tile.lean ====
/-
  One column tile of the second pass, read at an index. Over a row tile's features a, a column tile's features b,
  their labels la (a column) and lb (a row) and the row tile's least positive and greatest negative similarity
  mn and mx (columns): the tile's similarity at (r, s) is the inner product of row r of a and row s of b; the
  masks, the selected negatives and positives and the two exponential terms are those of the specification with
  this similarity; the two sums grow by the row's sum over the tile's 512 columns; each "something was selected"
  column becomes the maximum of itself and of the row's bits read as 0 or 1; the row's loss is chosen by the two
  columns being positive.
-/
import proofs.«136741_j45509473469192_1_alg».proof.Proof.KI.Tile
import proofs.«136741_j45509473469192_1_alg».proof.Proof.LibMatmulNT
import proofs.«136741_j45509473469192_1_alg».proof.Proof.LibKeepdims
import proofs.«136741_j45509473469192_1_alg».proof.Proof.Ref.RefFolds
import Idealize.ShloMosaic.Lib.ValueLayout
import Idealize.ShloMosaic.Lib.Pipeline.Value
import Idealize.ShloMosaic.PureOps.Ideal.Laws

noncomputable section

open scoped BigOperators

namespace Cert.KernelIdeal.Tile.Pass2
open Cert.KernelIdeal Cert.KernelIdeal.Gen
open Idealize.ShloMosaic Idealize.ShloMosaic.ValueIdx
open Cert.Loss

/-! ## The tile's quantities -/

/-- The similarity of row r of the row tile and row s of the column tile. -/
def tsim (a b : Vec Ideal S512x1024 .bf16) (r s : Fin 512) : EReal := ∑ k : Fin 1024, a (ix2 r k) * b (ix2 s k)
/-- "The two rows carry one label". -/
def tsame (la : Vec Ideal S512x1 .i32) (lb : Vec Ideal S1x512 .i32) (r s : Fin 512) : BitVec 1 :=
  IntOp.cmpi .eq (la (ix2 r (0 : Fin 1))) (lb (ix2 (0 : Fin 1) s))
/-- The positives' mask. -/
def tposM (a b : Vec Ideal S512x1024 .bf16) (la : Vec Ideal S512x1 .i32) (lb : Vec Ideal S1x512 .i32) (r s : Fin 512) : BitVec 1 :=
  tsame la lb r s &&& Ideal.cmp .olt (tsim a b r s) cThr
/-- The negatives' mask. -/
def tnegM (la : Vec Ideal S512x1 .i32) (lb : Vec Ideal S1x512 .i32) (r s : Fin 512) : BitVec 1 := ~~~ tsame la lb r s
/-- The selected negatives. -/
def tnegSel (a b : Vec Ideal S512x1024 .bf16) (la : Vec Ideal S512x1 .i32) (lb : Vec Ideal S1x512 .i32) (mn : Col)
    (r s : Fin 512) : BitVec 1 :=
  tnegM la lb r s &&& Ideal.cmp .ogt (tsim a b r s + cMargin) (mn (ix2 r (0 : Fin 1)))
/-- The selected positives. -/
def tposSel (a b : Vec Ideal S512x1024 .bf16) (la : Vec Ideal S512x1 .i32) (lb : Vec Ideal S1x512 .i32) (mx : Col)
    (r s : Fin 512) : BitVec 1 :=
  tposM a b la lb r s &&& Ideal.cmp .olt (tsim a b r s - cMargin) (mx (ix2 r (0 : Fin 1)))

/-- A one-bit word widened to 32 bits and converted to a float: 1 or 0. -/
def bitv (x : BitVec 1) : EReal := FloatOps.sitofp (F := Ideal) .f32 (x.setWidth 32)

theorem bitv_eq (x : BitVec 1) : bitv x = if x = 1#1 then (1 : EReal) else 0 := by
  rcases BitVec.eq_zero_or_eq_one x with rfl | rfl
  · show ((((0#1 : BitVec 1).setWidth 32).toInt : ℝ) : EReal) = _
    rw [show ((0#1 : BitVec 1).setWidth 32).toInt = 0 by decide, if_neg (by decide)]
    simp
  · show ((((1#1 : BitVec 1).setWidth 32).toInt : ℝ) : EReal) = _
    rw [show ((1#1 : BitVec 1).setWidth 32).toInt = 1 by decide, if_pos rfl]
    simp

/-- The bit is 1 exactly when its float is positive. -/
theorem bitv_pos (x : BitVec 1) : 0 < bitv x ↔ x = 1#1 := by
  rw [bitv_eq]
  by_cases h : x = 1#1
  · rw [if_pos h]; exact ⟨fun _ => h, fun _ => zero_lt_one⟩
  · rw [if_neg h]; exact ⟨fun h0 => absurd h0 (lt_irrefl _), fun h1 => absurd h1 h⟩

/-- "Exclusive or" with the true bit is the complement. -/
theorem xori_one (x : BitVec 1) : IntOp.xori x 1#1 = ~~~ x := by revert x; decide

/-! ## The similarity, the masks and the selections of the tile -/

theorem pay7_apply (a b : Vec Ideal S512x1024 .bf16) (r s : Fin 512) : k1_pay7 (F := Ideal) a b (ix2 r s) = tsim a b r s := by
  show FloatOps.matmul (F := Ideal) dot_S512x1024_S512x1024_S512x512_1_1_0_0_n_n none
    (shapeCast S512x1024 a shapeCasts_S512x1024_S512x1024 : FVec Ideal S512x1024 .bf16)
    (shapeCast S512x1024 b shapeCasts_S512x1024_S512x1024 : FVec Ideal S512x1024 .bf16)
    (constant S512x512 .f32 0x00000000#32) (ix2 r s) = _
  rw [shapeCast_self, shapeCast_self]
  exact matmul_transposedRhs_zero_apply 512 1024 512 none a b r s

theorem pay8_apply (la : Vec Ideal S512x1 .i32) (lb : Vec Ideal S1x512 .i32) (r s : Fin 512) :
    k1_pay8 (F := Ideal) la lb (ix2 r s) = tsame la lb r s := by
  show IntOp.cmpi .eq
    (broadcastTo S512x512 (shapeCast S512x1 la shapeCasts_S512x1_S512x1) broadcasts_S512x1_S512x512 (ix2 r s))
    (broadcastTo S512x512 (shapeCast S1x512 lb shapeCasts_S1x512_S1x512) broadcasts_S1x512_S512x512 (ix2 r s)) = _
  rw [shapeCast_self, shapeCast_self, broadcastTo_a1_ab_apply, broadcastTo_1b_ab_apply]
  rfl

theorem pay9_apply (a b : Vec Ideal S512x1024 .bf16) (la : Vec Ideal S512x1 .i32) (lb : Vec Ideal S1x512 .i32) (mn : Col)
    (r s : Fin 512) : k1_pay9 (F := Ideal) a b la lb mn (ix2 r s) = tnegSel a b la lb mn r s := by
  show IntOp.andi (IntOp.xori (k1_pay8 (F := Ideal) la lb (ix2 r s)) 1#1)
    (FloatOps.cmpf .ogt (FloatOps.addf (k1_pay7 (F := Ideal) a b (ix2 r s)) (Ideal.ofBits .f32 0x3DCCCCCD#32))
      (broadcastTo S512x512 (shapeCast S512x1 mn shapeCasts_S512x1_S512x1) broadcasts_S512x1_S512x512 (ix2 r s))) = _
  rw [pay8_apply, pay7_apply, shapeCast_self, broadcastTo_a1_ab_apply, xori_one]
  rfl

theorem pay10_apply (a b : Vec Ideal S512x1024 .bf16) (la : Vec Ideal S512x1 .i32) (lb : Vec Ideal S1x512 .i32) (mx : Col)
    (r s : Fin 512) : k1_pay10 (F := Ideal) a b la lb mx (ix2 r s) = tposSel a b la lb mx r s := by
  show IntOp.andi
    (IntOp.andi (k1_pay8 (F := Ideal) la lb (ix2 r s))
      (FloatOps.cmpf .olt (k1_pay7 (F := Ideal) a b (ix2 r s)) (Ideal.ofBits .f32 0x3F7FFF58#32)))
    (FloatOps.cmpf .olt (FloatOps.subf (k1_pay7 (F := Ideal) a b (ix2 r s)) (Ideal.ofBits .f32 0x3DCCCCCD#32))
      (broadcastTo S512x512 (shapeCast S512x1 mx shapeCasts_S512x1_S512x1) broadcasts_S512x1_S512x512 (ix2 r s))) = _
  rw [pay8_apply, pay7_apply, shapeCast_self, broadcastTo_a1_ab_apply]
  rfl

theorem pay11_apply (a b : Vec Ideal S512x1024 .bf16) (r s : Fin 512) :
    k1_pay11 (F := Ideal) a b (ix2 r s) = tsim a b r s - cHalf := by
  show FloatOps.subf (k1_pay7 (F := Ideal) a b (ix2 r s)) (Ideal.ofBits .f32 0x3F000000#32) = _
  rw [pay7_apply]
  rfl

theorem pay12_apply (i : S512x512.Idx) : k1_pay12 (F := Ideal) i = cPosScale := rfl

/-! ## A column plus, or joined with, the row reduction of a tile -/

/-- A column plus the row sums of a 512 × 512 tile, at row r. -/
theorem keep_add_apply (v : Col) (m : FVec Ideal S512x512 .f32) (r : Fin 512) :
    shapeCast S512x1 (addf v (shapeCast S512x1
        (multiReduction .add [1] S512 m 0x00000000#32 reduces_S512x512_S512 (.inl rfl) rfl) shapeCasts_S512_S512x1))
      shapeCasts_S512x1_S512x1 (ix2 r (0 : Fin 1))
      = v (ix2 r (0 : Fin 1)) + ∑ s : Fin 512, m (ix2 r s) := by
  rw [shapeCast_self]
  refine congrArg (v (ix2 r (0 : Fin 1)) + ·) ?_
  refine (shapeCast_a_a1_apply _ shapeCasts_S512_S512x1 r 0).trans ?_
  exact multiReduction_add_rows_apply m _ reduces_S512x512_S512 _ _ r

/-- A column joined with the row maxima (from -∞) of a 512 × 512 tile, at row r. -/
theorem keep_max_apply (v : Col) (m : FVec Ideal S512x512 .f32) (r : Fin 512) :
    shapeCast S512x1 (maximumf v (shapeCast S512x1
        (multiReduction .maximumf [1] S512 m 0xFF800000#32 reduces_S512x512_S512 (.inl rfl) rfl) shapeCasts_S512_S512x1))
      shapeCasts_S512x1_S512x1 (ix2 r (0 : Fin 1))
      = max (v (ix2 r (0 : Fin 1))) ((Finset.univ : Finset (Fin 512)).fold max (⊥ : EReal) (fun s => m (ix2 r s))) := by
  rw [shapeCast_self]
  refine congrArg (max (v (ix2 r (0 : Fin 1)))) ?_
  refine (shapeCast_a_a1_apply _ shapeCasts_S512_S512x1 r 0).trans ?_
  refine (multiReduction_maximumf_rows_apply m _ reduces_S512x512_S512 _ _ r).trans ?_
  rw [Cert.RefSide.ofBits_negInf]

/-! ## The four columns after one more tile, and the rows' losses -/

theorem pay13_apply (v32 : IVec S512x512 1) (v34 v35 : FVec Ideal S512x512 .f32) (v : Col) (r : Fin 512) :
    k1_pay13 (F := Ideal) v32 v34 v35 v (ix2 r (0 : Fin 1))
      = v (ix2 r (0 : Fin 1))
        + ∑ s : Fin 512, Scalar.select (v32 (ix2 r s)) (Ideal.exp (v35 (ix2 r s) * v34 (ix2 r s))) (0 : EReal) := by
  refine (keep_add_apply v _ r).trans ?_
  refine congrArg (v (ix2 r (0 : Fin 1)) + ·) (Finset.sum_congr rfl fun s _ => ?_)
  show Scalar.select (v32 (ix2 r s)) (Ideal.exp (v35 (ix2 r s) * v34 (ix2 r s))) (Ideal.ofBits .f32 0x00000000#32) = _
  rw [Ideal.ofBits_zero_f32]

theorem pay14_apply (v7 : FVec Ideal S512x512 .f32) (v25 : IVec S512x512 1) (v : Col) (r : Fin 512) :
    k1_pay14 (F := Ideal) v7 v25 v (ix2 r (0 : Fin 1))
      = v (ix2 r (0 : Fin 1))
        + ∑ s : Fin 512, Scalar.select (v25 (ix2 r s)) (Ideal.exp (cNegScale * (v7 (ix2 r s) - cHalf))) (0 : EReal) := by
  refine (keep_add_apply v _ r).trans ?_
  refine congrArg (v (ix2 r (0 : Fin 1)) + ·) (Finset.sum_congr rfl fun s _ => ?_)
  show Scalar.select (v25 (ix2 r s)) (Ideal.exp (cNegScale * (v7 (ix2 r s) - cHalf))) (Ideal.ofBits .f32 0x00000000#32) = _
  rw [Ideal.ofBits_zero_f32]

theorem pay15_apply (v32 : IVec S512x512 1) (v : Col) (r : Fin 512) :
    k1_pay15 (F := Ideal) v32 v (ix2 r (0 : Fin 1))
      = max (v (ix2 r (0 : Fin 1))) ((Finset.univ : Finset (Fin 512)).fold max (⊥ : EReal) (fun s => bitv (v32 (ix2 r s)))) :=
  keep_max_apply v _ r

theorem pay1_apply (v25 : IVec S512x512 1) (v : Col) (r : Fin 512) :
    k1_pay1 (F := Ideal) v (k1_pay16 v25) (ix2 r (0 : Fin 1))
      = max (v (ix2 r (0 : Fin 1))) ((Finset.univ : Finset (Fin 512)).fold max (⊥ : EReal) (fun s => bitv (v25 (ix2 r s)))) :=
  keep_max_apply v _ r

theorem pay2_apply (s1 s2 s3 s4 : Col) (r : Fin 512) :
    k1_pay2 (F := Ideal) s1 s2 s3 s4 (ix2 r (0 : Fin 1))
      = Scalar.select (Ideal.cmp .ogt (s3 (ix2 r (0 : Fin 1))) 0 &&& Ideal.cmp .ogt (s4 (ix2 r (0 : Fin 1))) 0)
          (Ideal.div (Ideal.log1p (s1 (ix2 r (0 : Fin 1)))) cTwo + Ideal.div (Ideal.log1p (s2 (ix2 r (0 : Fin 1)))) cNegScale)
          (0 : EReal) := by
  show Scalar.select
      (IntOp.andi (Ideal.cmp .ogt (s3 (ix2 r (0 : Fin 1))) (Ideal.ofBits .f32 0x00000000#32))
        (Ideal.cmp .ogt (s4 (ix2 r (0 : Fin 1))) (Ideal.ofBits .f32 0x00000000#32)))
      (Ideal.div (Ideal.log1p (s1 (ix2 r (0 : Fin 1)))) cTwo + Ideal.div (Ideal.log1p (s2 (ix2 r (0 : Fin 1)))) cNegScale)
      (Ideal.ofBits .f32 0x00000000#32) = _
  rw [Ideal.ofBits_zero_f32]
  rfl

/-- The four columns start at zero. -/
theorem init1_apply (i : S512x1.Idx) :
    init1.1 i = (0 : EReal) ∧ init1.2.1 i = (0 : EReal) ∧ init1.2.2.1 i = (0 : EReal) ∧ init1.2.2.2 i = (0 : EReal) := by
  have h : ∀ j : S512x1.Idx,
      shapeCast S512x1 (broadcast S512x1 (Ideal.ofBits .f32 0x00000000#32)) shapeCasts_S512x1_S512x1 j = (0 : EReal) := by
    intro j; rw [shapeCast_self]; exact Ideal.ofBits_zero_f32
  exact ⟨h i, h i, h i, h i⟩

end Cert.KernelIdeal.Tile.Pass2
end
-- ==== Proof.LibBlockSum.lean ====
/-
  Sums cut into consecutive blocks.

  A sum of `n * b` terms of a commutative additive monoid, indexed by `Fin (n * b)`, is the sum over the
  `n` consecutive blocks of length `b` of each block's sum: term `p * b + q` is term `q` of block `p`.
  No subtraction and no cancellation is used, so the law holds on the extended reals with their
  infinities as it does on the reals.
-/
import Mathlib.Algebra.BigOperators.Fin
import Mathlib.Logic.Equiv.Fin.Basic

namespace BlockSum

variable {M : Type*} [AddCommMonoid M]

/-- Position `q` of block `p`, as a position among all `n * b` terms. -/
def pos {n b : ℕ} (p : Fin n) (q : Fin b) : Fin (n * b) :=
  ⟨p.val * b + q.val, by
    have hp : p.val + 1 ≤ n := p.isLt
    calc p.val * b + q.val < p.val * b + b := Nat.add_lt_add_left q.isLt _
      _ = (p.val + 1) * b := (Nat.succ_mul _ _).symm
      _ ≤ n * b := Nat.mul_le_mul_right b hp⟩

@[simp] theorem pos_val {n b : ℕ} (p : Fin n) (q : Fin b) : (pos p q).val = p.val * b + q.val := rfl

/-- Every position is position `k % b` of block `k / b`, and of no other. -/
def posEquiv (n b : ℕ) : Fin n × Fin b ≃ Fin (n * b) where
  toFun x := pos x.1 x.2
  invFun k :=
    have hb : 0 < b := Nat.pos_of_ne_zero fun h => by
      have := k.isLt; simp [h] at this
    (⟨k.val / b, Nat.div_lt_of_lt_mul (Nat.mul_comm n b ▸ k.isLt)⟩, ⟨k.val % b, Nat.mod_lt _ hb⟩)
  left_inv := by
    rintro ⟨p, q⟩
    have hb : 0 < b := Nat.pos_of_ne_zero fun h => by
      have := q.isLt; simp [h] at this
    refine Prod.ext (Fin.ext ?_) (Fin.ext ?_)
    · show (p.val * b + q.val) / b = p.val
      rw [Nat.mul_comm, Nat.mul_add_div hb, Nat.div_eq_of_lt q.isLt, Nat.add_zero]
    · show (p.val * b + q.val) % b = q.val
      rw [Nat.mul_comm, Nat.mul_add_mod, Nat.mod_eq_of_lt q.isLt]
  right_inv := by
    intro k
    refine Fin.ext ?_
    show k.val / b * b + k.val % b = k.val
    rw [Nat.mul_comm]; exact Nat.div_add_mod _ _

/-- The whole sum is the sum of the blocks' sums. -/
theorem sum_blocks (n b : ℕ) (f : Fin (n * b) → M) :
    ∑ k : Fin (n * b), f k = ∑ p : Fin n, ∑ q : Fin b, f (pos p q) := by
  rw [← Fintype.sum_prod_type (f := fun x : Fin n × Fin b => f (pos x.1 x.2))]
  exact (Equiv.sum_comp (posEquiv n b) f).symm

/-- The same with the blocks counted by a range of naturals: `g p` is block `p`'s sum wherever `p < n`. -/
theorem sum_blocks_range (n b : ℕ) (f : Fin (n * b) → M) (g : ℕ → M)
    (hg : ∀ p : Fin n, g p.val = ∑ q : Fin b, f (pos p q)) :
    ∑ k : Fin (n * b), f k = ∑ p ∈ Finset.range n, g p := by
  rw [sum_blocks, Finset.sum_range]
  exact Finset.sum_congr rfl fun p _ => (hg p).symm

end BlockSum
-- ==== Proof.KI.Pass2Math.lean ====
/-
  The second pass over a row tile. Each block read at an index is the whole array at the shifted index, so, when
  the arrays hold the specification's normalised features, labels and per-row least positive and greatest
  negative similarity, a column tile's similarity and selections are the specification's at row 512 i + r and
  column 512 j + s. After column tiles 0 … n-1 the first two columns hold the two exponential sums over the
  columns of those tiles, and each of the last two is positive exactly when one of those columns was selected.
  The 8 tiles of 512 columns are the whole row (a sum of 8 · 512 terms is the sum of its 8 consecutive blocks;
  addition on the extended reals is commutative and associative, so nothing needs to be finite), and the rows'
  losses computed from the four columns are the specification's.
-/
import proofs.«136741_j45509473469192_1_alg».proof.Proof.KI.Pass2Tile
import proofs.«136741_j45509473469192_1_alg».proof.Proof.LibBlockSum

noncomputable section

open scoped BigOperators

namespace Cert.KernelIdeal.Tile.Pass2
open Cert.KernelIdeal Cert.KernelIdeal.Gen
open Idealize.ShloMosaic Idealize.ShloMosaic.ValueIdx
open Cert.Loss

/-! ## Rows and columns of the whole matrix, by tile -/

/-- Row r of tile i. -/
def rowOf (i : Fin 8) (r : Fin 512) : Fin 4096 := ⟨512 * i.val + r.val, by have := i.isLt; have := r.isLt; omega⟩
/-- Column s of the column tile numbered jj (modulo 8). -/
def colOf (jj : ℕ) (s : Fin 512) : Fin 4096 := rowOf (tileOf jj) s

theorem featBlk_apply (A : Vec Ideal S4096x1024 .bf16) (i : Fin 8) (r : Fin 512) (k : Fin 1024) :
    featBlk A i (ix2 r k) = A (ix2 (rowOf i r) k) := rfl
theorem labColBlk_apply (A : Vec Ideal S4096x1 .i32) (i : Fin 8) (r : Fin 512) :
    labColBlk A i (ix2 r (0 : Fin 1)) = A (ix2 (rowOf i r) (0 : Fin 1)) := rfl
theorem labRowBlk_apply (A : Vec Ideal S1x4096 .i32) (j : Fin 8) (s : Fin 512) :
    labRowBlk A j (ix2 (0 : Fin 1) s) = A (ix2 (0 : Fin 1) (rowOf j s)) := rfl
theorem colBlk_apply (A : Vec Ideal S4096x1 .f32) (i : Fin 8) (r : Fin 512) :
    colBlk A i (ix2 r (0 : Fin 1)) = A (ix2 (rowOf i r) (0 : Fin 1)) := rfl

/-- A sum over the 8 tiles of 512 columns is the sum over the whole row. -/
theorem sum_tiles (f : Fin 4096 → EReal) :
    ∑ jj ∈ Finset.range 8, ∑ s : Fin 512, f (colOf jj s) = ∑ q : Fin 4096, f q := by
  have h : 8 * 512 = 4096 := by norm_num
  rw [Finset.sum_range (fun jj => ∑ s : Fin 512, f (colOf jj s)), ← Equiv.sum_comp (finCongr h) f,
    BlockSum.sum_blocks 8 512 (fun k => f (finCongr h k))]
  refine Finset.sum_congr rfl fun p _ => Finset.sum_congr rfl fun s _ => congrArg f (Fin.ext ?_)
  show 512 * (p.val % 8) + s.val = p.val * 512 + s.val
  have := p.isLt
  omega

/-- Some column of the 8 tiles has a property exactly when some column of the row has it. -/
theorem exists_tiles (P : Fin 4096 → Prop) : (∃ jj < 8, ∃ s : Fin 512, P (colOf jj s)) ↔ ∃ q, P q := by
  constructor
  · rintro ⟨jj, _, s, h⟩
    exact ⟨_, h⟩
  · rintro ⟨q, h⟩
    have hq := q.isLt
    refine ⟨q.val / 512, by omega, ⟨q.val % 512, Nat.mod_lt _ (by decide)⟩, ?_⟩
    have e : colOf (q.val / 512) ⟨q.val % 512, Nat.mod_lt _ (by decide)⟩ = q :=
      Fin.ext (by show 512 * ((q.val / 512) % 8) + q.val % 512 = q.val; omega)
    rw [e]
    exact h

/-- A comparison "greater than" is the true bit exactly when the order says so. -/
theorem cmp_ogt_eq_one (u v : EReal) : Ideal.cmp .ogt u v = 1#1 ↔ v < u := by
  show BitVec.ofBool (decide (v < u)) = 1#1 ↔ v < u
  by_cases h : v < u
  · simp [h]
  · simp [h]

section Arrays

variable (x : Fin 4096 → Fin 1024 → EReal) (lab : Fin 4096 → BitVec 32)
  (Fm : Vec Ideal S4096x1024 .bf16) (Lc : Vec Ideal S4096x1 .i32) (Lr : Vec Ideal S1x4096 .i32)
  (Mn Mx : Vec Ideal S4096x1 .f32)

/-- The positives' term of the pair (p, q). -/
def posT (p q : Fin 4096) : EReal :=
  Scalar.select (posSel x lab p q) (Ideal.exp (cPosScale * (sim x p q - cHalf))) 0
/-- The negatives' term of the pair (p, q). -/
def negT (p q : Fin 4096) : EReal :=
  Scalar.select (negSel x lab p q) (Ideal.exp (cNegScale * (sim x p q - cHalf))) 0

/-! ## A tile's quantities are the specification's at the shifted indices -/

theorem tsim_blk (hF : ∀ p k, Fm (ix2 p k) = feat x p k) (i j : Fin 8) (r s : Fin 512) :
    tsim (featBlk Fm i) (featBlk Fm j) r s = sim x (rowOf i r) (rowOf j s) := by
  unfold tsim sim
  refine Finset.sum_congr rfl fun k _ => ?_
  rw [featBlk_apply, featBlk_apply, hF, hF]

theorem tsame_blk (hLc : ∀ p, Lc (ix2 p (0 : Fin 1)) = lab p) (hLr : ∀ q, Lr (ix2 (0 : Fin 1) q) = lab q)
    (i j : Fin 8) (r s : Fin 512) :
    tsame (labColBlk Lc i) (labRowBlk Lr j) r s = same lab (rowOf i r) (rowOf j s) := by
  unfold tsame same
  rw [labColBlk_apply, labRowBlk_apply, hLc, hLr]

theorem tposSel_blk (hF : ∀ p k, Fm (ix2 p k) = feat x p k) (hLc : ∀ p, Lc (ix2 p (0 : Fin 1)) = lab p)
    (hLr : ∀ q, Lr (ix2 (0 : Fin 1) q) = lab q) (hMx : ∀ p, Mx (ix2 p (0 : Fin 1)) = maxNeg x lab p)
    (i j : Fin 8) (r s : Fin 512) :
    tposSel (featBlk Fm i) (featBlk Fm j) (labColBlk Lc i) (labRowBlk Lr j) (colBlk Mx i) r s
      = posSel x lab (rowOf i r) (rowOf j s) := by
  unfold tposSel tposM posSel posM
  rw [tsim_blk x Fm hF, tsame_blk lab Lc Lr hLc hLr, colBlk_apply, hMx]

theorem tnegSel_blk (hF : ∀ p k, Fm (ix2 p k) = feat x p k) (hLc : ∀ p, Lc (ix2 p (0 : Fin 1)) = lab p)
    (hLr : ∀ q, Lr (ix2 (0 : Fin 1) q) = lab q) (hMn : ∀ p, Mn (ix2 p (0 : Fin 1)) = minPos x lab p)
    (i j : Fin 8) (r s : Fin 512) :
    tnegSel (featBlk Fm i) (featBlk Fm j) (labColBlk Lc i) (labRowBlk Lr j) (colBlk Mn i) r s
      = negSel x lab (rowOf i r) (rowOf j s) := by
  unfold tnegSel tnegM negSel negM
  rw [tsim_blk x Fm hF, tsame_blk lab Lc Lr hLc hLr, colBlk_apply, hMn]

/-! ## The four columns after column tiles 0 … n-1 -/

/-- What the four columns of row tile i hold after column tiles 0 … n-1. -/
structure Inv (i : Fin 8) (n : ℕ) (st : Col × Col × Col × Col) : Prop where
  pos : ∀ r : Fin 512, st.1 (ix2 r (0 : Fin 1))
    = ∑ jj ∈ Finset.range n, ∑ s : Fin 512, posT x lab (rowOf i r) (colOf jj s)
  neg : ∀ r : Fin 512, st.2.1 (ix2 r (0 : Fin 1))
    = ∑ jj ∈ Finset.range n, ∑ s : Fin 512, negT x lab (rowOf i r) (colOf jj s)
  anyPos : ∀ r : Fin 512, 0 < st.2.2.1 (ix2 r (0 : Fin 1))
    ↔ ∃ jj < n, ∃ s : Fin 512, posSel x lab (rowOf i r) (colOf jj s) = 1#1
  anyNeg : ∀ r : Fin 512, 0 < st.2.2.2 (ix2 r (0 : Fin 1))
    ↔ ∃ jj < n, ∃ s : Fin 512, negSel x lab (rowOf i r) (colOf jj s) = 1#1

/-- Before any tile the sums are empty and nothing was selected. -/
theorem inv_init (i : Fin 8) : Inv x lab i 0 init1 where
  pos r := by rw [(init1_apply _).1, Finset.sum_range_zero]
  neg r := by rw [(init1_apply _).2.1, Finset.sum_range_zero]
  anyPos r := by
    rw [(init1_apply _).2.2.1]
    exact ⟨fun h => absurd h (lt_irrefl _), fun ⟨_, h, _⟩ => absurd h (Nat.not_lt_zero _)⟩
  anyNeg r := by
    rw [(init1_apply _).2.2.2]
    exact ⟨fun h => absurd h (lt_irrefl _), fun ⟨_, h, _⟩ => absurd h (Nat.not_lt_zero _)⟩

/-- "Selected in tiles 0 … n-1, or in tile n" is "selected in tiles 0 … n". -/
theorem exists_succ (n : ℕ) (P : ℕ → Fin 512 → Prop) :
    ((∃ jj < n, ∃ s, P jj s) ∨ ∃ s, P n s) ↔ ∃ jj < n + 1, ∃ s, P jj s := by
  constructor
  · rintro (⟨jj, hjj, s, h⟩ | ⟨s, h⟩)
    · exact ⟨jj, Nat.lt_succ_of_lt hjj, s, h⟩
    · exact ⟨n, Nat.lt_succ_self n, s, h⟩
  · rintro ⟨jj, hjj, s, h⟩
    rcases Nat.lt_succ_iff_lt_or_eq.mp hjj with hlt | rfl
    · exact Or.inl ⟨jj, hlt, s, h⟩
    · exact Or.inr ⟨s, h⟩

/-- A column joined with a tile's row maximum of bits is positive when it was, or when some bit of the row is 1. -/
theorem flag_step (v : EReal) (f : Fin 512 → BitVec 1) :
    0 < max v ((Finset.univ : Finset (Fin 512)).fold max (⊥ : EReal) (fun s => bitv (f s))) ↔ (0 < v ∨ ∃ s, f s = 1#1) := by
  rw [lt_max_iff, Finset.lt_fold_max]
  refine or_congr Iff.rfl ?_
  constructor
  · rintro (h | ⟨s, _, h⟩)
    · exact absurd h (not_lt_bot)
    · exact ⟨s, (bitv_pos _).mp h⟩
  · rintro ⟨s, h⟩
    exact Or.inr ⟨s, Finset.mem_univ s, (bitv_pos _).mpr h⟩

/-- One more column tile. -/
theorem inv_step (hF : ∀ p k, Fm (ix2 p k) = feat x p k) (hLc : ∀ p, Lc (ix2 p (0 : Fin 1)) = lab p)
    (hLr : ∀ q, Lr (ix2 (0 : Fin 1) q) = lab q) (hMn : ∀ p, Mn (ix2 p (0 : Fin 1)) = minPos x lab p)
    (hMx : ∀ p, Mx (ix2 p (0 : Fin 1)) = maxNeg x lab p) (i : Fin 8) (n : ℕ) (st : Col × Col × Col × Col)
    (h : Inv x lab i n st) :
    Inv x lab i (n + 1)
      (step1 (featBlk Fm i) (featBlk Fm (tileOf n)) (labColBlk Lc i) (labRowBlk Lr (tileOf n)) (colBlk Mn i) (colBlk Mx i) st) where
  pos r := by
    show k1_pay13 (F := Ideal) _ _ _ st.1 (ix2 r (0 : Fin 1)) = _
    rw [pay13_apply, h.pos r, Finset.sum_range_succ]
    refine congrArg (_ + ·) (Finset.sum_congr rfl fun s _ => ?_)
    rw [pay10_apply, pay12_apply, pay11_apply, tposSel_blk x lab Fm Lc Lr Mx hF hLc hLr hMx, tsim_blk x Fm hF]
    rfl
  neg r := by
    show k1_pay14 (F := Ideal) _ _ st.2.1 (ix2 r (0 : Fin 1)) = _
    rw [pay14_apply, h.neg r, Finset.sum_range_succ]
    refine congrArg (_ + ·) (Finset.sum_congr rfl fun s _ => ?_)
    rw [pay9_apply, pay7_apply, tnegSel_blk x lab Fm Lc Lr Mn hF hLc hLr hMn, tsim_blk x Fm hF]
    rfl
  anyPos r := by
    show 0 < k1_pay15 (F := Ideal) _ st.2.2.1 (ix2 r (0 : Fin 1)) ↔ _
    rw [pay15_apply, flag_step, h.anyPos r,
      ← exists_succ n (fun jj s => posSel x lab (rowOf i r) (colOf jj s) = 1#1)]
    refine or_congr Iff.rfl (exists_congr fun s => ?_)
    rw [pay10_apply, tposSel_blk x lab Fm Lc Lr Mx hF hLc hLr hMx]
    rfl
  anyNeg r := by
    show 0 < k1_pay1 (F := Ideal) st.2.2.2 (k1_pay16 _) (ix2 r (0 : Fin 1)) ↔ _
    rw [pay1_apply, flag_step, h.anyNeg r,
      ← exists_succ n (fun jj s => negSel x lab (rowOf i r) (colOf jj s) = 1#1)]
    refine or_congr Iff.rfl (exists_congr fun s => ?_)
    rw [pay9_apply, tnegSel_blk x lab Fm Lc Lr Mn hF hLc hLr hMn]
    rfl

/-- The four columns after column tiles 0 … j. -/
theorem acc1_inv (hF : ∀ p k, Fm (ix2 p k) = feat x p k) (hLc : ∀ p, Lc (ix2 p (0 : Fin 1)) = lab p)
    (hLr : ∀ q, Lr (ix2 (0 : Fin 1) q) = lab q) (hMn : ∀ p, Mn (ix2 p (0 : Fin 1)) = minPos x lab p)
    (hMx : ∀ p, Mx (ix2 p (0 : Fin 1)) = maxNeg x lab p) (i : Fin 8) :
    ∀ j : ℕ, Inv x lab i (j + 1) (acc1 Fm Lc Lr Mn Mx i j)
  | 0 => inv_step x lab Fm Lc Lr Mn Mx hF hLc hLr hMn hMx i 0 init1 (inv_init x lab i)
  | j + 1 => inv_step x lab Fm Lc Lr Mn Mx hF hLc hLr hMn hMx i (j + 1) _ (acc1_inv hF hLc hLr hMn hMx i j)

/-! ## The rows' losses -/

/-- The loss of row r of row tile i, after the last column tile. -/
theorem out1_last_apply (hF : ∀ p k, Fm (ix2 p k) = feat x p k) (hLc : ∀ p, Lc (ix2 p (0 : Fin 1)) = lab p)
    (hLr : ∀ q, Lr (ix2 (0 : Fin 1) q) = lab q) (hMn : ∀ p, Mn (ix2 p (0 : Fin 1)) = minPos x lab p)
    (hMx : ∀ p, Mx (ix2 p (0 : Fin 1)) = maxNeg x lab p) (i : Fin 8) (r : Fin 512) :
    out1 (acc1 Fm Lc Lr Mn Mx i 7) (ix2 r (0 : Fin 1)) = rowLoss x lab (rowOf i r) := by
  have I := acc1_inv x lab Fm Lc Lr Mn Mx hF hLc hLr hMn hMx i 7
  show k1_pay2 (F := Ideal) _ _ _ _ (ix2 r (0 : Fin 1)) = _
  rw [pay2_apply, I.pos r, I.neg r, sum_tiles, sum_tiles, Cert.RefSide.select_eq_ite]
  have hc : (Ideal.cmp .ogt ((acc1 Fm Lc Lr Mn Mx i 7).2.2.1 (ix2 r (0 : Fin 1))) 0
        &&& Ideal.cmp .ogt ((acc1 Fm Lc Lr Mn Mx i 7).2.2.2 (ix2 r (0 : Fin 1))) 0) = 1#1
      ↔ ((∃ q, posSel x lab (rowOf i r) q = 1#1) ∧ (∃ q, negSel x lab (rowOf i r) q = 1#1)) := by
    show IntOp.andi (Ideal.cmp .ogt ((acc1 Fm Lc Lr Mn Mx i 7).2.2.1 (ix2 r (0 : Fin 1))) 0)
        (Ideal.cmp .ogt ((acc1 Fm Lc Lr Mn Mx i 7).2.2.2 (ix2 r (0 : Fin 1))) 0) = 1#1 ↔ _
    rw [IntOp.andi_eq_one, cmp_ogt_eq_one, cmp_ogt_eq_one, I.anyPos r, I.anyNeg r,
      exists_tiles (fun q => posSel x lab (rowOf i r) q = 1#1), exists_tiles (fun q => negSel x lab (rowOf i r) q = 1#1)]
  unfold rowLoss
  by_cases h : (∃ q, posSel x lab (rowOf i r) q = 1#1) ∧ (∃ q, negSel x lab (rowOf i r) q = 1#1)
  · rw [if_pos h, if_pos (hc.mpr h)]
    rfl
  · rw [if_neg h, if_neg (mt hc.mp h)]

/-- The rows' losses of row tile i, after the last column tile. -/
theorem out1_last (hF : ∀ p k, Fm (ix2 p k) = feat x p k) (hLc : ∀ p, Lc (ix2 p (0 : Fin 1)) = lab p)
    (hLr : ∀ q, Lr (ix2 (0 : Fin 1) q) = lab q) (hMn : ∀ p, Mn (ix2 p (0 : Fin 1)) = minPos x lab p)
    (hMx : ∀ p, Mx (ix2 p (0 : Fin 1)) = maxNeg x lab p) (i : Fin 8) :
    out1 (acc1 Fm Lc Lr Mn Mx i 7)
      = fun y => rowLoss x lab
          ⟨512 * i.val + (y 0).val, by have h : (y 0).val < 512 := (y 0).isLt; have := i.isLt; omega⟩ := by
  funext y
  obtain ⟨r, u, rfl⟩ : ∃ (r : Fin 512) (u : Fin 1), y = ix2 r u := ⟨y 0, y 1, eq_ix2 y⟩
  obtain rfl : u = 0 := Subsingleton.elim _ _
  exact out1_last_apply x lab Fm Lc Lr Mn Mx hF hLc hLr hMn hMx i r

end Arrays

end Cert.KernelIdeal.Tile.Pass2
end
-- ==== Proof.KI.Value.lean ====
/-
  The kernel's result is the loss function of the specification. The first pass's two output arrays are, row by
  row, the least positive and the greatest negative similarity; the second pass's output array is, row by row, the
  row's loss; the last host operations sum it and divide by the number of rows.
-/
import proofs.«136741_j45509473469192_1_alg».proof.Proof.KI.Arr1
import proofs.«136741_j45509473469192_1_alg».proof.Proof.KI.Host
import proofs.«136741_j45509473469192_1_alg».proof.Proof.KI.Args
import proofs.«136741_j45509473469192_1_alg».proof.Proof.KI.Pass1Math
import proofs.«136741_j45509473469192_1_alg».proof.Proof.KI.Pass2Math
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Tile Cert.KernelIdeal.Tile.Pass2 Idealize.ShloMosaic.ValueIdx

variable (m : (ℓ : Loc nD τ sig) → Buf (Elt Ideal) ℓ) (c : Dev nD)

/-- The feature matrix and the labels of the launch, by coordinates. -/
abbrev xK : Fin 4096 → Fin 1024 → EReal := Cert.RefSide.xOf (arg0K m c)
abbrev labK : Fin 4096 → BitVec 32 := Cert.RefSide.labOf (arg1K m c)

/-- Eight columns laid one after the other, read at row `p`. -/
theorem unTile_row (f : Fin 8 → Col) (g : Fin 4096 → EReal)
    (hf : ∀ i : Fin 8, f i = fun y => g ⟨512 * i.val + (y 0).val, by have h : (y 0).val < 512 := (y 0).isLt; have := i.isLt; omega⟩)
    (p : Fin 4096) : unTile f (ix2 p 0) = g p := by
  unfold unTile
  rw [hf]
  show g ⟨512 * (p.val / 512) + p.val % 512, _⟩ = g p
  congr 1
  apply Fin.ext
  show 512 * (p.val / 512) + p.val % 512 = p.val
  omega

/-! ## The first pass -/

theorem minOut_apply (p : Fin 4096) : (minOut (W2 m) c : Vec Ideal S4096x1 .f32) (ix2 p 0) = Cert.Loss.minPos (xK m c) (labK m c) p := by
  rw [show minOut (W2 m) c = _ from minArr_eq (entryOf (W2 m)) c]
  exact unTile_row _ _ (fun i => congrArg Prod.fst (acc0_last (xK m c) (labK m c) _ _ _ (W2_feat m c) (W2_labc m c) (W2_labr m c) i)) p

theorem maxOut_apply (p : Fin 4096) : (maxOut (W2 m) c : Vec Ideal S4096x1 .f32) (ix2 p 0) = Cert.Loss.maxNeg (xK m c) (labK m c) p := by
  rw [show maxOut (W2 m) c = _ from maxArr_eq (entryOf (W2 m)) c]
  exact unTile_row _ _ (fun i => congrArg Prod.snd (acc0_last (xK m c) (labK m c) _ _ _ (W2_feat m c) (W2_labc m c) (W2_labr m c) i)) p

/-! ## The second pass -/

theorem W3_feat (p : Fin 4096) (k : Fin 1024) : (W3 m c main_v3 : Vec Ideal S4096x1024 .bf16) (ix2 p k) = Cert.Loss.feat (xK m c) p k := by
  rw [show W3 m c main_v3 = W2 m c main_v3 from exit0_of (W2 m) c main_v3 (by decide)]; exact W2_feat m c p k
theorem W3_labc (p : Fin 4096) : (W3 m c main_v4 : Vec Ideal S4096x1 .i32) (ix2 p 0) = labK m c p := by
  rw [show W3 m c main_v4 = W2 m c main_v4 from exit0_of (W2 m) c main_v4 (by decide)]; exact W2_labc m c p
theorem W3_labr (q : Fin 4096) : (W3 m c main_v5 : Vec Ideal S1x4096 .i32) (ix2 0 q) = labK m c q := by
  rw [show W3 m c main_v5 = W2 m c main_v5 from exit0_of (W2 m) c main_v5 (by decide)]; exact W2_labr m c q
theorem W3_min (p : Fin 4096) : (W3 m c main_v6_0 : Vec Ideal S4096x1 .f32) (ix2 p 0) = Cert.Loss.minPos (xK m c) (labK m c) p := by
  rw [show W3 m c main_v6_0 = minOut (W2 m) c from exit0_v6_0 (W2 m) c]; exact minOut_apply m c p
theorem W3_max (p : Fin 4096) : (W3 m c main_v6_1 : Vec Ideal S4096x1 .f32) (ix2 p 0) = Cert.Loss.maxNeg (xK m c) (labK m c) p := by
  rw [show W3 m c main_v6_1 = maxOut (W2 m) c from exit0_v6_1 (W2 m) c]; exact maxOut_apply m c p

theorem lossOut_apply (p : Fin 4096) : (lossOut (W3 m) c : Vec Ideal S4096x1 .f32) (ix2 p 0) = Cert.Loss.rowLoss (xK m c) (labK m c) p := by
  rw [show lossOut (W3 m) c = _ from lossArr_eq (entryOf (W3 m)) c]
  exact unTile_row _ _ (fun i => out1_last (xK m c) (labK m c) _ _ _ _ _ (W3_feat m c) (W3_labc m c) (W3_labr m c) (W3_min m c) (W3_max m c) i) p

/-! ## The mean -/

theorem W5_v9_eq : (W5 m c main_v9 : Vec Ideal S_ .f32)
    = (Host.divf (F := Ideal) (Host.reduceAdd (F := Ideal) (W4 m c main_v7 : Vec Ideal S4096x1 .f32) (constant (F := Ideal) S_ .f32 0x00000000#32) reducesTo_S4096x1_S_d0_1 h_S_)
        (constant (F := Ideal) S_ .f32 0x45800000#32) : Vec Ideal S_ .f32) := by
  show StableHlo.after hostOps2 (W4 m c) (Proc.devRef .tc main_v9) = _
  after_results <;> rfl

theorem sum_rows (g : Fin 4096 → EReal) (y : Vec Ideal S4096x1 .f32) (hy : ∀ p, y (ix2 p 0) = g p) :
    ∑ i : S4096x1.Idx, y i = ∑ p : Fin 4096, g p := by
  rw [sum_idx2]
  refine Finset.sum_congr rfl fun p _ => ?_
  rw [Fin.sum_univ_one]
  exact hy p

/-- THE KERNEL'S RESULT is the loss of the launch's feature matrix and labels. -/
theorem W5_v9 : (W5 m c main_v9 : Vec Ideal S_ .f32) = fun _ => Cert.Loss.loss (xK m c) (labK m c) := by
  rw [W5_v9_eq]
  have hy0 : ∀ p, (W4 m c main_v7 : Vec Ideal S4096x1 .f32) (ix2 p 0) = Cert.Loss.rowLoss (xK m c) (labK m c) p := fun p => by
    rw [show W4 m c main_v7 = lossOut (W3 m) c from exit1_v7 (W3 m) c]; exact lossOut_apply m c p
  generalize (W4 m c main_v7 : Vec Ideal S4096x1 .f32) = y0 at hy0 ⊢
  funext j
  unfold Cert.Loss.loss
  simp only [Host.divf, Host.reduceAdd, Ideal.hostDivf_def, Ideal.hostReduceAdd_def]
  rw [Ideal.hostReduceAdd_total reducesTo_S4096x1_S_d0_1 (fun b => b.elim0) y0 _ j]
  rw [show (constant (F := Ideal) S_ .f32 0x00000000#32) (Shape.Idx.first h_S_) = Ideal.ofBits .f32 0x00000000#32 from rfl,
    Ideal.ofBits_zero_f32, zero_add, sum_rows _ y0 hy0]
  rfl

end Cert.KernelIdeal.Hand

end
-- ==== Proof.Ref.RefRows.lean ====
/-
  The reference program's per-row stages, read at an index written by its coordinates: the least positive and the
  greatest negative similarity of a row (the host's minimum from +∞ and maximum from -∞ along the row are the
  infimum and the supremum of the masked row), the selected negatives and positives, the two exponential sums,
  the two "some pair is selected" bits, and the row's loss.
-/
import proofs.«136741_j45509473469192_1_alg».proof.Proof.Ref.RefSim
import proofs.«136741_j45509473469192_1_alg».proof.Proof.Ref.RefFolds
import proofs.«136741_j45509473469192_1_alg».proof.Proof.LibHostRowMax

noncomputable section

namespace Cert.RefSide

open Cert.ReferenceIdeal Cert.ReferenceIdeal.Gen Cert.ReferenceIdeal.Read Idealize.ShloMosaic Idealize.ShloMosaic.ValueIdx
open Cert.Loss

variable (a0 : (⟨S4096x1024, .f32⟩ : BufTy).Contents (Elt Ideal)) (a1 : (⟨S4096, .i32⟩ : BufTy).Contents (Elt Ideal))

/-! ## Index equations -/

theorem idx_v20 (p : Fin 4096) (u : Fin 1) : idx_main_v20 (ix2 p u) = ix1 p :=
  funext fun a => Fin.ext (by match a with | ⟨0, _⟩ => rfl)
theorem idx_v21 (p q : Fin 4096) : idx_main_v21 (ix2 p q) = ix2 p (0 : Fin 1) :=
  funext fun a => Fin.ext (by match a with | ⟨0, _⟩ => rfl | ⟨1, _⟩ => rfl)
theorem idx_v26 (p : Fin 4096) (u : Fin 1) : idx_main_v26 (ix2 p u) = ix1 p :=
  funext fun a => Fin.ext (by match a with | ⟨0, _⟩ => rfl)
theorem idx_v27 (p q : Fin 4096) : idx_main_v27 (ix2 p q) = ix2 p (0 : Fin 1) :=
  funext fun a => Fin.ext (by match a with | ⟨0, _⟩ => rfl | ⟨1, _⟩ => rfl)
theorem idx_v36 (p q : Fin 4096) : idx_main_v36 (ix1 p) q = ix2 p q :=
  funext fun a => Fin.ext (by match a with | ⟨0, _⟩ => rfl | ⟨1, _⟩ => rfl)
theorem idx_v43 (p q : Fin 4096) : idx_main_v43 (ix1 p) q = ix2 p q :=
  funext fun a => Fin.ext (by match a with | ⟨0, _⟩ => rfl | ⟨1, _⟩ => rfl)

/-! ## The least positive and the greatest negative similarity of a row -/

/-- The broadcast +∞ of the first masked matrix. -/
theorem posInf_apply (i : S4096x4096.Idx) : val_main_call1_v1 (F := Ideal) i = (⊤ : EReal) := by
  rw [val_main_call1_v1_apply]; exact ofBits_posInf
/-- The broadcast -∞ of the second masked matrix. -/
theorem negInf_apply (i : S4096x4096.Idx) : val_main_call2_v1 (F := Ideal) i = (⊥ : EReal) := by
  rw [val_main_call2_v1_apply]; exact ofBits_negInf

/-- The similarity where the pair is a positive, +∞ elsewhere. -/
theorem posMasked_apply (p q : Fin 4096) :
    val_main_v14 (F := Ideal) a0 a1 (ix2 p q)
      = Scalar.select (posM (xOf a0) (labOf a1) p q) (sim (xOf a0) p q) (⊤ : EReal) := by
  rw [val_main_v14_apply, posM_apply, sim_apply, posInf_apply]
/-- The similarity where the pair is a negative, -∞ elsewhere. -/
theorem negMasked_apply (p q : Fin 4096) :
    val_main_v16 (F := Ideal) a0 a1 (ix2 p q)
      = Scalar.select (negM (labOf a1) p q) (sim (xOf a0) p q) (⊥ : EReal) := by
  rw [val_main_v16_apply, negM_apply, sim_apply, negInf_apply]

/-- The least positive similarity of row p. -/
theorem minPos_apply (p : Fin 4096) : val_main_v15 (F := Ideal) a0 a1 (ix1 p) = minPos (xOf a0) (labOf a1) p := by
  unfold val_main_v15
  refine (host_min_rows_apply (a := 4096) (b := 4096) (val_main_v14 (F := Ideal) a0 a1) (val_main_cst_1 (F := Ideal))
    reducesTo_S4096x4096_S4096_d1 (by decide) h_S_ p).trans ?_
  rw [show (val_main_cst_1 (F := Ideal)) ix0 = (⊤ : EReal) from ofBits_posInf, fold_min_top]
  exact iInf_congr fun q => posMasked_apply a0 a1 p q

/-- The greatest negative similarity of row p. -/
theorem maxNeg_apply (p : Fin 4096) : val_main_v17 (F := Ideal) a0 a1 (ix1 p) = maxNeg (xOf a0) (labOf a1) p := by
  unfold val_main_v17
  refine (Cert.LibHostRowMax.host_max_rows_apply (a := 4096) (b := 4096) (val_main_v16 (F := Ideal) a0 a1)
    (val_main_cst_3 (F := Ideal)) reducesTo_S4096x4096_S4096_d1 (by decide) h_S_ p).trans ?_
  rw [show (val_main_cst_3 (F := Ideal)) ix0 = (⊥ : EReal) from ofBits_negInf, fold_max_bot]
  exact iSup_congr fun q => negMasked_apply a0 a1 p q

/-! ## The selected negatives and positives -/

theorem marginA_apply (i : S4096x4096.Idx) : val_main_v18 (F := Ideal) i = cMargin := by
  rw [val_main_v18_apply]; rfl
theorem marginB_apply (i : S4096x4096.Idx) : val_main_v24 (F := Ideal) i = cMargin := by
  rw [val_main_v24_apply]; rfl

/-- The row's least positive, broadcast along the row. -/
theorem minPosB_apply (p q : Fin 4096) : val_main_v21 (F := Ideal) a0 a1 (ix2 p q) = minPos (xOf a0) (labOf a1) p := by
  rw [val_main_v21_apply, idx_v21, val_main_v20_apply, idx_v20, minPos_apply]
/-- The row's greatest negative, broadcast along the row. -/
theorem maxNegB_apply (p q : Fin 4096) : val_main_v27 (F := Ideal) a0 a1 (ix2 p q) = maxNeg (xOf a0) (labOf a1) p := by
  rw [val_main_v27_apply, idx_v27, val_main_v26_apply, idx_v26, maxNeg_apply]

/-- The selected negatives. -/
theorem negSel_apply (p q : Fin 4096) : val_main_v23 (F := Ideal) a0 a1 (ix2 p q) = negSel (xOf a0) (labOf a1) p q := by
  rw [val_main_v23_apply, negM_apply, val_main_v22_apply, val_main_v19_apply, sim_apply, marginA_apply, minPosB_apply]
  rfl
/-- The selected positives. -/
theorem posSel_apply (p q : Fin 4096) : val_main_v29 (F := Ideal) a0 a1 (ix2 p q) = posSel (xOf a0) (labOf a1) p q := by
  rw [val_main_v29_apply, posM_apply, val_main_v28_apply, val_main_v25_apply, sim_apply, marginB_apply, maxNegB_apply]
  rfl

/-! ## The two exponential sums -/

theorem halfA_apply (i : S4096x4096.Idx) : val_main_v30 (F := Ideal) i = cHalf := by
  rw [val_main_v30_apply]; rfl
theorem halfB_apply (i : S4096x4096.Idx) : val_main_v37 (F := Ideal) i = cHalf := by
  rw [val_main_v37_apply]; rfl
theorem posScale_apply (i : S4096x4096.Idx) : val_main_v32 (F := Ideal) i = cPosScale := by
  rw [val_main_v32_apply]; rfl
theorem negScale_apply (i : S4096x4096.Idx) : val_main_v39 (F := Ideal) i = cNegScale := by
  rw [val_main_v39_apply]; rfl
theorem zeroA_apply (i : S4096x4096.Idx) : val_main_call3_v1 (F := Ideal) i = (0 : EReal) := by
  rw [val_main_call3_v1_apply]; exact Ideal.ofBits_zero_f32
theorem zeroB_apply (i : S4096x4096.Idx) : val_main_call4_v1 (F := Ideal) i = (0 : EReal) := by
  rw [val_main_call4_v1_apply]; exact Ideal.ofBits_zero_f32

/-- The positives' exponential term. -/
theorem posTerm_apply (p q : Fin 4096) :
    val_main_v34 (F := Ideal) a0 (ix2 p q) = Ideal.exp (cPosScale * (sim (xOf a0) p q - cHalf)) := by
  rw [val_main_v34_apply, val_main_v33_apply, posScale_apply, val_main_v31_apply, sim_apply, halfA_apply]
  rfl
/-- The negatives' exponential term. -/
theorem negTerm_apply (p q : Fin 4096) :
    val_main_v41 (F := Ideal) a0 (ix2 p q) = Ideal.exp (cNegScale * (sim (xOf a0) p q - cHalf)) := by
  rw [val_main_v41_apply, val_main_v40_apply, negScale_apply, val_main_v38_apply, sim_apply, halfB_apply]
  rfl

/-- The positives' sum of row p. -/
theorem posSum_apply (p : Fin 4096) : val_main_v36 (F := Ideal) a0 a1 (ix1 p) = posSum (xOf a0) (labOf a1) p := by
  rw [val_main_v36_apply]
  rw [show (val_main_cst_9 (F := Ideal)) (Shape.Idx.first h_S_) = Ideal.ofBits .f32 0x00000000#32 from rfl,
    Ideal.ofBits_zero_f32, zero_add]
  refine Finset.sum_congr rfl fun q _ => ?_
  rw [idx_v36, val_main_v35_apply, posSel_apply, posTerm_apply, zeroA_apply]
/-- The negatives' sum of row p. -/
theorem negSum_apply (p : Fin 4096) : val_main_v43 (F := Ideal) a0 a1 (ix1 p) = negSum (xOf a0) (labOf a1) p := by
  rw [val_main_v43_apply]
  rw [show (val_main_cst_13 (F := Ideal)) (Shape.Idx.first h_S_) = Ideal.ofBits .f32 0x00000000#32 from rfl,
    Ideal.ofBits_zero_f32, zero_add]
  refine Finset.sum_congr rfl fun q _ => ?_
  rw [idx_v43, val_main_v42_apply, negSel_apply, negTerm_apply, zeroB_apply]

/-! ## The row's loss -/

theorem two_apply (i : S4096.Idx) : val_main_v45 (F := Ideal) i = cTwo := by
  rw [val_main_v45_apply]; rfl
theorem negScaleRow_apply (i : S4096.Idx) : val_main_v48 (F := Ideal) i = cNegScale := by
  rw [val_main_v48_apply]; rfl
theorem zeroRow_apply (i : S4096.Idx) : val_main_call5_v1 (F := Ideal) i = (0 : EReal) := by
  rw [val_main_call5_v1_apply]; exact Ideal.ofBits_zero_f32

/-- The two logarithmic terms of row p, added. -/
theorem rowTerm_apply (p : Fin 4096) :
    val_main_v53 (F := Ideal) a0 a1 (ix1 p)
      = Ideal.div (Ideal.log1p (posSum (xOf a0) (labOf a1) p)) cTwo
        + Ideal.div (Ideal.log1p (negSum (xOf a0) (labOf a1) p)) cNegScale := by
  rw [val_main_v53_apply, val_main_v46_apply, val_main_v44_apply, posSum_apply, two_apply,
    val_main_v49_apply, val_main_v47_apply, negSum_apply, negScaleRow_apply]
  rfl

/-- "Row p has a selected positive". -/
theorem anyPos_apply (p : Fin 4096) :
    val_main_v50 (F := Ideal) a0 a1 (ix1 p) = 1#1 ↔ ∃ q, posSel (xOf a0) (labOf a1) p q = 1#1 := by
  unfold val_main_v50
  rw [host_or_rows_eq_one (a := 4096) (b := 4096) (val_main_v29 (F := Ideal) a0 a1) (val_main_c (F := Ideal)) rfl
    reducesTo_S4096x4096_S4096_d1 (by decide) h_S_ p]
  exact exists_congr fun q => by rw [posSel_apply]
/-- "Row p has a selected negative". -/
theorem anyNeg_apply (p : Fin 4096) :
    val_main_v51 (F := Ideal) a0 a1 (ix1 p) = 1#1 ↔ ∃ q, negSel (xOf a0) (labOf a1) p q = 1#1 := by
  unfold val_main_v51
  rw [host_or_rows_eq_one (a := 4096) (b := 4096) (val_main_v23 (F := Ideal) a0 a1) (val_main_c_16 (F := Ideal)) rfl
    reducesTo_S4096x4096_S4096_d1 (by decide) h_S_ p]
  exact exists_congr fun q => by rw [negSel_apply]

/-- The loss of row p. -/
theorem rowLoss_apply (p : Fin 4096) : val_main_v54 (F := Ideal) a0 a1 (ix1 p) = rowLoss (xOf a0) (labOf a1) p := by
  rw [val_main_v54_apply, select_eq_ite, val_main_v52_apply]
  unfold rowLoss
  have hc : IntOp.andi (val_main_v50 (F := Ideal) a0 a1 (ix1 p)) (val_main_v51 (F := Ideal) a0 a1 (ix1 p)) = 1#1
      ↔ ((∃ q, posSel (xOf a0) (labOf a1) p q = 1#1) ∧ (∃ q, negSel (xOf a0) (labOf a1) p q = 1#1)) := by
    rw [IntOp.andi_eq_one, anyPos_apply, anyNeg_apply]
  by_cases h : (∃ q, posSel (xOf a0) (labOf a1) p q = 1#1) ∧ (∃ q, negSel (xOf a0) (labOf a1) p q = 1#1)
  · rw [if_pos h, if_pos (hc.mpr h)]
    exact rowTerm_apply a0 a1 p
  · rw [if_neg h, if_neg (mt hc.mp h)]
    exact zeroRow_apply _

end Cert.RefSide

end
-- ==== Proof.Ref.RefSide.lean ====
/-
  The reference program's result is the loss function of the specification, read stage by stage.
-/
import proofs.«136741_j45509473469192_1_alg».proof.Proof.Gen.ReferenceIdeal.Read
import proofs.«136741_j45509473469192_1_alg».proof.Proof.Spec
import proofs.«136741_j45509473469192_1_alg».proof.Proof.Ref.RefRows
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.RefSide

open Cert.ReferenceIdeal Cert.ReferenceIdeal.Gen Cert.ReferenceIdeal.Read Idealize.ShloMosaic Idealize.ShloMosaic.ValueIdx
open Idealize.ShloMosaic.TcCoe Idealize.SL.Sem
open Cert.Loss

/-- A rank-1 index set is its coordinate range, so a sum over it is the sum over the coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  exact (Equiv.sum_comp e.symm f).symm

/-- The reference's result, as a function of its two argument arrays, is the loss of the feature matrix and the
    labels: the rows' losses summed from the zero word and divided by the number of rows. -/
theorem result_eq (a0 : (⟨S4096x1024, .f32⟩ : BufTy).Contents (Elt Ideal)) (a1 : (⟨S4096, .i32⟩ : BufTy).Contents (Elt Ideal)) :
    val_main_v56 (F := Ideal) a0 a1 = fun _ => loss (xOf a0) (labOf a1) := by
  funext i
  rw [val_main_v56_apply, val_main_v55_apply]
  rw [show (val_main_cst_18 (F := Ideal)) (Shape.Idx.first h_S_) = Ideal.ofBits .f32 0x00000000#32 from rfl,
    Ideal.ofBits_zero_f32, zero_add]
  rw [show (∑ j : S4096.Idx, val_main_v54 (F := Ideal) a0 a1 j) = ∑ p : Fin 4096, rowLoss (xOf a0) (labOf a1) p from
    (sum_idx1 _).trans (Finset.sum_congr rfl fun p _ => rowLoss_apply a0 a1 p)]
  rfl

/-- Every weakly fair execution of the reference program terminates with its result at the loss of the launch
    contents of its two arguments, the arguments unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v56)
            = (fun _ => loss (xOf (m' ((c.tc : Thread nD τ).loc main_arg0))) (labOf (m' ((c.tc : Thread nD τ).loc main_arg1))))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run (Cert.ReferenceIdeal.defs (F := Ideal)) _ _).mono
    (fun _ h c => ⟨((h c).1.trans (val_main_v56_eq m' c)).trans (result_eq _ _), (h c).2⟩)
    (Cert.ReferenceIdeal.Value.run (F := Ideal) m' ρ')

end Cert.RefSide

end
-- ==== Proof.lean ====
/-
  The certificate of a two-pass tiled kernel for the multi-similarity loss against its jnp reference.

  Both programs normalise the rows of a 4096 × 1024 feature matrix and work with the similarity matrix
  sim = f · fᵀ. The reference forms it whole and reduces along rows: the least positive and the greatest negative
  similarity of each row, the margin selections, two exponential sums, the row's loss, the mean. The kernel never
  forms sim: a first pass walks each row tile of 512 rows along its 8 column tiles keeping a running minimum and a
  running maximum; a second pass walks the same tiles keeping two running sums and two "something was selected"
  flags, and turns them into the rows' losses at the last column tile.

  Over the extended reals the two are one function (Spec.lean's `Cert.Loss.loss`): a minimum or maximum taken tile
  by tile is the infimum or supremum over the whole row (compare lower, resp. upper, bounds); a sum taken tile by
  tile is the whole sum (addition is commutative and associative; no finiteness is needed); a running maximum from 0
  of 0/1 values is positive exactly when some value is 1, which is the reference's row-wise "any". Every float
  literal is the same word on both sides and is never evaluated, except 0, +inf and -inf.

  The frames: each pass is a pipelined region over an 8 × 8 grid whose scratch columns are carried from point to
  point (reset at a row's first column tile, read out at its last); the normalised feature matrix is read through
  two windows (row tile, column tile), so its share is dealt in halves between them at the region's entry and
  joined again at its exit. The run is followed from the launch to the end through every unscoped buffer's
  contents; the frame claims and the result's value are read off the final contents.
-/
import proofs.«136741_j45509473469192_1_alg».proof.Defs
import proofs.«136741_j45509473469192_1_alg».proof.Proof.Gen.Kernel
import proofs.«136741_j45509473469192_1_alg».proof.Proof.Gen.KernelIdeal
import proofs.«136741_j45509473469192_1_alg».proof.Proof.Gen.ReferenceIdeal
import proofs.«136741_j45509473469192_1_alg».proof.Proof.Gen.Pre_finite_inputs
import proofs.«136741_j45509473469192_1_alg».proof.Proof.KB.Args
import proofs.«136741_j45509473469192_1_alg».proof.Proof.KI.Value
import proofs.«136741_j45509473469192_1_alg».proof.Proof.Ref.RefSide

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Hand.frame_run (F := Bits) m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame_run (F := Ideal) m ρ

/-- The reference runs and leaves its arguments unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefSide.ref_run m ρ)

/-- From memories agreeing on the arguments both programs end with the loss of the feature matrix and the labels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Loss.loss (Cert.KernelIdeal.Hand.xK m c) (Cert.KernelIdeal.Hand.labK m c), ?_, ?_⟩
  · exact (θ_run (Cert.KernelIdeal.defs (F := Ideal)) _ _).mono (fun r h c =>
      ⟨(h c _ (Cert.KernelIdeal.Hand.mem_uc Cert.KernelIdeal.main_v9 (by decide))).trans (Cert.KernelIdeal.Hand.W5_v9 m c),
       (h c _ (Cert.KernelIdeal.Hand.mem_uc Cert.KernelIdeal.main_arg0 (by decide))).trans (Cert.KernelIdeal.Hand.W5_arg0 m c),
       (h c _ (Cert.KernelIdeal.Hand.mem_uc Cert.KernelIdeal.main_arg1 (by decide))).trans (Cert.KernelIdeal.Hand.W5_arg1 m c)⟩)
      (Cert.KernelIdeal.Hand.run_all (F := Ideal) m ρ)
  · exact (θ_run (Cert.ReferenceIdeal.defs (F := Ideal)) _ _).mono (fun r h c =>
      ⟨by rw [(h c).1, (hagree c).1, (hagree c).2]; rfl, (h c).2.1, (h c).2.2⟩)
      (Cert.RefSide.ref_run m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
